-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S100000x7 : Shape := ⟨2, ![100000, 7]⟩
abbrev S100000x11 : Shape := ⟨2, ![100000, 11]⟩
abbrev S100000x1 : Shape := ⟨2, ![100000, 1]⟩
abbrev S2x1600000 : Shape := ⟨2, ![2, 1600000]⟩
abbrev S1600000 : Shape := ⟨1, ![1600000]⟩
abbrev S768x28 : Shape := ⟨2, ![768, 28]⟩
abbrev S28 : Shape := ⟨1, ![28]⟩
abbrev S768x36 : Shape := ⟨2, ![768, 36]⟩
abbrev S36 : Shape := ⟨1, ![36]⟩
abbrev S7x12 : Shape := ⟨2, ![7, 12]⟩
abbrev S12 : Shape := ⟨1, ![12]⟩
abbrev S11x40 : Shape := ⟨2, ![11, 40]⟩
abbrev S40 : Shape := ⟨1, ![40]⟩
abbrev S1x12 : Shape := ⟨2, ![1, 12]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x7 : S_.BroadcastsInDim S100000x7 (![] : Fin 0 → Fin S100000x7.rank)
  reducesTo_S100000x7_S_d0_1 : S100000x7.ReducesTo [0, 1] S_
  bcast_S_S100000x11 : S_.BroadcastsInDim S100000x11 (![] : Fin 0 → Fin S100000x11.rank)
  reducesTo_S100000x11_S_d0_1 : S100000x11.ReducesTo [0, 1] S_
  bcast_S_S100000x1 : S_.BroadcastsInDim S100000x1 (![] : Fin 0 → Fin S100000x1.rank)
  reducesTo_S100000x1_S_d0_1 : S100000x1.ReducesTo [0, 1] S_
  bcast_S_S768x28 : S_.BroadcastsInDim S768x28 (![] : Fin 0 → Fin S768x28.rank)
  reducesTo_S768x28_S_d0_1 : S768x28.ReducesTo [0, 1] S_
  bcast_S_S28 : S_.BroadcastsInDim S28 (![] : Fin 0 → Fin S28.rank)
  reducesTo_S28_S_d0 : S28.ReducesTo [0] S_
  bcast_S_S768x36 : S_.BroadcastsInDim S768x36 (![] : Fin 0 → Fin S768x36.rank)
  reducesTo_S768x36_S_d0_1 : S768x36.ReducesTo [0, 1] S_
  bcast_S_S36 : S_.BroadcastsInDim S36 (![] : Fin 0 → Fin S36.rank)
  reducesTo_S36_S_d0 : S36.ReducesTo [0] S_
  bcast_S_S7x12 : S_.BroadcastsInDim S7x12 (![] : Fin 0 → Fin S7x12.rank)
  reducesTo_S7x12_S_d0_1 : S7x12.ReducesTo [0, 1] S_
  bcast_S_S12 : S_.BroadcastsInDim S12 (![] : Fin 0 → Fin S12.rank)
  reducesTo_S12_S_d0 : S12.ReducesTo [0] S_
  bcast_S_S11x40 : S_.BroadcastsInDim S11x40 (![] : Fin 0 → Fin S11x40.rank)
  reducesTo_S11x40_S_d0_1 : S11x40.ReducesTo [0, 1] S_
  bcast_S_S40 : S_.BroadcastsInDim S40 (![] : Fin 0 → Fin S40.rank)
  reducesTo_S40_S_d0 : S40.ReducesTo [0] S_
  bcast_S_S1x12 : S_.BroadcastsInDim S1x12 (![] : Fin 0 → Fin S1x12.rank)
  reducesTo_S1x12_S_d0_1 : S1x12.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part7 {F : FTy → Type} [FloatOps F] (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  main_v123

def fn_part6 {F : FTy → Type} [FloatOps F] (main_arg23 : FVec F S128x128 .f32) (main_arg24 : FVec F S128 .f32) (main_arg25 : FVec F S128x2 .f32) (main_arg26 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x2 .f32 := Host.absf main_arg25
  let main_cst_44 : FVec F S_ .f32 := constant S_ .f32 0x7F800000#32
  let main_v115 : FVec F S128x2 .f32 := broadcastInDim S128x2 ![] bcast_S_S128x2 main_cst_44
  let main_v116 : IVec S128x2 1 := cmpf .olt main_v114 main_v115
  let main_c_45 : IVec S_ 1 := constantI S_ 1 1#1
  let main_v117 : IVec S_ 1 := (fun x v => Host.reduce IntOp.andi x v reducesTo_S128x2_S_d0_1 h_S_) main_v116 main_c_45
  let main_v118 : IVec S_ 1 := andi main_v113 main_v117
  let main_v119 : FVec F S2 .f32 := Host.absf main_arg26
  fn_part7 (F := F) main_v118 main_v119

def fn_part5 {F : FTy → Type} [FloatOps F] (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S12 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v63 : IVec S_ 1) (main_v67 : IVec S_ 1) : IVec S_ 1 :=
  let main_v68 : IVec S_ 1 := andi main_v63 main_v67
  let main_v69 : FVec F S12 .f32 := Host.absf main_arg16
  let main_cst_26 : FVec F S_ .f32 := constant S_ .f32 0x7F800000#32
  let main_v70 : FVec F S12 .f32 := broadcastInDim S12 ![] bcast_S_S12 main_cst_26
  let main_v71 : IVec S12 1 := cmpf .olt main_v69 main_v70
  let main_c_27 : IVec S_ 1 := constantI S_ 1 1#1
  let main_v72 : IVec S_ 1 := (fun x v => Host.reduce IntOp.andi x v reducesTo_S12_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S11x40 .f32) (main_arg14 : FVec F S40 .f32) (main_arg15 : FVec F S1x12 .f32) (main_arg16 : FVec F S12 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S11x40 .f32 := Host.absf main_arg13
  let main_cst_20 : FVec F S_ .f32 := constant S_ .f32 0x7F800000#32
  let main_v55 : FVec F S11x40 .f32 := broadcastInDim S11x40 ![] bcast_S_S11x40 main_cst_20
  let main_v56 : IVec S11x40 1 := cmpf .olt main_v54 main_v55
  let main_c_21 : IVec S_ 1 := constantI S_ 1 1#1
  let main_v57 : IVec S_ 1 := (fun x v => Host.reduce IntOp.andi x v reducesTo_S11x40_S_d0_1 h_S_) main_v56 main_c_21
  let main_v58 : IVec S_ 1 := andi main_v53 main_v57
  let main_v59 : FVec F S40 .f32 := Host.absf main_arg14
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_v64 : FVec F S1x12 .f32 := Host.absf main_arg15
  let main_cst_24 : FVec F S_ .f32 := constant S_ .f32 0x7F800000#32
  let main_v65 : FVec F S1x12 .f32 := broadcastInDim S1x12 ![] bcast_S_S1x12 main_cst_24
  let main_v66 : IVec S1x12 1 := cmpf .olt main_v64 main_v65
  let main_c_25 : IVec S_ 1 := constantI S_ 1 1#1
  let main_v67 : IVec S_ 1 := (fun x v => Host.reduce IntOp.andi x v reducesTo_S1x12_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S768x36 .f32) (main_arg10 : FVec F S36 .f32) (main_arg11 : FVec F S7x12 .f32) (main_arg12 : FVec F S12 .f32) (main_arg13 : FVec F S11x40 .f32) (main_arg14 : FVec F S40 .f32) (main_arg15 : FVec F S1x12 .f32) (main_arg16 : FVec F S12 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v33 : IVec S_ 1) : IVec S_ 1 :=
  let main_v34 : FVec F S768x36 .f32 := Host.absf main_arg9
  let main_cst_12 : FVec F S_ .f32 := constant S_ .f32 0x7F800000#32
  let main_v35 : FVec F S768x36 .f32 := broadcastInDim S768x36 ![] bcast_S_S768x36 main_cst_12
  let main_v36 : IVec S768x36 1 := cmpf .olt main_v34 main_v35
  let main_c_13 : IVec S_ 1 := constantI S_ 1 1#1
  let main_v37 : IVec S_ 1 := (fun x v => Host.reduce IntOp.andi x v reducesTo_S768x36_S_d0_1 h_S_) main_v36 main_c_13
  let main_v38 : IVec S_ 1 := andi main_v33 main_v37
  let main_v39 : FVec F S36 .f32 := Host.absf main_arg10
  let main_cst_14 : FVec F S_ .f32 := constant S_ .f32 0x7F800000#32
  let main_v40 : FVec F S36 .f32 := broadcastInDim S36 ![] bcast_S_S36 main_cst_14
  let main_v41 : IVec S36 1 := cmpf .olt main_v39 main_v40
  let main_c_15 : IVec S_ 1 := constantI S_ 1 1#1
  let main_v42 : IVec S_ 1 := (fun x v => Host.reduce IntOp.andi x v reducesTo_S36_S_d0 h_S_) main_v41 main_c_15
  let main_v43 : IVec S_ 1 := andi main_v38 main_v42
  let main_v44 : FVec F S7x12 .f32 := Host.absf main_arg11
  let main_cst_16 : FVec F S_ .f32 := constant S_ .f32 0x7F800000#32
  let main_v45 : FVec F S7x12 .f32 := broadcastInDim S7x12 ![] bcast_S_S7x12 main_cst_16
  let main_v46 : IVec S7x12 1 := cmpf .olt main_v44 main_v45
  let main_c_17 : IVec S_ 1 := constantI S_ 1 1#1
  let main_v47 : IVec S_ 1 := (fun x v => Host.reduce IntOp.andi x v reducesTo_S7x12_S_d0_1 h_S_) main_v46 main_c_17
  let main_v48 : IVec S_ 1 := andi main_v43 main_v47
  let main_v49 : FVec F S12 .f32 := Host.absf main_arg12
  let main_cst_18 : FVec F S_ .f32 := constant S_ .f32 0x7F800000#32
  let main_v50 : FVec F S12 .f32 := broadcastInDim S12 ![] bcast_S_S12 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S100000x1 .f32) (main_arg7 : FVec F S768x28 .f32) (main_arg8 : FVec F S28 .f32) (main_arg9 : FVec F S768x36 .f32) (main_arg10 : FVec F S36 .f32) (main_arg11 : FVec F S7x12 .f32) (main_arg12 : FVec F S12 .f32) (main_arg13 : FVec F S11x40 .f32) (main_arg14 : FVec F S40 .f32) (main_arg15 : FVec F S1x12 .f32) (main_arg16 : FVec F S12 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) (main_v13 : IVec S_ 1) (main_v16 : IVec S100000x11 1) : IVec S_ 1 :=
  let main_c_5 : IVec S_ 1 := constantI S_ 1 1#1
  let main_v17 : IVec S_ 1 := (fun x v => Host.reduce IntOp.andi x v reducesTo_S100000x11_S_d0_1 h_S_) main_v16 main_c_5
  let main_v18 : IVec S_ 1 := andi main_v13 main_v17
  let main_v19 : FVec F S100000x1 .f32 := Host.absf main_arg4
  let main_cst_6 : FVec F S_ .f32 := constant S_ .f32 0x7F800000#32
  let main_v20 : FVec F S100000x1 .f32 := broadcastInDim S100000x1 ![] bcast_S_S100000x1 main_cst_6
  let main_v21 : IVec S100000x1 1 := cmpf .olt main_v19 main_v20
  let main_c_7 : IVec S_ 1 := constantI S_ 1 1#1
  let main_v22 : IVec S_ 1 := (fun x v => Host.reduce IntOp.andi x v reducesTo_S100000x1_S_d0_1 h_S_) main_v21 main_c_7
  let main_v23 : IVec S_ 1 := andi main_v18 main_v22
  let main_v24 : FVec F S768x28 .f32 := Host.absf main_arg7
  let main_cst_8 : FVec F S_ .f32 := constant S_ .f32 0x7F800000#32
  let main_v25 : FVec F S768x28 .f32 := broadcastInDim S768x28 ![] bcast_S_S768x28 main_cst_8
  let main_v26 : IVec S768x28 1 := cmpf .olt main_v24 main_v25
  let main_c_9 : IVec S_ 1 := constantI S_ 1 1#1
  let main_v27 : IVec S_ 1 := (fun x v => Host.reduce IntOp.andi x v reducesTo_S768x28_S_d0_1 h_S_) main_v26 main_c_9
  let main_v28 : IVec S_ 1 := andi main_v23 main_v27
  let main_v29 : FVec F S28 .f32 := Host.absf main_arg8
  let main_cst_10 : FVec F S_ .f32 := constant S_ .f32 0x7F800000#32
  let main_v30 : FVec F S28 .f32 := broadcastInDim S28 ![] bcast_S_S28 main_cst_10
  let main_v31 : IVec S28 1 := cmpf .olt main_v29 main_v30
  let main_c_11 : IVec S_ 1 := constantI S_ 1 1#1
  let main_v32 : IVec S_ 1 := (fun x v => Host.reduce IntOp.andi x v reducesTo_S28_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x768 .f32) (main_arg1 : FVec F S100000x768 .f32) (main_arg2 : FVec F S100000x7 .f32) (main_arg3 : FVec F S100000x11 .f32) (main_arg4 : FVec F S100000x1 .f32) (main_arg5 : IVec S2x1600000 32) (main_arg6 : IVec S1600000 32) (main_arg7 : FVec F S768x28 .f32) (main_arg8 : FVec F S28 .f32) (main_arg9 : FVec F S768x36 .f32) (main_arg10 : FVec F S36 .f32) (main_arg11 : FVec F S7x12 .f32) (main_arg12 : FVec F S12 .f32) (main_arg13 : FVec F S11x40 .f32) (main_arg14 : FVec F S40 .f32) (main_arg15 : FVec F S1x12 .f32) (main_arg16 : FVec F S12 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) (main_arg25 : FVec F S128x2 .f32) (main_arg26 : FVec F S2 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S100000x7 .f32 := Host.absf main_arg2
  let main_cst_2 : FVec F S_ .f32 := constant S_ .f32 0x7F800000#32
  let main_v10 : FVec F S100000x7 .f32 := broadcastInDim S100000x7 ![] bcast_S_S100000x7 main_cst_2
  let main_v11 : IVec S100000x7 1 := cmpf .olt main_v9 main_v10
  let main_c_3 : IVec S_ 1 := constantI S_ 1 1#1
  let main_v12 : IVec S_ 1 := (fun x v => Host.reduce IntOp.andi x v reducesTo_S100000x7_S_d0_1 h_S_) main_v11 main_c_3
  let main_v13 : IVec S_ 1 := andi main_v8 main_v12
  let main_v14 : FVec F S100000x11 .f32 := Host.absf main_arg3
  let main_cst_4 : FVec F S_ .f32 := constant S_ .f32 0x7F800000#32
  let main_v15 : FVec F S100000x11 .f32 := broadcastInDim S100000x11 ![] bcast_S_S100000x11 main_cst_4
  let main_v16 : IVec S100000x11 1 := cmpf .olt main_v14 main_v15
  fn_part1 (F := F) main_arg4 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x768 : Shape := ⟨2, ![100000, 768]⟩
abbrev S100000x7 : Shape := ⟨2, ![100000, 7]⟩
abbrev S100000x11 : Shape := ⟨2, ![100000, 11]⟩
abbrev S100000x1 : Shape := ⟨2, ![100000, 1]⟩
abbrev S2x1600000 : Shape := ⟨2, ![2, 1600000]⟩
abbrev S1600000 : Shape := ⟨1, ![1600000]⟩
abbrev S768x28 : Shape := ⟨2, ![768, 28]⟩
abbrev S28 : Shape := ⟨1, ![28]⟩
abbrev S768x36 : Shape := ⟨2, ![768, 36]⟩
abbrev S36 : Shape := ⟨1, ![36]⟩
abbrev S7x12 : Shape := ⟨2, ![7, 12]⟩
abbrev S12 : Shape := ⟨1, ![12]⟩
abbrev S11x40 : Shape := ⟨2, ![11, 40]⟩
abbrev S40 : Shape := ⟨1, ![40]⟩
abbrev S1x12 : Shape := ⟨2, ![1, 12]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000x128 : Shape := ⟨2, ![100000, 128]⟩
abbrev S1000x768 : Shape := ⟨2, ![1000, 768]⟩
abbrev S1000x7 : Shape := ⟨2, ![1000, 7]⟩
abbrev S1000x11 : Shape := ⟨2, ![1000, 11]⟩
abbrev S1000x1 : Shape := ⟨2, ![1000, 1]⟩
abbrev S1000x128 : Shape := ⟨2, ![1000, 128]⟩
abbrev S1000x28 : Shape := ⟨2, ![1000, 28]⟩
abbrev S1x28 : Shape := ⟨2, ![1, 28]⟩
abbrev S1000x36 : Shape := ⟨2, ![1000, 36]⟩
abbrev S1x36 : Shape := ⟨2, ![1, 36]⟩
abbrev S1000x12 : Shape := ⟨2, ![1000, 12]⟩
abbrev S1000x40 : Shape := ⟨2, ![1000, 40]⟩
abbrev S1x40 : Shape := ⟨2, ![1, 40]⟩
abbrev S28x128 : Shape := ⟨2, ![28, 128]⟩
abbrev S36x128 : Shape := ⟨2, ![36, 128]⟩
abbrev S12x128 : Shape := ⟨2, ![12, 128]⟩
abbrev S40x128 : Shape := ⟨2, ![40, 128]⟩
abbrev S1x128 : Shape := ⟨2, ![1, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S5000x1 : Shape := ⟨2, ![5000, 1]⟩
abbrev S1600000x128 : Shape := ⟨2, ![1600000, 128]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 79
  | .vmem => 54
  | .smem => 0
  | _ => 0

abbrev bufTy : (tb : Table) → Fin (tcTables nBuf tb) → BufTy
  | .hbm, ⟨0, _⟩ => ⟨S100000x768, .f32⟩
  | .hbm, ⟨1, _⟩ => ⟨S100000x768, .f32⟩
  | .hbm, ⟨2, _⟩ => ⟨S100000x7, .f32⟩
  | .hbm, ⟨3, _⟩ => ⟨S100000x11, .f32⟩
  | .hbm, ⟨4, _⟩ => ⟨S100000x1, .f32⟩
  | .hbm, ⟨5, _⟩ => ⟨S2x1600000, .i32⟩
  | .hbm, ⟨6, _⟩ => ⟨S1600000, .i32⟩
  | .hbm, ⟨7, _⟩ => ⟨S768x28, .f32⟩
  | .hbm, ⟨8, _⟩ => ⟨S28, .f32⟩
  | .hbm, ⟨9, _⟩ => ⟨S768x36, .f32⟩
  | .hbm, ⟨10, _⟩ => ⟨S36, .f32⟩
  | .hbm, ⟨11, _⟩ => ⟨S7x12, .f32⟩
  | .hbm, ⟨12, _⟩ => ⟨S12, .f32⟩
  | .hbm, ⟨13, _⟩ => ⟨S11x40, .f32⟩
  | .hbm, ⟨14, _⟩ => ⟨S40, .f32⟩
  | .hbm, ⟨15, _⟩ => ⟨S1x12, .f32⟩
  | .hbm, ⟨16, _⟩ => ⟨S12, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x2, .f32⟩
  | .hbm, ⟨26, _⟩ => ⟨S2, .f32⟩
  | .hbm, ⟨27, _⟩ => ⟨S100000x128, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .i1⟩
  | .hbm, ⟨44, _⟩ => ⟨S100000, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x2, .f32⟩
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S1000x7, .f32⟩
  | .local _ .vmem, ⟨5, _⟩ => ⟨S1000x7, .f32⟩
  | .local _ .vmem, ⟨6, _⟩ => ⟨S1000x11, .f32⟩
  | .local _ .vmem, ⟨7, _⟩ => ⟨S1000x11, .f32⟩
  | .local _ .vmem, ⟨8, _⟩ => ⟨S1000x1, .f32⟩
  | .local _ .vmem, ⟨9, _⟩ => ⟨S1000x1, .f32⟩
  | .local _ .vmem, ⟨10, _⟩ => ⟨S768x28, .f32⟩
  | .local _ .vmem, ⟨11, _⟩ => ⟨S28, .f32⟩
  | .local _ .vmem, ⟨12, _⟩ => ⟨S768x36, .f32⟩
  | .local _ .vmem, ⟨13, _⟩ => ⟨S36, .f32⟩
  | .local _ .vmem, ⟨14, _⟩ => ⟨S7x12, .f32⟩
  | .local _ .vmem, ⟨15, _⟩ => ⟨S12, .f32⟩
  | .local _ .vmem, ⟨16, _⟩ => ⟨S11x40, .f32⟩
  | .local _ .vmem, ⟨17, _⟩ => ⟨S40, .f32⟩
  | .local _ .vmem, ⟨18, _⟩ => ⟨S1x12, .f32⟩
  | .local _ .vmem, ⟨19, _⟩ => ⟨S12, .f32⟩
  | .local _ .vmem, ⟨20, _⟩ => ⟨S128x128, .f32⟩
  | .local _ .vmem, ⟨21, _⟩ => ⟨S128, .f32⟩
  | .local _ .vmem, ⟨22, _⟩ => ⟨S1000x128, .f32⟩
  | .local _ .vmem, ⟨23, _⟩ => ⟨S1000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x1, .f32⟩
  | .local _ .vmem, ⟨28, _⟩ => ⟨S5000x1, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S128x2, .f32⟩
  | .local _ .vmem, ⟨51, _⟩ => ⟨S2, .f32⟩
  | .local _ .vmem, ⟨52, _⟩ => ⟨S5000x2, .f32⟩
  | .local _ .vmem, ⟨53, _⟩ => ⟨S5000x2, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c : Ref sig .tc := ⟨.hbm, 51, rfl⟩
abbrev main_v17 : Ref sig .tc := ⟨.hbm, 52, rfl⟩
abbrev main_v18 : Ref sig .tc := ⟨.hbm, 53, rfl⟩
abbrev main_c_4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_5 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg5_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg8_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem2_0 : DmaSem sig := 27
abbrev cc1_sem2_1 : DmaSem sig := 28
abbrev cc1_sem3_0 : DmaSem sig := 29
abbrev cc1_sem3_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem4_0 : DmaSem sig := 38
abbrev cc2_sem5_0 : DmaSem sig := 39
abbrev cc2_sem5_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x36 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S36 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x12 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S12 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x2 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x28_S768x28_0_0 : ∀ a, (![0, 0] : Fin 2 → Nat) a + S768x28.size a ≤ S768x28.size a
  h_S768x28 : 0 < S768x28.numel
  inb_S28_S28_0 : ∀ a, (![0] : Fin 1 → Nat) a + S28.size a ≤ S28.size a
  h_S28 : 0 < S28.numel
  shapeCasts_S28_S1x28 : S28.ShapeCasts S1x28
  broadcasts_S1x28_S1000x28 : S1x28.Broadcasts S1000x28
  inb_S768x36_S768x36_0_0 : ∀ a, (![0, 0] : Fin 2 → Nat) a + S768x36.size a ≤ S768x36.size a
  h_S768x36 : 0 < S768x36.numel
  inb_S36_S36_0 : ∀ a, (![0] : Fin 1 → Nat) a + S36.size a ≤ S36.size a
  h_S36 : 0 < S36.numel
  shapeCasts_S36_S1x36 : S36.ShapeCasts S1x36
  broadcasts_S1x36_S1000x36 : S1x36.Broadcasts S1000x36
  inb_S1000x7_S1000x7_0_0 : ∀ a, (![0, 0] : Fin 2 → Nat) a + S1000x7.size a ≤ S1000x7.size a
  h_S1000x7 : 0 < S1000x7.numel
  inb_S7x12_S7x12_0_0 : ∀ a, (![0, 0] : Fin 2 → Nat) a + S7x12.size a ≤ S7x12.size a
  h_S7x12 : 0 < S7x12.numel
  inb_S12_S12_0 : ∀ a, (![0] : Fin 1 → Nat) a + S12.size a ≤ S12.size a
  h_S12 : 0 < S12.numel
  shapeCasts_S12_S1x12 : S12.ShapeCasts S1x12
  broadcasts_S1x12_S1000x12 : S1x12.Broadcasts S1000x12
  inb_S1000x11_S1000x11_0_0 : ∀ a, (![0, 0] : Fin 2 → Nat) a + S1000x11.size a ≤ S1000x11.size a
  h_S1000x11 : 0 < S1000x11.numel
  inb_S11x40_S11x40_0_0 : ∀ a, (![0, 0] : Fin 2 → Nat) a + S11x40.size a ≤ S11x40.size a
  h_S11x40 : 0 < S11x40.numel
  inb_S40_S40_0 : ∀ a, (![0] : Fin 1 → Nat) a + S40.size a ≤ S40.size a
  h_S40 : 0 < S40.numel
  shapeCasts_S40_S1x40 : S40.ShapeCasts S1x40
  broadcasts_S1x40_S1000x40 : S1x40.Broadcasts S1000x40
  inb_S1000x1_S1000x1_0_0 : ∀ a, (![0, 0] : Fin 2 → Nat) a + S1000x1.size a ≤ S1000x1.size a
  h_S1000x1 : 0 < S1000x1.numel
  inb_S1x12_S1x12_0_0 : ∀ a, (![0, 0] : Fin 2 → Nat) a + S1x12.size a ≤ S1x12.size a
  h_S1x12 : 0 < S1x12.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  slices_S128x128_o0_0_S28x128 : S128x128.Slices ![0, 0] S28x128
  slices_S128x128_o28_0_S36x128 : S128x128.Slices ![28, 0] S36x128
  slices_S128x128_o64_0_S12x128 : S128x128.Slices ![64, 0] S12x128
  slices_S128x128_o76_0_S40x128 : S128x128.Slices ![76, 0] S40x128
  slices_S128x128_o116_0_S12x128 : S128x128.Slices ![116, 0] S12x128
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S1000x768_S768x28_S1000x28_1_0_0_1_n_n_wf : DotDims.WF S1000x768 S768x28 S1000x28 [1] [0] [0] [1] [] []
  dot_S1000x768_S768x36_S1000x36_1_0_0_1_n_n_wf : DotDims.WF S1000x768 S768x36 S1000x36 [1] [0] [0] [1] [] []
  dot_S1000x7_S7x12_S1000x12_1_0_0_1_n_n_wf : DotDims.WF S1000x7 S7x12 S1000x12 [1] [0] [0] [1] [] []
  dot_S1000x11_S11x40_S1000x40_1_0_0_1_n_n_wf : DotDims.WF S1000x11 S11x40 S1000x40 [1] [0] [0] [1] [] []
  dot_S1000x1_S1x12_S1000x12_1_0_0_1_n_n_wf : DotDims.WF S1000x1 S1x12 S1000x12 [1] [0] [0] [1] [] []
  dot_S1000x28_S28x128_S1000x128_1_0_0_1_n_n_wf : DotDims.WF S1000x28 S28x128 S1000x128 [1] [0] [0] [1] [] []
  dot_S1000x36_S36x128_S1000x128_1_0_0_1_n_n_wf : DotDims.WF S1000x36 S36x128 S1000x128 [1] [0] [0] [1] [] []
  dot_S1000x12_S12x128_S1000x128_1_0_0_1_n_n_wf : DotDims.WF S1000x12 S12x128 S1000x128 [1] [0] [0] [1] [] []
  dot_S1000x40_S40x128_S1000x128_1_0_0_1_n_n_wf : DotDims.WF S1000x40 S40x128 S1000x128 [1] [0] [0] [1] [] []
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S100000x768.size a
  hwx0_0 : ∀ i : grid0.Coords, EltTy.bits .f32 = 32 ∨ (Rect.block (s := S100000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S100000x768.size a
  hwx0_1 : ∀ i : grid0.Coords, EltTy.bits .f32 = 32 ∨ (Rect.block (s := S100000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x7.size a ≤ S100000x7.size a
  hwx0_2 : ∀ i : grid0.Coords, EltTy.bits .f32 = 32 ∨ (Rect.block (s := S100000x7) S1000x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x11.size a ≤ S100000x11.size a
  hwx0_3 : ∀ i : grid0.Coords, EltTy.bits .f32 = 32 ∨ (Rect.block (s := S100000x11) S1000x11.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S100000x1.size a
  hwx0_4 : ∀ i : grid0.Coords, EltTy.bits .f32 = 32 ∨ (Rect.block (s := S100000x1) S1000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x28.size a ≤ S768x28.size a
  hwx0_5 : ∀ i : grid0.Coords, EltTy.bits .f32 = 32 ∨ (Rect.block (s := S768x28) S768x28.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S28.size a ≤ S28.size a
  hwx0_6 : ∀ i : grid0.Coords, EltTy.bits .f32 = 32 ∨ (Rect.block (s := S28) S28.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x36.size a ≤ S768x36.size a
  hwx0_7 : ∀ i : grid0.Coords, EltTy.bits .f32 = 32 ∨ (Rect.block (s := S768x36) S768x36.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S36.size a ≤ S36.size a
  hwx0_8 : ∀ i : grid0.Coords, EltTy.bits .f32 = 32 ∨ (Rect.block (s := S36) S36.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S7x12.size a ≤ S7x12.size a
  hwx0_9 : ∀ i : grid0.Coords, EltTy.bits .f32 = 32 ∨ (Rect.block (s := S7x12) S7x12.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12.size a ≤ S12.size a
  hwx0_10 : ∀ i : grid0.Coords, EltTy.bits .f32 = 32 ∨ (Rect.block (s := S12) S12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S11x40.size a ≤ S11x40.size a
  hwx0_11 : ∀ i : grid0.Coords, EltTy.bits .f32 = 32 ∨ (Rect.block (s := S11x40) S11x40.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40.size a ≤ S40.size a
  hwx0_12 : ∀ i : grid0.Coords, EltTy.bits .f32 = 32 ∨ (Rect.block (s := S40) S40.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x12.size a ≤ S1x12.size a
  hwx0_13 : ∀ i : grid0.Coords, EltTy.bits .f32 = 32 ∨ (Rect.block (s := S1x12) S1x12.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S12.size a ≤ S12.size a
  hwx0_14 : ∀ i : grid0.Coords, EltTy.bits .f32 = 32 ∨ (Rect.block (s := S12) S12.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x128.size a ≤ S100000x128.size a
  hwx0_17 : ∀ i : grid0.Coords, EltTy.bits .f32 = 32 ∨ (Rect.block (s := S100000x128) S1000x128.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x2.size a ≤ S128x2.size a
  hwx3_6 : ∀ i : grid3.Coords, EltTy.bits .f32 = 32 ∨ (Rect.block (s := S128x2) S128x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2.size a ≤ S2.size a
  hwx3_7 : ∀ i : grid3.Coords, EltTy.bits .f32 = 32 ∨ (Rect.block (s := S2) S2.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x2.size a ≤ S100000x2.size a
  hwx3_8 : ∀ i : grid3.Coords, EltTy.bits .f32 = 32 ∨ (Rect.block (s := S100000x2) S5000x2.size (cc3_transform_8 i) (hinb3_8 i)).WholeWords (EltTy.packing .f32)

variable [Facts₀]

def dot_S1000x768_S768x28_S1000x28_1_0_0_1_n_n : DotDims S1000x768 S768x28 S1000x28 where
  lhsContracting := [1]
  rhsContracting := [0]
  lhsNonContracting := [0]
  rhsNonContracting := [1]
  lhsBatch := []
  rhsBatch := []
  wf := dot_S1000x768_S768x28_S1000x28_1_0_0_1_n_n_wf
def dot_S1000x768_S768x36_S1000x36_1_0_0_1_n_n : DotDims S1000x768 S768x36 S1000x36 where
  lhsContracting := [1]
  rhsContracting := [0]
  lhsNonContracting := [0]
  rhsNonContracting := [1]
  lhsBatch := []
  rhsBatch := []
  wf := dot_S1000x768_S768x36_S1000x36_1_0_0_1_n_n_wf
def dot_S1000x7_S7x12_S1000x12_1_0_0_1_n_n : DotDims S1000x7 S7x12 S1000x12 where
  lhsContracting := [1]
  rhsContracting := [0]
  lhsNonContracting := [0]
  rhsNonContracting := [1]
  lhsBatch := []
  rhsBatch := []
  wf := dot_S1000x7_S7x12_S1000x12_1_0_0_1_n_n_wf
def dot_S1000x11_S11x40_S1000x40_1_0_0_1_n_n : DotDims S1000x11 S11x40 S1000x40 where
  lhsContracting := [1]
  rhsContracting := [0]
  lhsNonContracting := [0]
  rhsNonContracting := [1]
  lhsBatch := []
  rhsBatch := []
  wf := dot_S1000x11_S11x40_S1000x40_1_0_0_1_n_n_wf
def dot_S1000x1_S1x12_S1000x12_1_0_0_1_n_n : DotDims S1000x1 S1x12 S1000x12 where
  lhsContracting := [1]
  rhsContracting := [0]
  lhsNonContracting := [0]
  rhsNonContracting := [1]
  lhsBatch := []
  rhsBatch := []
  wf := dot_S1000x1_S1x12_S1000x12_1_0_0_1_n_n_wf
def dot_S1000x28_S28x128_S1000x128_1_0_0_1_n_n : DotDims S1000x28 S28x128 S1000x128 where
  lhsContracting := [1]
  rhsContracting := [0]
  lhsNonContracting := [0]
  rhsNonContracting := [1]
  lhsBatch := []
  rhsBatch := []
  wf := dot_S1000x28_S28x128_S1000x128_1_0_0_1_n_n_wf
def dot_S1000x36_S36x128_S1000x128_1_0_0_1_n_n : DotDims S1000x36 S36x128 S1000x128 where
  lhsContracting := [1]
  rhsContracting := [0]
  lhsNonContracting := [0]
  rhsNonContracting := [1]
  lhsBatch := []
  rhsBatch := []
  wf := dot_S1000x36_S36x128_S1000x128_1_0_0_1_n_n_wf
def dot_S1000x12_S12x128_S1000x128_1_0_0_1_n_n : DotDims S1000x12 S12x128 S1000x128 where
  lhsContracting := [1]
  rhsContracting := [0]
  lhsNonContracting := [0]
  rhsNonContracting := [1]
  lhsBatch := []
  rhsBatch := []
  wf := dot_S1000x12_S12x128_S1000x128_1_0_0_1_n_n_wf
def dot_S1000x40_S40x128_S1000x128_1_0_0_1_n_n : DotDims S1000x40 S40x128 S1000x128 where
  lhsContracting := [1]
  rhsContracting := [0]
  lhsNonContracting := [0]
  rhsNonContracting := [1]
  lhsBatch := []
  rhsBatch := []
  wf := dot_S1000x40_S40x128_S1000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1000x11.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S768x28.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S28.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S768x36.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S36.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S7x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S11x40.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S40.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S1x12.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S12.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1000x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg23) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg24) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg25) S128x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg26) S2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v38) S5000x2.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x768 : Shape := ⟨2, ![100000, 768]⟩
abbrev S100000x7 : Shape := ⟨2, ![100000, 7]⟩
abbrev S100000x11 : Shape := ⟨2, ![100000, 11]⟩
abbrev S100000x1 : Shape := ⟨2, ![100000, 1]⟩
abbrev S2x1600000 : Shape := ⟨2, ![2, 1600000]⟩
abbrev S1600000 : Shape := ⟨1, ![1600000]⟩
abbrev S768x28 : Shape := ⟨2, ![768, 28]⟩
abbrev S28 : Shape := ⟨1, ![28]⟩
abbrev S768x36 : Shape := ⟨2, ![768, 36]⟩
abbrev S36 : Shape := ⟨1, ![36]⟩
abbrev S7x12 : Shape := ⟨2, ![7, 12]⟩
abbrev S12 : Shape := ⟨1, ![12]⟩
abbrev S11x40 : Shape := ⟨2, ![11, 40]⟩
abbrev S40 : Shape := ⟨1, ![40]⟩
abbrev S1x12 : Shape := ⟨2, ![1, 12]⟩
abbrev S128x128 : Shape := ⟨2, ![128, 128]⟩
abbrev S128 : Shape := ⟨1, ![128]⟩
abbrev S128x2 : Shape := ⟨2, ![128, 2]⟩
abbrev S2 : Shape := ⟨1, ![2]⟩
abbrev S100000x28 : Shape := ⟨2, ![100000, 28]⟩
abbrev S1x28 : Shape := ⟨2, ![1, 28]⟩
abbrev S_ : Shape := ⟨0, ![]⟩
abbrev S100000x36 : Shape := ⟨2, ![100000, 36]⟩
abbrev S1x36 : Shape := ⟨2, ![1, 36]⟩
abbrev S100000x12 : Shape := ⟨2, ![100000, 12]⟩
abbrev S100000x40 : Shape := ⟨2, ![100000, 40]⟩
abbrev S1x40 : Shape := ⟨2, ![1, 40]⟩
abbrev S100000x128 : Shape := ⟨2, ![100000, 128]⟩
abbrev S1x128 : Shape := ⟨2, ![1, 128]⟩
abbrev S1x1600000 : Shape := ⟨2, ![1, 1600000]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S100000x2 : Shape := ⟨2, ![100000, 2]⟩
abbrev S1x2 : Shape := ⟨2, ![1, 2]⟩

abbrev nBuf : Space → Nat
  | .hbm => 225
  | .vmem => 0
  | .smem => 0
  | _ => 0

abbrev hbmTy0_0 (i : Nat) : BufTy := match i % 128 with
  | 0 => ⟨S100000x768, .f32⟩
  | 1 => ⟨S100000x768, .f32⟩
  | 2 => ⟨S100000x7, .f32⟩
  | 3 => ⟨S100000x11, .f32⟩
  | 4 => ⟨S100000x1, .f32⟩
  | 5 => ⟨S2x1600000, .i32⟩
  | 6 => ⟨S1600000, .i32⟩
  | 7 => ⟨S768x28, .f32⟩
  | 8 => ⟨S28, .f32⟩
  | 9 => ⟨S768x36, .f32⟩
  | 10 => ⟨S36, .f32⟩
  | 11 => ⟨S7x12, .f32⟩
  | 12 => ⟨S12, .f32⟩
  | 13 => ⟨S11x40, .f32⟩
  | 14 => ⟨S40, .f32⟩
  | 15 => ⟨S1x12, .f32⟩
  | 16 => ⟨S12, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S128x2, .f32⟩
  | 26 => ⟨S2, .f32⟩
  | 27 => ⟨S100000x28, .f32⟩
  | 28 => ⟨S1x28, .f32⟩
  | 29 => ⟨S100000x28, .f32⟩
  | 30 => ⟨S100000x28, .f32⟩
  | 31 => ⟨S_, .f32⟩
  | 32 => ⟨S100000x28, .f32⟩
  | 33 => ⟨S100000x28, .i1⟩
  | 34 => ⟨S_, .f32⟩
  | 35 => ⟨S100000x28, .f32⟩
  | 36 => ⟨S100000x28, .f32⟩
  | 37 => ⟨S100000x28, .f32⟩
  | 38 => ⟨S100000x36, .f32⟩
  | 39 => ⟨S1x36, .f32⟩
  | 40 => ⟨S100000x36, .f32⟩
  | 41 => ⟨S100000x36, .f32⟩
  | 42 => ⟨S_, .f32⟩
  | 43 => ⟨S100000x36, .f32⟩
  | 44 => ⟨S100000x36, .i1⟩
  | 45 => ⟨S_, .f32⟩
  | 46 => ⟨S100000x36, .f32⟩
  | 47 => ⟨S100000x36, .f32⟩
  | 48 => ⟨S100000x36, .f32⟩
  | 49 => ⟨S100000x12, .f32⟩
  | 50 => ⟨S1x12, .f32⟩
  | 51 => ⟨S100000x12, .f32⟩
  | 52 => ⟨S100000x12, .f32⟩
  | 53 => ⟨S_, .f32⟩
  | 54 => ⟨S100000x12, .f32⟩
  | 55 => ⟨S100000x12, .i1⟩
  | 56 => ⟨S_, .f32⟩
  | 57 => ⟨S100000x12, .f32⟩
  | 58 => ⟨S100000x12, .f32⟩
  | 59 => ⟨S100000x12, .f32⟩
  | 60 => ⟨S100000x40, .f32⟩
  | 61 => ⟨S1x40, .f32⟩
  | 62 => ⟨S100000x40, .f32⟩
  | 63 => ⟨S100000x40, .f32⟩
  | 64 => ⟨S_, .f32⟩
  | 65 => ⟨S100000x40, .f32⟩
  | 66 => ⟨S100000x40, .i1⟩
  | 67 => ⟨S_, .f32⟩
  | 68 => ⟨S100000x40, .f32⟩
  | 69 => ⟨S100000x40, .f32⟩
  | 70 => ⟨S100000x40, .f32⟩
  | 71 => ⟨S100000x12, .f32⟩
  | 72 => ⟨S1x12, .f32⟩
  | 73 => ⟨S100000x12, .f32⟩
  | 74 => ⟨S100000x12, .f32⟩
  | 75 => ⟨S_, .f32⟩
  | 76 => ⟨S100000x12, .f32⟩
  | 77 => ⟨S100000x12, .i1⟩
  | 78 => ⟨S_, .f32⟩
  | 79 => ⟨S100000x12, .f32⟩
  | 80 => ⟨S100000x12, .f32⟩
  | 81 => ⟨S100000x12, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .i1⟩
  | 90 => ⟨S_, .f32⟩
  | 91 => ⟨S100000x128, .f32⟩
  | 92 => ⟨S100000x128, .f32⟩
  | 93 => ⟨S100000x128, .f32⟩
  | 94 => ⟨S1x1600000, .i32⟩
  | 95 => ⟨S1600000, .i32⟩
  | 96 => ⟨S1x1600000, .i32⟩
  | 97 => ⟨S1600000, .i32⟩
  | 98 => ⟨S100000x128, .f32⟩
  | 99 => ⟨S100000, .i32⟩
  | 100 => ⟨S1700000, .i32⟩
  | 101 => ⟨S1700000, .i32⟩
  | 102 => ⟨S_, .f32⟩
  | 103 => ⟨S1700000, .f32⟩
  | 104 => ⟨S_, .f32⟩
  | 105 => ⟨S100000, .f32⟩
  | 106 => ⟨S1700000x1, .i32⟩
  | 107 => ⟨S100000, .f32⟩
  | 108 => ⟨S_, .f32⟩
  | 109 => ⟨S100000, .f32⟩
  | 110 => ⟨S100000, .i1⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S_, .i32⟩
  | 126 => ⟨S1700000, .i32⟩
  | 127 => ⟨S1700000, .i1⟩
  | _ => ⟨S100000x768, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S1700000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x128, .f32⟩
  | 16 => ⟨S1700000x1, .f32⟩
  | 17 => ⟨S1700000x128, .f32⟩
  | 18 => ⟨S1700000x128, .f32⟩
  | 19 => ⟨S_, .f32⟩
  | 20 => ⟨S100000x128, .f32⟩
  | 21 => ⟨S1700000x1, .i32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S100000, .i32⟩
  | 28 => ⟨S1700000, .i32⟩
  | 29 => ⟨S1700000, .i32⟩
  | 30 => ⟨S_, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x128, .f32⟩
  | 72 => ⟨S1700000x1, .f32⟩
  | 73 => ⟨S1700000x128, .f32⟩
  | 74 => ⟨S1700000x128, .f32⟩
  | 75 => ⟨S_, .f32⟩
  | 76 => ⟨S100000x128, .f32⟩
  | 77 => ⟨S1700000x1, .i32⟩
  | 78 => ⟨S100000x128, .f32⟩
  | 79 => ⟨S1x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .f32⟩
  | 92 => ⟨S100000x128, .f32⟩
  | 93 => ⟨S100000x2, .f32⟩
  | 94 => ⟨S1x2, .f32⟩
  | 95 => ⟨S100000x2, .f32⟩
  | 96 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_7 : Ref sig .tc := ⟨.hbm, 75, rfl⟩
abbrev main_v40 : Ref sig .tc := ⟨.hbm, 76, rfl⟩
abbrev main_v41 : Ref sig .tc := ⟨.hbm, 77, rfl⟩
abbrev main_cst_8 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_9 : Ref sig .tc := ⟨.hbm, 87, rfl⟩
abbrev main_v50 : Ref sig .tc := ⟨.hbm, 88, rfl⟩
abbrev main_v51 : Ref sig .tc := ⟨.hbm, 89, rfl⟩
abbrev main_cst_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_cst_12 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_13 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_14 : Ref sig .tc := ⟨.hbm, 112, rfl⟩
abbrev main_call6_v0 : Ref sig .tc := ⟨.hbm, 113, rfl⟩
abbrev main_call6_v1 : Ref sig .tc := ⟨.hbm, 114, rfl⟩
abbrev main_v70 : Ref sig .tc := ⟨.hbm, 115, rfl⟩
abbrev main_c : Ref sig .tc := ⟨.hbm, 116, rfl⟩
abbrev main_v71 : Ref sig .tc := ⟨.hbm, 117, rfl⟩
abbrev main_v72 : Ref sig .tc := ⟨.hbm, 118, rfl⟩
abbrev main_c_15 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_16 : Ref sig .tc := ⟨.hbm, 125, rfl⟩
abbrev main_v78 : Ref sig .tc := ⟨.hbm, 126, rfl⟩
abbrev main_v79 : Ref sig .tc := ⟨.hbm, 127, rfl⟩
abbrev main_c_17 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_18 : Ref sig .tc := ⟨.hbm, 135, rfl⟩
abbrev main_v86 : Ref sig .tc := ⟨.hbm, 136, rfl⟩
abbrev main_v87 : Ref sig .tc := ⟨.hbm, 137, rfl⟩
abbrev main_c_19 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_20 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_21 : Ref sig .tc := ⟨.hbm, 158, rfl⟩
abbrev main_v106 : Ref sig .tc := ⟨.hbm, 159, rfl⟩
abbrev main_cst_22 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_23 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_24 : Ref sig .tc := ⟨.hbm, 168, rfl⟩
abbrev main_call7_v0 : Ref sig .tc := ⟨.hbm, 169, rfl⟩
abbrev main_call7_v1 : Ref sig .tc := ⟨.hbm, 170, rfl⟩
abbrev main_v113 : Ref sig .tc := ⟨.hbm, 171, rfl⟩
abbrev main_c_25 : Ref sig .tc := ⟨.hbm, 172, rfl⟩
abbrev main_v114 : Ref sig .tc := ⟨.hbm, 173, rfl⟩
abbrev main_v115 : Ref sig .tc := ⟨.hbm, 174, rfl⟩
abbrev main_c_26 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_c_27 : Ref sig .tc := ⟨.hbm, 181, rfl⟩
abbrev main_v121 : Ref sig .tc := ⟨.hbm, 182, rfl⟩
abbrev main_v122 : Ref sig .tc := ⟨.hbm, 183, rfl⟩
abbrev main_c_28 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_c_29 : Ref sig .tc := ⟨.hbm, 191, rfl⟩
abbrev main_v129 : Ref sig .tc := ⟨.hbm, 192, rfl⟩
abbrev main_v130 : Ref sig .tc := ⟨.hbm, 193, rfl⟩
abbrev main_c_30 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_31 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_cst_32 : Ref sig .tc := ⟨.hbm, 214, rfl⟩
abbrev main_v149 : Ref sig .tc := ⟨.hbm, 215, rfl⟩
abbrev main_v150 : Ref sig .tc := ⟨.hbm, 216, rfl⟩
abbrev main_cst_33 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩

abbrev nD : Nat := 1
abbrev τ : Topo := Topo.v7x

variable {F : FTy → Type} [FloatOps F]

class Facts₀ : Prop where
  bcast_S28_S1x28_1 : S28.BroadcastsInDim S1x28 (![1] : Fin 1 → Fin S1x28.rank)
  bcast_S1x28_S100000x28_0_1 : S1x28.BroadcastsInDim S100000x28 (![0, 1] : Fin 2 → Fin S100000x28.rank)
  bcast_S_S100000x28 : S_.BroadcastsInDim S100000x28 (![] : Fin 0 → Fin S100000x28.rank)
  bcast_S36_S1x36_1 : S36.BroadcastsInDim S1x36 (![1] : Fin 1 → Fin S1x36.rank)
  bcast_S1x36_S100000x36_0_1 : S1x36.BroadcastsInDim S100000x36 (![0, 1] : Fin 2 → Fin S100000x36.rank)
  bcast_S_S100000x36 : S_.BroadcastsInDim S100000x36 (![] : Fin 0 → Fin S100000x36.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S_S100000x12 : S_.BroadcastsInDim S100000x12 (![] : Fin 0 → Fin S100000x12.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  concatenates_S100000x28_S100000x36_S100000x12_S100000x40_S100000x12_S100000x128_d1 : Shape.Concatenates [S100000x28, S100000x36, S100000x12, S100000x40, S100000x12] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x768_S768x28_S100000x28_1_0_0_1_n_n_wf : DotDims.WF S100000x768 S768x28 S100000x28 [1] [0] [0] [1] [] []
  dot_S100000x768_S768x36_S100000x36_1_0_0_1_n_n_wf : DotDims.WF S100000x768 S768x36 S100000x36 [1] [0] [0] [1] [] []
  dot_S100000x7_S7x12_S100000x12_1_0_0_1_n_n_wf : DotDims.WF S100000x7 S7x12 S100000x12 [1] [0] [0] [1] [] []
  dot_S100000x11_S11x40_S100000x40_1_0_0_1_n_n_wf : DotDims.WF S100000x11 S11x40 S100000x40 [1] [0] [0] [1] [] []
  dot_S100000x1_S1x12_S100000x12_1_0_0_1_n_n_wf : DotDims.WF S100000x1 S1x12 S100000x12 [1] [0] [0] [1] [] []
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def dot_S100000x768_S768x28_S100000x28_1_0_0_1_n_n : DotDims S100000x768 S768x28 S100000x28 where
  lhsContracting := [1]
  rhsContracting := [0]
  lhsNonContracting := [0]
  rhsNonContracting := [1]
  lhsBatch := []
  rhsBatch := []
  wf := dot_S100000x768_S768x28_S100000x28_1_0_0_1_n_n_wf
def dot_S100000x768_S768x36_S100000x36_1_0_0_1_n_n : DotDims S100000x768 S768x36 S100000x36 where
  lhsContracting := [1]
  rhsContracting := [0]
  lhsNonContracting := [0]
  rhsNonContracting := [1]
  lhsBatch := []
  rhsBatch := []
  wf := dot_S100000x768_S768x36_S100000x36_1_0_0_1_n_n_wf
def dot_S100000x7_S7x12_S100000x12_1_0_0_1_n_n : DotDims S100000x7 S7x12 S100000x12 where
  lhsContracting := [1]
  rhsContracting := [0]
  lhsNonContracting := [0]
  rhsNonContracting := [1]
  lhsBatch := []
  rhsBatch := []
  wf := dot_S100000x7_S7x12_S100000x12_1_0_0_1_n_n_wf
def dot_S100000x11_S11x40_S100000x40_1_0_0_1_n_n : DotDims S100000x11 S11x40 S100000x40 where
  lhsContracting := [1]
  rhsContracting := [0]
  lhsNonContracting := [0]
  rhsNonContracting := [1]
  lhsBatch := []
  rhsBatch := []
  wf := dot_S100000x11_S11x40_S100000x40_1_0_0_1_n_n_wf
def dot_S100000x1_S1x12_S100000x12_1_0_0_1_n_n : DotDims S100000x1 S1x12 S100000x12 where
  lhsContracting := [1]
  rhsContracting := [0]
  lhsNonContracting := [0]
  rhsNonContracting := [1]
  lhsBatch := []
  rhsBatch := []
  wf := dot_S100000x1_S1x12_S100000x12_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.LibRowScatter.lean ====
/-
  A row scatter-add read at an index.

  Rows `[E, C]` are accumulated into a table `[N, C]` at `E` start indices (an array `[E, 1]`): update row `e` goes to
  the table's row at the `e`-th start index, read signed and not clamped; a row whose start index is not a row of the
  table is dropped. On the extended reals the accumulated table is, entry by entry, a sum over the edges:

  * `lands_iff`: update entry `(e, c')` lands on table entry `(n, c)` exactly when the `e`-th start index, read
    signed, is `n` and `c' = c`;
  * `rowScatterAdd_apply`: entry `(n, c)` of the result is the operand's entry plus the sum over all edges `e` whose
    start index is `n` of update entry `(e, c)`.

  In particular column `c` of the result reads only column `c` of the operand and of the updates, whatever the width
  `C` is. Sums on the extended reals are total, so nothing here needs finiteness. Nothing here mentions a program:
  the extents are variables.
-/
import proofs.«102536_j32590211842598_2_alg».proof.Proof.LibSegmentSum

noncomputable section

open scoped BigOperators

namespace Idealize.ShloMosaic.RowScatter

open Idealize.ShloMosaic Idealize.ShloMosaic.ValueIdx Idealize.ShloMosaic.SegmentSum

variable {N E C w : Nat}

private theorem fin2_one_ne_zero : ¬((1 : Fin 2) = 0) := by decide

/-- On the row axis the window starts at the start index, read signed. -/
theorem start_row (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at zero: the start indices name rows only. -/
theorem start_col (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  intro h
  exact fin2_one_ne_zero (List.mem_singleton.mp h)

/-- The row axis is inserted: the window has no extent along it. -/
theorem window_row (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := by
  unfold ScatterDims.window
  rw [dif_neg]
  intro hmem
  have := (List.mem_filter.mp hmem).2
  simp at this

/-- Along the columns the window coordinate is the update's column. -/
theorem window_col (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := by
  have h1 : (1 : Fin 2) ∈ (rowScatterDims N E C wf).sKept := by
    refine List.mem_filter.mpr ⟨List.mem_finRange _, ?_⟩
    simp
  unfold ScatterDims.window
  rw [dif_pos h1]
  rfl

/-- Where an update entry lands: entry `(e, c')` of the updates goes to entry `(n, c)` of the table exactly when the
    `e`-th start index, read signed, is `n`, and `c' = c`. -/
theorem lands_iff (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e 0)).toInt = (n.val : Int) ∧ c' = c := by
  have hs0 := start_row wf idx (ix2 e c')
  have hs1 := start_col wf idx (ix2 e c')
  have hw0 := window_row wf (ix2 e c')
  have hw1 := window_col wf (ix2 e c')
  have he : (ix2 e c' : (⟨2, ![E, C]⟩ : Shape).Idx) 0 = e := rfl
  have hc : ((ix2 e c' : (⟨2, ![E, C]⟩ : Shape).Idx) 1).val = c'.val := rfl
  rw [he] at hs0
  rw [hc] at hw1
  unfold ScatterDims.resultIdx?
  constructor
  · intro h
    split at h
    · rename_i hall
      have hi := Option.some.inj h
      have h0 : ((rowScatterDims N E C wf).start (ix2 e c') idx 0
          + ((rowScatterDims N E C wf).window (ix2 e c') 0 : Int)).toNat = n.val := by
        have := congrArg (fun f : (⟨2, ![N, C]⟩ : Shape).Idx => (f 0).val) hi
        exact this
      have h1 : ((rowScatterDims N E C wf).start (ix2 e c') idx 1
          + ((rowScatterDims N E C wf).window (ix2 e c') 1 : Int)).toNat = c.val := by
        have := congrArg (fun f : (⟨2, ![N, C]⟩ : Shape).Idx => (f 1).val) hi
        exact this
      have hnn := (hall 0).1
      rw [hs0, hw0] at h0 hnn
      rw [hs1, hw1] at h1
      refine ⟨by omega, Fin.ext (by omega)⟩
    · exact absurd h (by simp)
  · rintro ⟨hrow, rfl⟩
    have hnlt : n.val < N := n.isLt
    have hclt : c'.val < C := c'.isLt
    have hall : ∀ a : Fin (⟨2, ![N, C]⟩ : Shape).rank,
        0 ≤ (rowScatterDims N E C wf).start (ix2 e c') idx a + ((rowScatterDims N E C wf).window (ix2 e c') a : Int)
        ∧ (rowScatterDims N E C wf).start (ix2 e c') idx a + ((rowScatterDims N E C wf).window (ix2 e c') a : Int)
            < (⟨2, ![N, C]⟩ : Shape).size a := by
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0, hrow]; constructor <;> omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; constructor <;> omega
    rw [dif_pos hall]
    refine congrArg some ?_
    funext a
    refine Fin.ext ?_
    match a with
    | ⟨0, _⟩ =>
      show ((rowScatterDims N E C wf).start (ix2 e c') idx 0 + ((rowScatterDims N E C wf).window (ix2 e c') 0 : Int)).toNat = n.val
      rw [hs0, hw0, hrow]; omega
    | ⟨1, _⟩ =>
      show ((rowScatterDims N E C wf).start (ix2 e c') idx 1 + ((rowScatterDims N E C wf).window (ix2 e c') 1 : Int)).toNat = c'.val
      rw [hs1, hw1]; omega

/-- THE READING. Entry `(n, c)` of a row scatter-add is the operand's entry plus the sum, over the edges `e` whose start
    index read signed is `n`, of update entry `(e, c)`. -/
theorem rowScatterAdd_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) x idx u (ix2 n c)
      = x (ix2 n c) + ∑ e : Fin E, if (idx (ix2 e 0)).toInt = (n.val : Int) then u (ix2 e c) else 0 := by
  classical
  unfold Ideal.hostScatterAdd
  refine congrArg (x (ix2 n c) + ·) ?_
  rw [Finset.sum_filter, sum_idx2]
  refine Finset.sum_congr rfl fun e _ => ?_
  by_cases hrow : (idx (ix2 e 0)).toInt = (n.val : Int)
  · rw [if_pos hrow]
    rw [Finset.sum_eq_single c]
    · rw [if_pos ((lands_iff wf idx e c n c).mpr ⟨hrow, rfl⟩)]
    · intro c' _ hne
      rw [if_neg]
      intro h
      exact hne ((lands_iff wf idx e c' n c).mp h).2
    · intro h; exact absurd (Finset.mem_univ c) h
  · rw [if_neg hrow]
    refine Finset.sum_eq_zero fun c' _ => ?_
    rw [if_neg]
    intro h
    exact hrow ((lands_iff wf idx e c' n c).mp h).1

end Idealize.ShloMosaic.RowScatter

end
-- ==== Proof.LibGraphAggregate.lean ====
/-
  One graph-convolution aggregation read at an index.

  A table `P` of shape `[N, C]` is gathered row by row at `E` source indices, every gathered row is scaled by its edge's
  weight, the scaled rows are summed into an `[N, C]` table of zeros at `E` target indices, and a bias row is added to
  every row. On the extended reals entry `(n, c)` of the result is

      (0 + the sum, over the edges e whose target is n, of P (source e, c) · weight e) + bias c,

  the source read signed and clamped into the table, the target read signed and not clamped (an edge whose target is
  not a row of the table is dropped). Column `c` of the result reads only column `c` of `P` and entry `c` of the bias, so
  two such aggregations of different widths over the same edges agree wherever their tables and biases agree column by
  column. Sums on the extended reals are total: nothing here needs finiteness. Nothing here mentions a program: the
  extents are variables and the shape relations are hypotheses.
-/
import proofs.«102536_j32590211842598_2_alg».proof.Proof.LibSegmentSum
import proofs.«102536_j32590211842598_2_alg».proof.Proof.LibRowScatter
import Idealize.ShloMosaic.Lib.Pipeline.Value
import Idealize.ShloMosaic.Lib.ValueIdx

noncomputable section

open scoped BigOperators

namespace Idealize.ShloMosaic.GraphAggregate

open Idealize.ShloMosaic Idealize.ShloMosaic.ValueIdx Idealize.ShloMosaic.SegmentSum Idealize.ShloMosaic.RowScatter

variable {N E C : Nat}

/-- Entry `(n, c)` of the aggregation: the start value, plus the sum over the edges landing on `n` of the table's entry
    at the edge's source and column `c` times the edge's weight, plus the bias. -/
def aggregateAt (hN : 0 < N) (P : (⟨2, ![N, C]⟩ : Shape).Idx → EReal) (srcIdx dstIdx : IVec ⟨2, ![E, 1]⟩ 32)
    (weight : (⟨1, ![E]⟩ : Shape).Idx → EReal) (z : EReal) (bias : (⟨1, ![C]⟩ : Shape).Idx → EReal) (n : Fin N) (c : Fin C) : EReal :=
  (z + ∑ e : Fin E, if (dstIdx (ix2 e 0)).toInt = (n.val : Int)
      then P (ix2 (clampRow N hN (srcIdx (ix2 e 0))) c) * weight (ix1 e) else 0) + bias (ix1 c)

/-- Column locality: two aggregations over the same edges, of tables and biases that agree on one column each, agree
    on those columns — whatever the two widths are. -/
theorem aggregateAt_congr {C' : Nat} (hN : 0 < N) (P : (⟨2, ![N, C]⟩ : Shape).Idx → EReal) (P' : (⟨2, ![N, C']⟩ : Shape).Idx → EReal)
    (srcIdx dstIdx : IVec ⟨2, ![E, 1]⟩ 32) (weight : (⟨1, ![E]⟩ : Shape).Idx → EReal) (z : EReal)
    (bias : (⟨1, ![C]⟩ : Shape).Idx → EReal) (bias' : (⟨1, ![C']⟩ : Shape).Idx → EReal) (n : Fin N) (c : Fin C) (c' : Fin C')
    (hP : ∀ r : Fin N, P (ix2 r c) = P' (ix2 r c')) (hb : bias (ix1 c) = bias' (ix1 c')) :
    aggregateAt hN P srcIdx dstIdx weight z bias n c = aggregateAt hN P' srcIdx dstIdx weight z bias' n c' := by
  unfold aggregateAt
  rw [hb]
  refine congrArg (fun s => (z + s) + bias' (ix1 c')) ?_
  refine Finset.sum_congr rfl fun e _ => ?_
  rw [hP]

/-- A weight laid along a column `[E, 1]` and spread over the columns of `[E, C]` reads, at `(e, c)`, the weight of
    edge `e`. -/
theorem spread_weight_apply {α : Type}
    (hcol : (⟨1, ![E]⟩ : Shape).BroadcastsInDim ⟨2, ![E, 1]⟩ ![0])
    (hwide : (⟨2, ![E, 1]⟩ : Shape).BroadcastsInDim ⟨2, ![E, C]⟩ ![0, 1])
    (weight : (⟨1, ![E]⟩ : Shape).Idx → α) (e : Fin E) (c : Fin C) :
    broadcastInDim ⟨2, ![E, C]⟩ ![0, 1] hwide (broadcastInDim ⟨2, ![E, 1]⟩ ![0] hcol weight) (ix2 e c) = weight (ix1 e) := by
  have he := e.isLt
  rw [broadcastInDim_apply ![0, 1] hwide _ (ix2 e c) (ix2 e (0 : Fin 1)) (fun a => by
    match a with
    | ⟨0, _⟩ => show e.val = if E = 1 then 0 else e.val; split <;> omega
    | ⟨1, _⟩ => show 0 = if (1 : Nat) = 1 then 0 else c.val; rw [if_pos rfl])]
  exact broadcastInDim_apply ![0] hcol weight (ix2 e (0 : Fin 1)) (ix1 e) (fun a => by
    match a with
    | ⟨0, _⟩ => show e.val = if E = 1 then 0 else e.val; split <;> omega)

/-- A bias laid along a row `[1, C]` and spread over the rows of `[N, C]` reads, at `(n, c)`, the bias of column `c`. -/
theorem spread_bias_apply {α : Type}
    (hrow : (⟨1, ![C]⟩ : Shape).BroadcastsInDim ⟨2, ![1, C]⟩ ![1])
    (hrows : (⟨2, ![1, C]⟩ : Shape).BroadcastsInDim ⟨2, ![N, C]⟩ ![0, 1])
    (bias : (⟨1, ![C]⟩ : Shape).Idx → α) (n : Fin N) (c : Fin C) :
    broadcastInDim ⟨2, ![N, C]⟩ ![0, 1] hrows (broadcastInDim ⟨2, ![1, C]⟩ ![1] hrow bias) (ix2 n c) = bias (ix1 c) := by
  have hc := c.isLt
  rw [broadcastInDim_apply ![0, 1] hrows _ (ix2 n c) (ix2 (0 : Fin 1) c) (fun a => by
    match a with
    | ⟨0, _⟩ => show 0 = if (1 : Nat) = 1 then 0 else n.val; rw [if_pos rfl]
    | ⟨1, _⟩ => show c.val = if C = 1 then 0 else c.val; split <;> omega)]
  exact broadcastInDim_apply ![1] hrow bias (ix2 (0 : Fin 1) c) (ix1 c) (fun a => by
    match a with
    | ⟨0, _⟩ => show c.val = if C = 1 then 0 else c.val; split <;> omega)

/-- THE READING. The chain of host operations — a table of one scalar spread over `[N, C]`, the row gather, the weights
    spread over the columns, the product, the row scatter-add, the bias spread over the rows, the sum — at entry
    `(n, c)` is `aggregateAt` from the scalar's value. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (hcol : (⟨1, ![E]⟩ : Shape).BroadcastsInDim ⟨2, ![E, 1]⟩ ![0])
    (hwide : (⟨2, ![E, 1]⟩ : Shape).BroadcastsInDim ⟨2, ![E, C]⟩ ![0, 1])
    (hrow : (⟨1, ![C]⟩ : Shape).BroadcastsInDim ⟨2, ![1, C]⟩ ![1])
    (hrows : (⟨2, ![1, C]⟩ : Shape).BroadcastsInDim ⟨2, ![N, C]⟩ ![0, 1])
    (P : FVec Ideal ⟨2, ![N, C]⟩ .f32) (srcIdx dstIdx : IVec ⟨2, ![E, 1]⟩ 32) (weight : FVec Ideal ⟨1, ![E]⟩ .f32)
    (z : FVec Ideal ⟨0, ![]⟩ .f32) (bias : FVec Ideal ⟨1, ![C]⟩ .f32) (n : Fin N) (c : Fin C) :
    addf
        (Host.scatterAdd (rowScatterDims N E C wfs) (broadcastInDim ⟨2, ![N, C]⟩ ![] hfill z) dstIdx
          (mulf (Host.gather (rowGatherDims N E C wfg) P srcIdx)
            (broadcastInDim ⟨2, ![E, C]⟩ ![0, 1] hwide (broadcastInDim ⟨2, ![E, 1]⟩ ![0] hcol weight))))
        (broadcastInDim ⟨2, ![N, C]⟩ ![0, 1] hrows (broadcastInDim ⟨2, ![1, C]⟩ ![1] hrow bias)) (ix2 n c)
      = aggregateAt hN P srcIdx dstIdx weight (z ix0) bias n c := by
  rw [addf_apply, spread_bias_apply hrow hrows bias n c]
  show Ideal.hostScatterAdd (rowScatterDims N E C wfs) _ dstIdx _ (ix2 n c) + _ = _
  rw [rowScatterAdd_apply wfs]
  unfold aggregateAt
  refine congrArg (· + bias (ix1 c)) ?_
  have hz : broadcastInDim ⟨2, ![N, C]⟩ ![] hfill z (ix2 n c) = z ix0 :=
    broadcastInDim_apply ![] hfill z (ix2 n c) ix0 (fun a => a.elim0)
  rw [hz]
  refine congrArg (z ix0 + ·) ?_
  refine Finset.sum_congr rfl fun e _ => ?_
  by_cases hrow' : (dstIdx (ix2 e 0)).toInt = (n.val : Int)
  · rw [if_pos hrow', if_pos hrow', mulf_apply, rowGather_apply hN wfg, spread_weight_apply hcol hwide weight e c]
    rfl
  · rw [if_neg hrow', if_neg hrow']

end Idealize.ShloMosaic.GraphAggregate

end
-- ==== Proof.LibAggregateProject.lean ====
/-
  Aggregating neighbours' rows and projecting them through a weight column commute, on the extended reals.

  A node sums, over the edges e landing on it, the row H e of its neighbour scaled by the neighbour's factor so e;
  the sum is scaled by the node's own factor si and projected through a column W:

      Σ_k ((Σ_e H e k · so e) · si) · W k.

  Projecting each neighbour's row first, scaling the projection by so e, summing over the edges and scaling by si gives

      si · Σ_e (Σ_k H e k · W k) · so e.

  Over the reals the two are one number.  On the extended reals a factor distributes over a sum only under conditions:
  a nonnegative real factor (so e, si) distributes over every sum, and any factor (W k) distributes over a sum of
  nonnegative terms.  So the law holds when the scales are nonnegative reals and every entry of H is nonnegative,
  whatever W is; no entry need be finite.
-/
import Mathlib.Data.EReal.Inv
import Mathlib.Algebra.BigOperators.Group.Finset.Basic
import Mathlib.Algebra.Order.BigOperators.Group.Finset

noncomputable section

open scoped BigOperators

namespace Cert.LibAggregateProject

/-- An extended real that is a nonnegative real number. -/
def IsNNReal (x : EReal) : Prop := ∃ r : ℝ, 0 ≤ r ∧ x = (r : EReal)

theorem IsNNReal.nonneg {x : EReal} (h : IsNNReal x) : 0 ≤ x := by
  obtain ⟨r, hr, rfl⟩ := h; exact EReal.coe_nonneg.mpr hr

/-- A nonnegative real factor goes inside any finite sum of extended reals. -/
theorem sum_mul_nnreal {ι : Type*} (S : Finset ι) (a : ι → EReal) {p : EReal} (hp : IsNNReal p) :
    (∑ j ∈ S, a j) * p = ∑ j ∈ S, a j * p := by
  classical
  obtain ⟨r, hr, rfl⟩ := hp
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- Any factor goes inside a finite sum of nonnegative extended reals. -/
theorem sum_nonneg_mul {ι : Type*} (S : Finset ι) (a : ι → EReal) (ha : ∀ j, 0 ≤ a j) (w : EReal) :
    (∑ j ∈ S, a j) * w = ∑ j ∈ S, a j * w := by
  classical
  induction S using Finset.induction_on with
  | empty => simp
  | insert k S hk ih =>
    rw [Finset.sum_insert hk, Finset.sum_insert hk,
      EReal.right_distrib_of_nonneg (ha k) (Finset.sum_nonneg fun j _ => ha j), ih]

/-- THE LAW: aggregate-then-project equals project-then-aggregate. -/
theorem aggregate_project {ι κ : Type*} (S : Finset ι) (K : Finset κ) (H : ι → κ → EReal) (hH : ∀ e k, 0 ≤ H e k)
    (so : ι → EReal) (hso : ∀ e, IsNNReal (so e)) {si : EReal} (hsi : IsNNReal si) (W : κ → EReal) :
    ∑ k ∈ K, ((∑ e ∈ S, H e k * so e) * si) * W k = si * ∑ e ∈ S, (∑ k ∈ K, H e k * W k) * so e := by
  have hL : ∀ k, ((∑ e ∈ S, H e k * so e) * si) * W k = ∑ e ∈ S, ((H e k * so e) * si) * W k := fun k => by
    rw [sum_mul_nnreal S _ hsi,
      sum_nonneg_mul S _ (fun e => mul_nonneg (mul_nonneg (hH e k) (hso e).nonneg) hsi.nonneg)]
  have hR : ∀ e, ((∑ k ∈ K, H e k * W k) * so e) * si = ∑ k ∈ K, ((H e k * W k) * so e) * si := fun e => by
    rw [sum_mul_nnreal K _ (hso e), sum_mul_nnreal K _ hsi]
  rw [Finset.sum_congr rfl fun k _ => hL k, mul_comm si, sum_mul_nnreal S _ hsi,
    Finset.sum_congr rfl fun e _ => hR e, Finset.sum_comm]
  refine Finset.sum_congr rfl fun e _ => Finset.sum_congr rfl fun k _ => ?_
  rw [mul_right_comm (H e k) (so e) si, mul_right_comm (H e k * si) (so e) (W k), mul_right_comm (H e k) si (W k),
    mul_right_comm (H e k * W k) si (so e)]

end Cert.LibAggregateProject

end
-- ==== Proof.LibNodeScale.lean ====
/-
  A node's own factor taken out of its sum over incoming edges.

  In a graph convolution with symmetric normalisation every edge e from a source s(e) to a target t(e) carries the
  weight D(s(e)) · D(t(e)), where D is a nonnegative real factor per node. Entry (n, c) of the aggregated table is

      (0 + Σ over the edges e with t(e) = n of P(s(e), c) · (D(s(e)) · D(t(e)))) + bias(c).

  Every edge in that sum has target n, so its target factor is D(n), and a nonnegative real factor passes out of any
  finite sum of extended reals (it never turns an infinity round). Hence the entry is also

      D(n) · (0 + Σ over the edges e with t(e) = n of P(s(e), c) · D(s(e))) + bias(c):

  scale the source rows once, sum them, and scale the finished sum by the node's own factor. Nothing here needs a finite
  entry of P or of the bias. The target column is read twice: by the scatter (signed, not clamped: an edge whose target
  is not a row is dropped) and by a gather (signed and clamped); the two index arrays need agree only where the first
  names a row.

  Also here: the scatter-add of gathered rows read at an entry, and the host chain "column factor spread over the
  columns, times that scatter-add, plus a bias row spread over the rows" as the second form. The extents are variables.
-/
import proofs.«102536_j32590211842598_2_alg».proof.Proof.LibGraphAggregate
import proofs.«102536_j32590211842598_2_alg».proof.Proof.LibAggregateProject

noncomputable section

open scoped BigOperators

namespace Idealize.ShloMosaic.NodeScale

open Idealize.ShloMosaic Idealize.ShloMosaic.ValueIdx Idealize.ShloMosaic.SegmentSum Idealize.ShloMosaic.RowScatter
open Idealize.ShloMosaic.GraphAggregate Cert.LibAggregateProject

variable {N E C : Nat}

/-- The weight of edge `e`: the source's factor times the target's, both indices read signed and clamped. -/
def edgeWeight (hN : 0 < N) (D : (⟨1, ![N]⟩ : Shape).Idx → EReal) (srcIdx dstIdx : IVec ⟨2, ![E, 1]⟩ 32) :
    (⟨1, ![E]⟩ : Shape).Idx → EReal :=
  fun e => D (ix1 (clampRow N hN (srcIdx (ix2 (e 0) 0)))) * D (ix1 (clampRow N hN (dstIdx (ix2 (e 0) 0))))

/-- The sum over the edges landing on `n` of the source's entry in column `c` scaled by the source's factor. -/
def sourceSum (hN : 0 < N) (D : (⟨1, ![N]⟩ : Shape).Idx → EReal) (P : (⟨2, ![N, C]⟩ : Shape).Idx → EReal)
    (srcIdx dstIdx : IVec ⟨2, ![E, 1]⟩ 32) (n : Fin N) (c : Fin C) : EReal :=
  ∑ e : Fin E, if (dstIdx (ix2 e 0)).toInt = (n.val : Int)
    then P (ix2 (clampRow N hN (srcIdx (ix2 e 0))) c) * D (ix1 (clampRow N hN (srcIdx (ix2 e 0)))) else 0

/-- Entry `(n, c)` in the second form: the node's factor times the sum of the scaled source rows, plus the bias. -/
def scaledAt (hN : 0 < N) (D : (⟨1, ![N]⟩ : Shape).Idx → EReal) (P : (⟨2, ![N, C]⟩ : Shape).Idx → EReal)
    (srcIdx dstIdx : IVec ⟨2, ![E, 1]⟩ 32) (bias : (⟨1, ![C]⟩ : Shape).Idx → EReal) (n : Fin N) (c : Fin C) : EReal :=
  D (ix1 n) * (0 + sourceSum hN D P srcIdx dstIdx n c) + bias (ix1 c)

/-- The second form reads column `c` of the table and entry `c` of the bias only, whatever the widths. -/
theorem scaledAt_congr {C' : Nat} (hN : 0 < N) (D : (⟨1, ![N]⟩ : Shape).Idx → EReal)
    (P : (⟨2, ![N, C]⟩ : Shape).Idx → EReal) (P' : (⟨2, ![N, C']⟩ : Shape).Idx → EReal)
    (srcIdx dstIdx : IVec ⟨2, ![E, 1]⟩ 32) (bias : (⟨1, ![C]⟩ : Shape).Idx → EReal) (bias' : (⟨1, ![C']⟩ : Shape).Idx → EReal)
    (n : Fin N) (c : Fin C) (c' : Fin C') (hP : ∀ r : Fin N, P (ix2 r c) = P' (ix2 r c')) (hb : bias (ix1 c) = bias' (ix1 c')) :
    scaledAt hN D P srcIdx dstIdx bias n c = scaledAt hN D P' srcIdx dstIdx bias' n c' := by
  unfold scaledAt sourceSum
  rw [hb]
  refine congrArg (fun s => D (ix1 n) * (0 + s) + bias' (ix1 c')) ?_
  refine Finset.sum_congr rfl fun e _ => ?_
  rw [hP]

/-- THE LAW: the aggregation with edge weights `D(source) · D(target)` is the second form. -/
theorem aggregateAt_eq_scaledAt (hN : 0 < N) (D : (⟨1, ![N]⟩ : Shape).Idx → EReal) (hD : ∀ v, IsNNReal (D v))
    (P : (⟨2, ![N, C]⟩ : Shape).Idx → EReal) (srcIdx dstW dstR : IVec ⟨2, ![E, 1]⟩ 32)
    (hwrap : ∀ e : Fin E, 0 ≤ (dstR (ix2 e 0)).toInt → (dstR (ix2 e 0)).toInt < (N : Int) → dstW (ix2 e 0) = dstR (ix2 e 0))
    (bias : (⟨1, ![C]⟩ : Shape).Idx → EReal) (n : Fin N) (c : Fin C) :
    aggregateAt hN P srcIdx dstR (edgeWeight hN D srcIdx dstW) 0 bias n c = scaledAt hN D P srcIdx dstR bias n c := by
  unfold aggregateAt scaledAt sourceSum
  refine congrArg (· + bias (ix1 c)) ?_
  rw [zero_add, zero_add, mul_comm, sum_mul_nnreal _ _ (hD (ix1 n))]
  refine Finset.sum_congr rfl fun e _ => ?_
  by_cases h : (dstR (ix2 e 0)).toInt = (n.val : Int)
  · rw [if_pos h, if_pos h]
    have hlt : n.val < N := n.isLt
    have hW : dstW (ix2 e 0) = dstR (ix2 e 0) :=
      hwrap e (by rw [h]; exact Int.natCast_nonneg _) (by rw [h]; exact_mod_cast hlt)
    have hclamp : clampRow N hN (dstW (ix2 e 0)) = n := by
      apply Fin.ext
      show min (dstW (ix2 e 0)).toInt.toNat (N - 1) = n.val
      rw [hW, h, Int.toNat_natCast]
      omega
    show P _ * (D _ * D (ix1 (clampRow N hN (dstW (ix2 e 0))))) = _
    rw [hclamp, mul_assoc]
    rfl
  · rw [if_neg h, if_neg h, zero_mul]

/-- A scatter-add of gathered rows into a table of one scalar, at entry `(n, c)`: the scalar plus the sum over the
    edges landing on `n` of the gathered table's entry at the edge's source and column `c`. -/
theorem scatterGather_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (Q : FVec Ideal ⟨2, ![N, C]⟩ .f32) (srcIdx dstIdx : IVec ⟨2, ![E, 1]⟩ 32) (z : FVec Ideal ⟨0, ![]⟩ .f32) (n : Fin N) (c : Fin C) :
    Host.scatterAdd (rowScatterDims N E C wfs) (broadcastInDim ⟨2, ![N, C]⟩ ![] hfill z) dstIdx
        (Host.gather (rowGatherDims N E C wfg) Q srcIdx) (ix2 n c)
      = z ix0 + ∑ e : Fin E, if (dstIdx (ix2 e 0)).toInt = (n.val : Int)
          then Q (ix2 (clampRow N hN (srcIdx (ix2 e 0))) c) else 0 := by
  show Ideal.hostScatterAdd (rowScatterDims N E C wfs) _ dstIdx _ (ix2 n c) = _
  rw [rowScatterAdd_apply wfs]
  have hz : broadcastInDim ⟨2, ![N, C]⟩ ![] hfill z (ix2 n c) = z ix0 :=
    broadcastInDim_apply ![] hfill z (ix2 n c) ix0 (fun a => a.elim0)
  rw [hz]
  refine congrArg (z ix0 + ·) ?_
  refine Finset.sum_congr rfl fun e _ => ?_
  by_cases h : (dstIdx (ix2 e 0)).toInt = (n.val : Int)
  · rw [if_pos h, if_pos h, rowGather_apply hN wfg]
    rfl
  · rw [if_neg h, if_neg h]

/-- The scatter-add of the gathered rows of a table `P` scaled row by row by `D`, from a zero scalar, at `(n, c)`. -/
theorem scatterGather_scaled (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (D : (⟨1, ![N]⟩ : Shape).Idx → EReal) (P Q : FVec Ideal ⟨2, ![N, C]⟩ .f32)
    (hQ : ∀ (r : Fin N) (k : Fin C), Q (ix2 r k) = P (ix2 r k) * D (ix1 r))
    (srcIdx dstIdx : IVec ⟨2, ![E, 1]⟩ 32) (z : FVec Ideal ⟨0, ![]⟩ .f32) (hz : z ix0 = 0) (n : Fin N) (c : Fin C) :
    Host.scatterAdd (rowScatterDims N E C wfs) (broadcastInDim ⟨2, ![N, C]⟩ ![] hfill z) dstIdx
        (Host.gather (rowGatherDims N E C wfg) Q srcIdx) (ix2 n c)
      = 0 + sourceSum hN D P srcIdx dstIdx n c := by
  rw [scatterGather_apply hN wfs wfg hfill Q srcIdx dstIdx z n c, hz]
  unfold sourceSum
  refine congrArg (0 + ·) ?_
  refine Finset.sum_congr rfl fun e _ => ?_
  rw [hQ]

end Idealize.ShloMosaic.NodeScale

end
-- ==== Proof.BotGcnSpec.lean ====
/-
  The network of this certificate as a function of its arrays, entry by entry, on the extended reals.

  Five fields of every node are encoded by a dense layer and a leaky rectifier, `lrelu (x · w + b)`, the five
  encodings laid side by side (widths 28, 36, 12, 40, 12) are projected by a 128 × 128 matrix, a bias is added and the
  rectifier applied again. The projection of the joined row is written here as the sum of the five partial products,
  each field's encoding against its own rows of the matrix:

      Σ_{k < 128} joined(n, k) · W(k, j) = Σ_{q < 28} d(n, q) · W(q, j) + Σ_{q < 36} t(n, q) · W(28 + q, j) + …

  Then two graph convolutions with self loops and symmetric normalisation. With deg(n) the number of edges whose target
  is n, plus one for the loop, and D(n) = deg(n)^(-1/2) (guarded: 0 unless deg(n) > 0), a convolution of a table
  P = x · W is, at (n, c),

      D(n) · ((0 + Σ over the edges e with target n of P(source e, c) · D(source e)) + P(n, c) · D(n)) + bias(c):

  the rows are scaled once by their own factor, summed along the edges, the node's own scaled row is added for the loop,
  and the finished sum is scaled by the node's factor. Last, a rectified dense layer and a plain one down to width 2.

  A source index is read the way an array lookup reads it: a negative index is moved up by the number of nodes, and the
  result is clamped into the table; a target index is read as it stands, and an edge whose target is not a node is
  dropped. The float literals stay words: zero, one and the rectifier's slope 0x3C23D70A.
-/
import Idealize.ShloMosaic.PureOps.Ideal
import Idealize.ShloMosaic.Lib.ValueIdx
import proofs.«102536_j32590211842598_2_alg».proof.Proof.LibNodeScale

noncomputable section

open scoped BigOperators

namespace Cert.BotGcn

open Idealize.ShloMosaic Idealize.ShloMosaic.ValueIdx Idealize.ShloMosaic.SegmentSum Idealize.ShloMosaic.NodeScale

/-- An `a × b` table of extended reals. -/
abbrev Mat (a b : Nat) : Type := (⟨2, ![a, b]⟩ : Shape).Idx → EReal
/-- A vector of `a` extended reals. -/
abbrev Row (a : Nat) : Type := (⟨1, ![a]⟩ : Shape).Idx → EReal
/-- A column of `e` 32-bit indices, one per edge. -/
abbrev Col (e : Nat) : Type := IVec ⟨2, ![e, 1]⟩ 32

/-- The three float literals of the programs, as the words they are printed with. -/
def zeroW : EReal := Ideal.ofBits .f32 0x00000000#32
def slopeW : EReal := Ideal.ofBits .f32 0x3C23D70A#32
def oneW : EReal := Ideal.ofBits .f32 0x3F800000#32

/-- The leaky rectifier: `x` where `x > 0`, the slope times `x` elsewhere. -/
def lrelu (x : EReal) : EReal := if zeroW < x then x else slopeW * x

/-- Entry `(n, j)` of the product `x · w`. -/
def prodAt {a k m : Nat} (x : Mat a k) (w : Mat k m) (n : Fin a) (j : Fin m) : EReal :=
  ∑ q : Fin k, x (ix2 n q) * w (ix2 q j)

/-- Entry `(n, j)` of a field's encoding `lrelu (x · w + b)`. -/
def encAt {a k m : Nat} (x : Mat a k) (w : Mat k m) (b : Row m) (n : Fin a) (j : Fin m) : EReal :=
  lrelu (prodAt x w n j + b (ix1 j))

/-- A field's encoding `f` (of width `k`) against rows `off … off + k − 1` of the projection `win`, at `(n, j)`. -/
def partAt {a k : Nat} (off : Nat) (h : off + k ≤ 128) (f : Fin a → Fin k → EReal) (win : Mat 128 128) (n : Fin a) (j : Fin 128) : EReal :=
  ∑ q : Fin k, f n q * win (ix2 (⟨off + q.val, by have := q.isLt; omega⟩ : Fin 128) j)

/-- Entry `(n, j)` of the encoder: the five partial products summed in the order fields are joined, the bias, the rectifier. -/
def encoderAt {a : Nat} (des tweet : Mat a 768) (num : Mat a 7) (cat : Mat a 11) (nf : Mat a 1)
    (wd : Mat 768 28) (bd : Row 28) (wt : Mat 768 36) (bt : Row 36) (wn : Mat 7 12) (bn : Row 12)
    (wc : Mat 11 40) (bc : Row 40) (wf : Mat 1 12) (bf : Row 12) (win : Mat 128 128) (bin : Row 128)
    (n : Fin a) (j : Fin 128) : EReal :=
  lrelu (((((partAt 0 (by norm_num) (encAt des wd bd) win n j + partAt 28 (by norm_num) (encAt tweet wt bt) win n j)
      + partAt 64 (by norm_num) (encAt num wn bn) win n j) + partAt 76 (by norm_num) (encAt cat wc bc) win n j)
      + partAt 116 (by norm_num) (encAt nf wf bf) win n j) + bin (ix1 j))

/-- A source index as an array lookup reads it before clamping: a negative word is moved up by the number of nodes. -/
def wrapW (v : BitVec 32) : BitVec 32 := Scalar.select (IntOp.cmpi .slt v 0#32) (IntOp.addi v 100000#32) v

/-- The source column of the edge list (row 0), wrapped; the target column (row 1), as it stands. -/
def srcCol (edge : IVec ⟨2, ![2, 1600000]⟩ 32) : Col 1600000 := fun j => wrapW (edge (ix2 (0 : Fin 2) (⟨(j 0).val, (j 0).isLt⟩ : Fin 1600000)))
def dstCol (edge : IVec ⟨2, ![2, 1600000]⟩ 32) : Col 1600000 := fun j => edge (ix2 (1 : Fin 2) (⟨(j 0).val, (j 0).isLt⟩ : Fin 1600000))

/-- The degree of node `n`: the edges whose target is `n`, counted from zero, plus one for the loop. -/
def degAt {N E : Nat} (dst : Col E) (n : Fin N) : EReal :=
  (zeroW + ∑ e : Fin E, if (dst (ix2 e 0)).toInt = (n.val : Int) then oneW else 0) + oneW

/-- The guarded inverse square root. -/
def disOf (s : EReal) : EReal := if zeroW < s then Ideal.rsqrt s else zeroW

/-- Every node's factor. -/
def disRow {N E : Nat} (dst : Col E) : Row N := fun v => disOf (degAt dst (⟨(v 0).val, (v 0).isLt⟩ : Fin N))

theorem disRow_apply {N E : Nat} (dst : Col E) (n : Fin N) : disRow (N := N) dst (ix1 n) = disOf (degAt dst n) := rfl

/-- Entry `(n, c)` of a convolution of the table `P` with the node factors `D`. -/
def layerAt {N E C : Nat} (hN : 0 < N) (D : Row N) (P : Mat N C) (src dst : Col E) (bias : Row C) (n : Fin N) (c : Fin C) : EReal :=
  D (ix1 n) * ((0 + sourceSum hN D P src dst n c) + P (ix2 n c) * D (ix1 n)) + bias (ix1 c)

/-- A table from its entries. -/
def tab {a b : Nat} (f : Fin a → Fin b → EReal) : Mat a b := fun i => f (⟨(i 0).val, (i 0).isLt⟩ : Fin a) (⟨(i 1).val, (i 1).isLt⟩ : Fin b)

theorem tab_apply {a b : Nat} (f : Fin a → Fin b → EReal) (p : Fin a) (q : Fin b) : tab f (ix2 p q) = f p q := rfl

theorem hN : 0 < 100000 := by norm_num

/-- THE NETWORK at `(n, r)`: encoder, two convolutions, the rectified dense layer, the last dense layer. -/
def outAt (des tweet : Mat 100000 768) (num : Mat 100000 7) (cat : Mat 100000 11) (nf : Mat 100000 1)
    (edge : IVec ⟨2, ![2, 1600000]⟩ 32)
    (wd : Mat 768 28) (bd : Row 28) (wt : Mat 768 36) (bt : Row 36) (wn : Mat 7 12) (bn : Row 12)
    (wc : Mat 11 40) (bc : Row 40) (wf : Mat 1 12) (bf : Row 12) (win : Mat 128 128) (bin : Row 128)
    (wg1 : Mat 128 128) (bg1 : Row 128) (wg2 : Mat 128 128) (bg2 : Row 128)
    (wo1 : Mat 128 128) (bo1 : Row 128) (wo2 : Mat 128 2) (bo2 : Row 2) (n : Fin 100000) (r : Fin 2) : EReal :=
  let x0 : Mat 100000 128 := tab (encoderAt des tweet num cat nf wd bd wt bt wn bn wc bc wf bf win bin)
  let D : Row 100000 := disRow (dstCol edge)
  let o1 : Mat 100000 128 := tab (layerAt hN D (tab (prodAt x0 wg1)) (srcCol edge) (dstCol edge) bg1)
  let o2 : Mat 100000 128 := tab (layerAt hN D (tab (prodAt o1 wg2)) (srcCol edge) (dstCol edge) bg2)
  let h : Mat 100000 128 := tab (fun p q => lrelu (prodAt o2 wo1 p q + bo1 (ix1 q)))
  prodAt h wo2 n r + bo2 (ix1 r)

end Cert.BotGcn

end
-- ==== Proof.LibElemScatter.lean ====
/-
  An element scatter-add read at an index.

  Single values `[E]` are accumulated into a table `[N]` at `E` start indices (an array `[E, 1]`): update `e` goes to
  the table's entry at the `e`-th start index, read signed and not clamped; an update whose start index is not an entry
  of the table is dropped. On the extended reals entry `n` of the accumulated table is the operand's entry plus the sum,
  over the edges `e` whose start index is `n`, of update `e`. Nothing here mentions a program: the extents are variables.
-/
import proofs.«102536_j32590211842598_2_alg».proof.Proof.LibSegmentSum

noncomputable section

open scoped BigOperators

namespace Idealize.ShloMosaic.ElemScatter

open Idealize.ShloMosaic Idealize.ShloMosaic.ValueIdx

variable {N E w : Nat}

/-- Single values `[E]` accumulated into a table `[N]` at `E` start indices (an array `[E, 1]`). -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window starts at the start index, read signed. -/
theorem start_elem (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (elemScatterDims N E wf).start j idx 0 = (idx (ix2 (j 0) 0)).toInt := by
  unfold ScatterDims.start
  rw [dif_pos (show (0 : Fin 1) ∈ (elemScatterDims N E wf).scatterDimsToOperandDims from List.mem_singleton.mpr rfl)]
  have hsi : (elemScatterDims N E wf).siIdx j ⟨List.idxOf (0 : Fin 1) (elemScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The one axis is inserted: the window has no extent along it. -/
theorem window_elem (wf : ScatterDims.WF ⟨1, ![N]⟩ ⟨2, ![E, 1]⟩ ⟨1, ![E]⟩ [] [0] [0] 1)
    (j : (⟨1, ![E]⟩ : Shape).Idx) : (elemScatterDims N E wf).window j 0 = 0 := by
  unfold ScatterDims.window
  rw [dif_neg]
  intro hmem
  have := (List.mem_filter.mp hmem).2
  simp at this

/-- Where an update lands: update `e` goes to entry `n` exactly when the `e`-th start index, read signed, is `n`. -/
theorem lands_iff (wf : ScatterDims.WF ⟨1, ![N]⟩ ⟨2, ![E, 1]⟩ ⟨1, ![E]⟩ [] [0] [0] 1)
    (idx : IVec ⟨2, ![E, 1]⟩ w) (e : Fin E) (n : Fin N) :
    (elemScatterDims N E wf).resultIdx? (ix1 e) idx = some (ix1 n) ↔ (idx (ix2 e 0)).toInt = (n.val : Int) := by
  have hs0 := start_elem wf idx (ix1 e)
  have hw0 := window_elem wf (ix1 e)
  have he : (ix1 e : (⟨1, ![E]⟩ : Shape).Idx) 0 = e := rfl
  rw [he] at hs0
  unfold ScatterDims.resultIdx?
  constructor
  · intro h
    split at h
    · rename_i hall
      have hi := Option.some.inj h
      have h0 : ((elemScatterDims N E wf).start (ix1 e) idx 0
          + ((elemScatterDims N E wf).window (ix1 e) 0 : Int)).toNat = n.val := by
        have := congrArg (fun f : (⟨1, ![N]⟩ : Shape).Idx => (f 0).val) hi
        exact this
      have hnn := (hall 0).1
      rw [hs0, hw0] at h0 hnn
      omega
    · exact absurd h (by simp)
  · intro hrow
    have hnlt : n.val < N := n.isLt
    have hall : ∀ a : Fin (⟨1, ![N]⟩ : Shape).rank,
        0 ≤ (elemScatterDims N E wf).start (ix1 e) idx a + ((elemScatterDims N E wf).window (ix1 e) a : Int)
        ∧ (elemScatterDims N E wf).start (ix1 e) idx a + ((elemScatterDims N E wf).window (ix1 e) a : Int)
            < (⟨1, ![N]⟩ : Shape).size a := by
      intro a
      match a with
      | ⟨0, _⟩ =>
        show 0 ≤ (elemScatterDims N E wf).start (ix1 e) idx 0 + ((elemScatterDims N E wf).window (ix1 e) 0 : Int)
          ∧ (elemScatterDims N E wf).start (ix1 e) idx 0 + ((elemScatterDims N E wf).window (ix1 e) 0 : Int) < (N : Int)
        rw [hs0, hw0, hrow]; constructor <;> omega
    rw [dif_pos hall]
    refine congrArg some ?_
    funext a
    refine Fin.ext ?_
    match a with
    | ⟨0, _⟩ =>
      show ((elemScatterDims N E wf).start (ix1 e) idx 0 + ((elemScatterDims N E wf).window (ix1 e) 0 : Int)).toNat = n.val
      rw [hs0, hw0, hrow]; omega

/-- THE READING. Entry `n` of an element scatter-add is the operand's entry plus the sum, over the edges `e` whose start
    index read signed is `n`, of update `e`. -/
theorem elemScatterAdd_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (u : (⟨1, ![E]⟩ : Shape).Idx → EReal) (n : Fin N) :
    Ideal.hostScatterAdd (elemScatterDims N E wf) x idx u (ix1 n)
      = x (ix1 n) + ∑ e : Fin E, if (idx (ix2 e 0)).toInt = (n.val : Int) then u (ix1 e) else 0 := by
  classical
  unfold Ideal.hostScatterAdd
  refine congrArg (x (ix1 n) + ·) ?_
  rw [Finset.sum_filter, sum_idx1]
  refine Finset.sum_congr rfl fun e _ => ?_
  by_cases hrow : (idx (ix2 e 0)).toInt = (n.val : Int)
  · rw [if_pos hrow, if_pos ((lands_iff wf idx e n).mpr hrow)]
  · rw [if_neg hrow, if_neg (fun h => hrow ((lands_iff wf idx e n).mp h))]

end Idealize.ShloMosaic.ElemScatter

end
-- ==== Proof.LibSelfLoops.lean ====
/-
  A graph whose edge list is a list of real edges followed by one self loop per node.

  The long list has `E' = E + N` entries: entry `e < E` is real edge `e`, entry `E + i` is the loop `i → i`, its two
  ends stored as the 32-bit word of the number `i`. Summing over the edges of the long list that land on a node `n` is
  summing over the real edges that land on `n` and adding the loop at `n`:

  * the degree counted over the long list is the degree counted over the real edges plus one;
  * the sum of the source rows scaled by the source's factor is the real edges' sum plus the node's own scaled row;
  * hence the symmetric-normalised aggregation over the long list, with weights `D(source) · D(target)` for a nonnegative
    real factor `D` per node, is `D(n) · ((0 + real edges' sum) + P(n, c) · D(n)) + bias(c)`.

  Nothing here needs a finite entry. The extents are variables.
-/
import proofs.«102536_j32590211842598_2_alg».proof.Proof.LibNodeScale
import proofs.«102536_j32590211842598_2_alg».proof.Proof.LibElemScatter

noncomputable section

open scoped BigOperators

namespace Idealize.ShloMosaic.SelfLoops

open Idealize.ShloMosaic Idealize.ShloMosaic.ValueIdx Idealize.ShloMosaic.SegmentSum Idealize.ShloMosaic.RowScatter
open Idealize.ShloMosaic.GraphAggregate Idealize.ShloMosaic.NodeScale Idealize.ShloMosaic.ElemScatter Cert.LibAggregateProject

/-- A sum over `a + b` positions is the sum over the first `a` plus the sum over the last `b`. -/
theorem sum_fin_split {M : Type*} [AddCommMonoid M] (a b c : Nat) (h : c = a + b) (f : Fin c → M) :
    ∑ e, f e = ∑ e : Fin a, f ⟨e.val, by have := e.isLt; omega⟩ + ∑ i : Fin b, f ⟨a + i.val, by have := i.isLt; omega⟩ := by
  subst h
  exact Fin.sum_univ_add f

/-- The 32-bit word of a small number, read signed, is the number. -/
theorem toInt_ofNat_small (i : Nat) (h : i < 2147483648) : (BitVec.ofNat 32 i).toInt = (i : Int) := by
  have hp : (2 : Nat) ^ 32 = 4294967296 := by norm_num
  rw [BitVec.toInt_eq_toNat_cond, BitVec.toNat_ofNat, hp, Nat.mod_eq_of_lt (by omega), if_pos (by omega)]

variable {N E E' C : Nat}

/-- The word of a node's number, read signed and clamped into the table, is the node. -/
theorem clampRow_ofNat (hN : 0 < N) (hN31 : N ≤ 2147483648) (i : Fin N) : clampRow N hN (BitVec.ofNat 32 i.val) = i := by
  apply Fin.ext
  show min (BitVec.ofNat 32 i.val).toInt.toNat (N - 1) = i.val
  have := i.isLt
  rw [toInt_ofNat_small _ (by omega), Int.toNat_natCast]
  omega

/-- The degree over the long list is the degree over the real edges plus one. -/
theorem degree_selfLoops (hN31 : N ≤ 2147483648) (hE : E' = E + N)
    (wf' : ScatterDims.WF ⟨1, ![N]⟩ ⟨2, ![E', 1]⟩ ⟨1, ![E']⟩ [] [0] [0] 1)
    (wf : ScatterDims.WF ⟨1, ![N]⟩ ⟨2, ![E, 1]⟩ ⟨1, ![E]⟩ [] [0] [0] 1)
    (zero : (⟨1, ![N]⟩ : Shape).Idx → EReal) (dst' : IVec ⟨2, ![E', 1]⟩ 32) (dst : IVec ⟨2, ![E, 1]⟩ 32)
    (ones' : (⟨1, ![E']⟩ : Shape).Idx → EReal) (ones : (⟨1, ![E]⟩ : Shape).Idx → EReal) (one : EReal)
    (h1' : ∀ j, ones' j = one) (h1 : ∀ j, ones j = one)
    (hd : ∀ e : Fin E, dst' (ix2 ⟨e.val, by have := e.isLt; omega⟩ 0) = dst (ix2 e 0))
    (hld : ∀ i : Fin N, dst' (ix2 ⟨E + i.val, by have := i.isLt; omega⟩ 0) = BitVec.ofNat 32 i.val)
    (n : Fin N) :
    Ideal.hostScatterAdd (elemScatterDims N E' wf') zero dst' ones' (ix1 n)
      = Ideal.hostScatterAdd (elemScatterDims N E wf) zero dst ones (ix1 n) + one := by
  classical
  rw [elemScatterAdd_apply wf', elemScatterAdd_apply wf, sum_fin_split E N E' hE, ← add_assoc]
  congr 1
  · congr 1
    refine Finset.sum_congr rfl fun e _ => ?_
    rw [hd e, h1', h1]
  · have hloop : ∀ i : Fin N, (if (dst' (ix2 ⟨E + i.val, by have := i.isLt; omega⟩ 0)).toInt = (n.val : Int)
        then ones' (ix1 ⟨E + i.val, by have := i.isLt; omega⟩) else 0) = if i = n then one else 0 := by
      intro i
      have := i.isLt
      rw [hld i, toInt_ofNat_small _ (by omega), h1']
      by_cases h : i = n
      · subst h; rw [if_pos rfl, if_pos rfl]
      · rw [if_neg h, if_neg]; intro h'; exact h (Fin.ext (by exact_mod_cast h'))
    rw [Finset.sum_congr rfl fun i _ => hloop i, Finset.sum_ite_eq' Finset.univ n (fun _ => one), if_pos (Finset.mem_univ n)]

/-- The scaled source rows summed over the long list: the real edges' sum plus the node's own scaled row. -/
theorem sourceSum_selfLoops (hN : 0 < N) (hN31 : N ≤ 2147483648) (hE : E' = E + N)
    (D : (⟨1, ![N]⟩ : Shape).Idx → EReal) (P : (⟨2, ![N, C]⟩ : Shape).Idx → EReal)
    (src' dst' : IVec ⟨2, ![E', 1]⟩ 32) (src dst : IVec ⟨2, ![E, 1]⟩ 32)
    (hs : ∀ e : Fin E, src' (ix2 ⟨e.val, by have := e.isLt; omega⟩ 0) = src (ix2 e 0))
    (hd : ∀ e : Fin E, dst' (ix2 ⟨e.val, by have := e.isLt; omega⟩ 0) = dst (ix2 e 0))
    (hls : ∀ i : Fin N, src' (ix2 ⟨E + i.val, by have := i.isLt; omega⟩ 0) = BitVec.ofNat 32 i.val)
    (hld : ∀ i : Fin N, dst' (ix2 ⟨E + i.val, by have := i.isLt; omega⟩ 0) = BitVec.ofNat 32 i.val)
    (n : Fin N) (c : Fin C) :
    sourceSum hN D P src' dst' n c = sourceSum hN D P src dst n c + P (ix2 n c) * D (ix1 n) := by
  classical
  unfold sourceSum
  rw [sum_fin_split E N E' hE]
  congr 1
  · refine Finset.sum_congr rfl fun e _ => ?_
    rw [hs e, hd e]
  · have hloop : ∀ i : Fin N, (if (dst' (ix2 ⟨E + i.val, by have := i.isLt; omega⟩ 0)).toInt = (n.val : Int)
        then P (ix2 (clampRow N hN (src' (ix2 ⟨E + i.val, by have := i.isLt; omega⟩ 0))) c)
          * D (ix1 (clampRow N hN (src' (ix2 ⟨E + i.val, by have := i.isLt; omega⟩ 0)))) else 0)
        = if i = n then P (ix2 n c) * D (ix1 n) else 0 := by
      intro i
      have := i.isLt
      rw [hls i, hld i, toInt_ofNat_small _ (by omega), clampRow_ofNat hN hN31 i]
      by_cases h : i = n
      · subst h; rw [if_pos rfl, if_pos rfl]
      · rw [if_neg h, if_neg]; intro h'; exact h (Fin.ext (by exact_mod_cast h'))
    rw [Finset.sum_congr rfl fun i _ => hloop i,
      Finset.sum_ite_eq' Finset.univ n (fun _ => P (ix2 n c) * D (ix1 n)), if_pos (Finset.mem_univ n)]

/-- THE LAW over the long list: the aggregation with weights `D(source) · D(target)` is the node's factor times the
    real edges' scaled sum plus the node's own scaled row, plus the bias. -/
theorem aggregate_selfLoops (hN : 0 < N) (hN31 : N ≤ 2147483648) (hE : E' = E + N)
    (D : (⟨1, ![N]⟩ : Shape).Idx → EReal) (hD : ∀ v, IsNNReal (D v)) (P : (⟨2, ![N, C]⟩ : Shape).Idx → EReal)
    (src' dstW' dstR' : IVec ⟨2, ![E', 1]⟩ 32) (src dst : IVec ⟨2, ![E, 1]⟩ 32)
    (hwrap : ∀ e : Fin E', 0 ≤ (dstR' (ix2 e 0)).toInt → (dstR' (ix2 e 0)).toInt < (N : Int) → dstW' (ix2 e 0) = dstR' (ix2 e 0))
    (hs : ∀ e : Fin E, src' (ix2 ⟨e.val, by have := e.isLt; omega⟩ 0) = src (ix2 e 0))
    (hd : ∀ e : Fin E, dstR' (ix2 ⟨e.val, by have := e.isLt; omega⟩ 0) = dst (ix2 e 0))
    (hls : ∀ i : Fin N, src' (ix2 ⟨E + i.val, by have := i.isLt; omega⟩ 0) = BitVec.ofNat 32 i.val)
    (hld : ∀ i : Fin N, dstR' (ix2 ⟨E + i.val, by have := i.isLt; omega⟩ 0) = BitVec.ofNat 32 i.val)
    (bias : (⟨1, ![C]⟩ : Shape).Idx → EReal) (n : Fin N) (c : Fin C) :
    aggregateAt hN P src' dstR' (edgeWeight hN D src' dstW') 0 bias n c
      = D (ix1 n) * ((0 + sourceSum hN D P src dst n c) + P (ix2 n c) * D (ix1 n)) + bias (ix1 c) := by
  rw [aggregateAt_eq_scaledAt hN D hD P src' dstW' dstR' hwrap bias n c]
  unfold scaledAt
  rw [sourceSum_selfLoops hN hN31 hE D P src' dstR' src dst hs hd hls hld n c]
  simp only [zero_add]

end Idealize.ShloMosaic.SelfLoops

end
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.LibSymNorm.lean ====
/-
  General lemmas: a sum weighted on both sides by an inverse square root, on the extended reals.

  For a row of real weights a_j, real values x_j, real column scales q_j and a real row scale p,

      Σ_j ((a_j · p) · q_j) · x_j = (Σ_j a_j · (x_j · q_j)) · p:

  the row scale moves out of the sum.  On the extended reals this needs every entry to be a real number, since a factor
  distributes over a sum only then; commuting and re-associating the factors needs nothing.

  The scale in question is the guarded inverse root of a degree s: s^(-1/2) where s is positive and zero elsewhere.
  For a positive real s the power s^(-1/2) is the inverse of the square root, so the guarded power and the guarded inverse
  root are one function on real numbers, and its value is a real number.  The float word 0xBF000000 is the exponent -1/2.

  A comparison bit that selects between two values is the corresponding if-then-else.
-/
import Idealize.ShloMosaic.PureOps.Ideal.Laws
import proofs.«102536_j32590211842598_2_alg».proof.Proof.LibBatchNorm

noncomputable section

open scoped BigOperators

namespace Cert.LibSymNorm

open Idealize.ShloMosaic Cert.LibBatchNorm

/-- The float word 0xBF000000 denotes the real number -1/2. -/
theorem ofBits_neg_half : Ideal.ofBits .f32 0xBF000000#32 = ((-(1 / 2) : ℝ) : EReal) := by
  simp [Ideal.ofBits, Ideal.ieee, -EReal.coe_mul]
  norm_num

/-- For a positive real the power -1/2 is the inverse square root. -/
theorem pow_neg_half_of_pos {r : ℝ} (h : 0 < r) :
    Ideal.pow (r : EReal) ((-(1 / 2) : ℝ) : EReal) = Ideal.rsqrt (r : EReal) := by
  rw [rsqrt_coe_pos h, Ideal.pow_coe_coe]
  congr 1
  show r ^ (-(1 / 2) : ℝ) = (Real.sqrt r)⁻¹
  rw [Real.rpow_neg h.le, Real.sqrt_eq_rpow]

/-- On a real number the guarded power -1/2 is the guarded inverse square root. -/
theorem guarded_pow_eq_rsqrt {s : EReal} (hs : IsReal s) :
    (if 0 < s then Ideal.pow s ((-(1 / 2) : ℝ) : EReal) else 0) = if 0 < s then Ideal.rsqrt s else 0 := by
  obtain ⟨r, rfl⟩ := hs
  by_cases h : (0 : EReal) < (r : EReal)
  · rw [if_pos h, if_pos h, pow_neg_half_of_pos (EReal.coe_pos.mp h)]
  · rw [if_neg h, if_neg h]

/-- The guarded inverse square root of a real number is a real number. -/
theorem isReal_guarded_rsqrt {s : EReal} (hs : IsReal s) : IsReal (if 0 < s then Ideal.rsqrt s else 0) := by
  obtain ⟨r, rfl⟩ := hs
  by_cases h : (0 : EReal) < (r : EReal)
  · rw [if_pos h, rsqrt_coe_pos (EReal.coe_pos.mp h)]
    exact isReal_coe _
  · rw [if_neg h]
    exact ⟨0, EReal.coe_zero.symm⟩

/-- Selecting by the bit of the comparison "y < x" is the if-then-else on that comparison. -/
theorem select_cmp_ogt {α : Type} (x y : EReal) (a b : α) :
    Scalar.select (Ideal.cmp .ogt x y) a b = if y < x then a else b := by
  unfold Scalar.select Ideal.cmp
  by_cases h : y < x
  · simp [h]
  · simp [h]

/-- The row scale moves out of a sum of real terms. -/
theorem scaled_sum_law {ι : Type*} (s : Finset ι) (a x q : ι → EReal) (p : EReal)
    (ha : ∀ j, IsReal (a j)) (hx : ∀ j, IsReal (x j)) (hq : ∀ j, IsReal (q j)) (hp : IsReal p) :
    ∑ j ∈ s, ((a j * p) * q j) * x j = (∑ j ∈ s, a j * (x j * q j)) * p := by
  choose a' ha' using ha
  choose x' hx' using hx
  choose q' hq' using hq
  obtain ⟨p', rfl⟩ := hp
  simp only [ha', hx', hq', ← EReal.coe_mul]
  rw [← coe_sum, ← coe_sum, ← EReal.coe_mul, Finset.sum_mul]
  congr 1
  exact Finset.sum_congr rfl fun j _ => by ring

end Cert.LibSymNorm

end
-- ==== Proof.RefDegree.lean ====
/-
  The pieces of a graph convolution with self loops, read at an index, over variables: no program is mentioned.

  The edge list of the convolution is the list of real edges followed by one loop per node, the loop of node i stored
  as the 32-bit word of i. A source index is wrapped before it is used (a negative word is moved up by the number of
  nodes); a word that reads as a nonnegative number, in particular a node's own number, is left alone by the wrap.
  Ones scattered into zeros along the long target list count, at node n, the real edges landing on n plus one for the
  loop: the degree, a real number at least one, so its guarded inverse square root is a nonnegative real number.
  A compare-and-select on "x > 0" is the guarded inverse root, or the leaky rectifier, according to its branches.
  Also here: a sum over the 128 joined columns split into the five fields' sums, in the order the fields are joined.
-/
import proofs.«102536_j32590211842598_2_alg».proof.Proof.BotGcnSpec
import proofs.«102536_j32590211842598_2_alg».proof.Proof.LibSelfLoops
import proofs.«102536_j32590211842598_2_alg».proof.Proof.LibSymNorm
import Idealize.ShloMosaic.Lib.Affine
import Idealize.ShloMosaic.Lib.Pipeline.Value

noncomputable section

open scoped BigOperators

namespace Cert.ReferenceIdeal.RefValue

open Idealize.ShloMosaic Idealize.ShloMosaic.ValueIdx Idealize.ShloMosaic.SelfLoops Cert.BotGcn
open Cert.LibAggregateProject Cert.LibBatchNorm

/-- A sum over the 128 joined columns is the five fields' sums, in the order the fields are joined. -/
theorem sum_split5 (g : Fin 128 → EReal) :
    ∑ k : Fin 128, g k
      = ((((∑ q : Fin 28, g ⟨0 + q.val, by have := q.isLt; omega⟩ + ∑ q : Fin 36, g ⟨28 + q.val, by have := q.isLt; omega⟩)
          + ∑ q : Fin 12, g ⟨64 + q.val, by have := q.isLt; omega⟩) + ∑ q : Fin 40, g ⟨76 + q.val, by have := q.isLt; omega⟩)
          + ∑ q : Fin 12, g ⟨116 + q.val, by have := q.isLt; omega⟩) := by
  rw [sum_fin_split 116 12 128 rfl g,
    sum_fin_split 76 40 116 rfl (fun e : Fin 116 => g ⟨e.val, by have := e.isLt; omega⟩),
    sum_fin_split 64 12 76 rfl (fun e : Fin 76 => g ⟨e.val, by have := e.isLt; omega⟩),
    sum_fin_split 28 36 64 rfl (fun e : Fin 64 => g ⟨e.val, by have := e.isLt; omega⟩)]
  simp only [Nat.zero_add]

/-- A word that reads as a nonnegative number is left alone by the wrap. -/
theorem wrapW_of_nonneg (v : BitVec 32) (h : 0 ≤ v.toInt) : wrapW v = v := by
  unfold wrapW Scalar.select
  rw [if_neg]
  intro hc
  have := IntOp.cmpi_slt.mp hc
  rw [BitVec.toInt_zero] at this
  omega

/-- The word of a node's number is left alone by the wrap. -/
theorem wrapW_ofNat (i : Nat) (h : i < 100000) : wrapW (BitVec.ofNat 32 i) = BitVec.ofNat 32 i :=
  wrapW_of_nonneg _ (by rw [toInt_ofNat_small _ (by omega)]; omega)

theorem zeroW_eq : zeroW = 0 := Ideal.ofBits_zero_f32

/-- The float word 0x3F800000 is the real number one. -/
theorem oneW_eq : oneW = ((1 : ℝ) : EReal) := by
  unfold oneW
  simp [Ideal.ofBits, Ideal.ieee, -EReal.coe_mul]
  norm_num

/-- A degree is a real number, at least one. -/
theorem degAt_real {N E : Nat} (dst : Col E) (n : Fin N) : ∃ r : ℝ, 1 ≤ r ∧ degAt dst n = (r : EReal) := by
  classical
  refine ⟨(∑ e : Fin E, if (dst (ix2 e 0)).toInt = (n.val : Int) then (1 : ℝ) else 0) + 1, ?_, ?_⟩
  · have : (0 : ℝ) ≤ ∑ e : Fin E, if (dst (ix2 e 0)).toInt = (n.val : Int) then (1 : ℝ) else 0 :=
      Finset.sum_nonneg fun e _ => by split <;> norm_num
    linarith
  · unfold degAt
    rw [zeroW_eq, oneW_eq, zero_add, EReal.coe_add, coe_sum]
    congr 1
    refine Finset.sum_congr rfl fun e _ => ?_
    split
    · rfl
    · exact EReal.coe_zero.symm

/-- The guarded inverse root of a degree is a nonnegative real number. -/
theorem disOf_degAt_nn {N E : Nat} (dst : Col E) (n : Fin N) : IsNNReal (disOf (degAt dst n)) := by
  obtain ⟨r, hr, he⟩ := degAt_real dst n
  rw [he]
  unfold disOf
  rw [zeroW_eq]
  by_cases h : (0 : EReal) < (r : EReal)
  · rw [if_pos h, rsqrt_coe_pos (EReal.coe_pos.mp h)]
    exact ⟨(Real.sqrt r)⁻¹, inv_nonneg.mpr (Real.sqrt_nonneg r), rfl⟩
  · rw [if_neg h]
    exact ⟨0, le_refl _, EReal.coe_zero.symm⟩

theorem disRow_nn {N E : Nat} (dst : Col E) (v : (⟨1, ![N]⟩ : Shape).Idx) : IsNNReal (disRow (N := N) dst v) :=
  disOf_degAt_nn dst _

open Idealize.ShloMosaic.SegmentSum Idealize.ShloMosaic.ElemScatter Idealize.ShloMosaic.GraphAggregate Idealize.ShloMosaic.NodeScale
open Cert.LibSymNorm

/-! ## The long edge list: the real edges, then one loop per node -/

/-- The long list read at a real edge. -/
theorem longList_real {E N E' : Nat} (col : IVec ⟨1, ![E]⟩ 32)
    (h : Shape.Concatenates [(⟨1, ![E]⟩ : Shape), ⟨1, ![N]⟩] ⟨1, ![E']⟩ 0) (e : Fin E) (he : e.val < E') :
    concatenate ⟨1, ![E']⟩ 0 [⟨⟨1, ![E]⟩, col⟩, ⟨⟨1, ![N]⟩, iotaInDim ⟨1, ![N]⟩ 32 0⟩] h (ix1 ⟨e.val, he⟩) = col (ix1 e) :=
  concatenate_pair_apply_left 0 col _ h (ix1 ⟨e.val, he⟩) rfl (ix1 e) (fun b => by match b with | ⟨0, _⟩ => rfl)

/-- The long list read at the loop of node `i`: the word of `i`. -/
theorem longList_loop {E N E' : Nat} (col : IVec ⟨1, ![E]⟩ 32)
    (h : Shape.Concatenates [(⟨1, ![E]⟩ : Shape), ⟨1, ![N]⟩] ⟨1, ![E']⟩ 0) (i : Fin N) (hi : E + i.val < E') :
    concatenate ⟨1, ![E']⟩ 0 [⟨⟨1, ![E]⟩, col⟩, ⟨⟨1, ![N]⟩, iotaInDim ⟨1, ![N]⟩ 32 0⟩] h (ix1 ⟨E + i.val, hi⟩)
      = BitVec.ofNat 32 i.val :=
  (concatenate_pair_apply_right 0 col (iotaInDim ⟨1, ![N]⟩ 32 0) h (ix1 ⟨E + i.val, hi⟩) rfl rfl (ix1 i)
    (fun b hb => by match b with | ⟨0, _⟩ => exact absurd rfl hb) (by show i.val + E = E + i.val; omega)).trans rfl

/-- A list laid along a column `[E', 1]`. -/
abbrev asCol {α : Type} {E' : Nat} (hb : (⟨1, ![E']⟩ : Shape).BroadcastsInDim ⟨2, ![E', 1]⟩ ![0]) (L : (⟨1, ![E']⟩ : Shape).Idx → α) :
    (⟨2, ![E', 1]⟩ : Shape).Idx → α := broadcastInDim ⟨2, ![E', 1]⟩ ![0] hb L

theorem asCol_apply {α : Type} {E' : Nat} (hb : (⟨1, ![E']⟩ : Shape).BroadcastsInDim ⟨2, ![E', 1]⟩ ![0])
    (L : (⟨1, ![E']⟩ : Shape).Idx → α) (e : Fin E') : asCol hb L (ix2 e 0) = L (ix1 e) := by
  have he := e.isLt
  exact broadcastInDim_apply ![0] hb L (ix2 e (0 : Fin 1)) (ix1 e) (fun a => by
    match a with
    | ⟨0, _⟩ => show e.val = if E' = 1 then 0 else e.val; split <;> omega)

/-- A list of indices wrapped entry by entry: a negative word is moved up by the number of nodes. -/
abbrev wrapList {E' : Nat} (hb0 : (⟨0, ![]⟩ : Shape).BroadcastsInDim ⟨1, ![E']⟩ ![]) (L : IVec ⟨1, ![E']⟩ 32) : IVec ⟨1, ![E']⟩ 32 :=
  select (cmpi .slt L (broadcastInDim ⟨1, ![E']⟩ ![] hb0 (constantI ⟨0, ![]⟩ 32 0#32)))
    (addi L (broadcastInDim ⟨1, ![E']⟩ ![] hb0 (constantI ⟨0, ![]⟩ 32 100000#32))) L

theorem wrapList_apply {E' : Nat} (hb0 : (⟨0, ![]⟩ : Shape).BroadcastsInDim ⟨1, ![E']⟩ ![]) (L : IVec ⟨1, ![E']⟩ 32)
    (j : (⟨1, ![E']⟩ : Shape).Idx) : wrapList hb0 L j = wrapW (L j) := rfl

/-! ## The degree and the node factor -/

/-- Ones scattered into zeros along the long target list: the degree. -/
theorem degree_chain {E E' : Nat} (hE : E' = E + 100000)
    (wf' : ScatterDims.WF ⟨1, ![100000]⟩ ⟨2, ![E', 1]⟩ ⟨1, ![E']⟩ [] [0] [0] 1)
    (hbz : (⟨0, ![]⟩ : Shape).BroadcastsInDim ⟨1, ![100000]⟩ ![])
    (hb0 : (⟨0, ![]⟩ : Shape).BroadcastsInDim ⟨1, ![E']⟩ ![])
    (hb : (⟨1, ![E']⟩ : Shape).BroadcastsInDim ⟨2, ![E', 1]⟩ ![0])
    (dstL : IVec ⟨1, ![E']⟩ 32) (dst : Col E)
    (hdr : ∀ e : Fin E, dstL (ix1 ⟨e.val, by have := e.isLt; omega⟩) = dst (ix2 e 0))
    (hdl : ∀ i : Fin 100000, dstL (ix1 ⟨E + i.val, by have := i.isLt; omega⟩) = BitVec.ofNat 32 i.val)
    (n : Fin 100000) :
    Host.scatterAdd (F := Ideal) (φ := .f32) (elemScatterDims 100000 E' wf')
        (broadcastInDim ⟨1, ![100000]⟩ ![] hbz (constant (F := Ideal) ⟨0, ![]⟩ .f32 0x00000000#32))
        (asCol hb dstL)
        (broadcastInDim ⟨1, ![E']⟩ ![] hb0 (constant (F := Ideal) ⟨0, ![]⟩ .f32 0x3F800000#32)) (ix1 n)
      = degAt dst n := by
  classical
  show Ideal.hostScatterAdd (elemScatterDims 100000 E' wf') _ (asCol hb dstL) _ (ix1 n) = _
  rw [elemScatterAdd_apply wf', sum_fin_split E 100000 E' hE, ← add_assoc]
  have hz : (broadcastInDim ⟨1, ![100000]⟩ ![] hbz (constant (F := Ideal) ⟨0, ![]⟩ .f32 0x00000000#32)
      : (⟨1, ![100000]⟩ : Shape).Idx → EReal) (ix1 n) = zeroW := rfl
  have h1 : (∑ e : Fin E, if (asCol hb dstL (ix2 ⟨e.val, by have := e.isLt; omega⟩ 0)).toInt = (n.val : Int)
      then (broadcastInDim ⟨1, ![E']⟩ ![] hb0 (constant (F := Ideal) ⟨0, ![]⟩ .f32 0x3F800000#32)
        : (⟨1, ![E']⟩ : Shape).Idx → EReal) (ix1 ⟨e.val, by have := e.isLt; omega⟩) else 0)
      = ∑ e : Fin E, if (dst (ix2 e 0)).toInt = (n.val : Int) then oneW else 0 := by
    refine Finset.sum_congr rfl fun e _ => ?_
    rw [asCol_apply, hdr e]
    rfl
  have hloop : ∀ i : Fin 100000, (if (asCol hb dstL (ix2 ⟨E + i.val, by have := i.isLt; omega⟩ 0)).toInt = (n.val : Int)
      then (broadcastInDim ⟨1, ![E']⟩ ![] hb0 (constant (F := Ideal) ⟨0, ![]⟩ .f32 0x3F800000#32)
        : (⟨1, ![E']⟩ : Shape).Idx → EReal) (ix1 ⟨E + i.val, by have := i.isLt; omega⟩) else 0) = if i = n then oneW else 0 := by
    intro i
    have := i.isLt
    rw [asCol_apply, hdl i, toInt_ofNat_small _ (by omega)]
    by_cases h : i = n
    · subst h; rw [if_pos rfl, if_pos rfl]; rfl
    · rw [if_neg h, if_neg]; intro h'; exact h (Fin.ext (by exact_mod_cast h'))
  rw [hz, h1, Finset.sum_congr rfl fun i _ => hloop i, Finset.sum_ite_eq' Finset.univ n (fun _ => oneW), if_pos (Finset.mem_univ n)]
  rfl

/-- The guarded inverse root, as the compare-and-select of the program. -/
theorem dis_select (s : Ideal .f32) :
    Scalar.select (FloatOps.cmpf (F := Ideal) .ogt s (FloatOps.ofBits (F := Ideal) .f32 0x00000000#32))
        (FloatOps.hostUnary (F := Ideal) .rsqrt s) (FloatOps.ofBits (F := Ideal) .f32 0x00000000#32) = disOf s := by
  show Scalar.select (Ideal.cmp .ogt s zeroW) (Ideal.rsqrt s) zeroW = _
  rw [select_cmp_ogt]
  rfl

/-- The leaky rectifier, as the compare-and-select of the program. -/
theorem lrelu_select (x : Ideal .f32) :
    Scalar.select (FloatOps.cmpf (F := Ideal) .ogt x (FloatOps.ofBits (F := Ideal) .f32 0x00000000#32)) x
        (FloatOps.mulf (FloatOps.ofBits (F := Ideal) .f32 0x3C23D70A#32) x) = lrelu x := by
  show Scalar.select (Ideal.cmp .ogt x zeroW) x (slopeW * x) = _
  rw [select_cmp_ogt]
  rfl

end Cert.ReferenceIdeal.RefValue

end
-- ==== Proof.RefLayer.lean ====
/-
  One convolution over the long edge list, and the projection of the five joined encodings, over variables.

  The convolution: a table P is gathered row by row at the wrapped long source list, every gathered row is scaled by
  the product of the two node factors gathered at the wrapped source and the wrapped target, the scaled rows are summed
  at the raw long target list, and a bias row is added. With nonnegative real node factors D this is, at (n, c),
  D(n) · ((0 + the real edges' sum of P(source, c) · D(source)) + P(n, c) · D(n)) + bias(c): the target's factor leaves
  the sum, and the loops contribute the node's own scaled row.

  The projection: the five encodings are laid side by side (widths 28, 36, 12, 40, 12), so the joined row at a column
  of a field is that field's entry, and the sum over the 128 joined columns is the sum of the five partial products.
-/
import proofs.«102536_j32590211842598_2_alg».proof.Proof.RefDegree

noncomputable section

open scoped BigOperators

namespace Cert.ReferenceIdeal.RefValue

open Idealize.ShloMosaic Idealize.ShloMosaic.ValueIdx Idealize.ShloMosaic.SelfLoops Cert.BotGcn
open Cert.LibAggregateProject Cert.LibBatchNorm
open Idealize.ShloMosaic.SegmentSum Idealize.ShloMosaic.ElemScatter Idealize.ShloMosaic.GraphAggregate Idealize.ShloMosaic.NodeScale
open Cert.LibSymNorm

/-! ## One convolution over the long list -/

/-- The chain of host operations of one convolution, read at `(n, c)`: the table gathered at the wrapped long source
    list, weighted by the two gathered node factors, scattered at the raw long target list, plus the bias, is the
    convolution of the specification over the real edges. -/
theorem layer_chain {E E' C : Nat} (hE : E' = E + 100000)
    (wfs : ScatterDims.WF ⟨2, ![100000, C]⟩ ⟨2, ![E', 1]⟩ ⟨2, ![E', C]⟩ [1] [0] [0] 1)
    (wfg : GatherDims.WF ⟨2, ![100000, C]⟩ ⟨2, ![E', 1]⟩ ⟨2, ![E', C]⟩ [1] [0] [] [0] [] 1 ![1, C])
    (wfe : GatherDims.WF ⟨1, ![100000]⟩ ⟨2, ![E', 1]⟩ ⟨1, ![E']⟩ [] [0] [] [0] [] 1 ![1])
    (hfill : (⟨0, ![]⟩ : Shape).BroadcastsInDim ⟨2, ![100000, C]⟩ ![])
    (hcol : (⟨1, ![E']⟩ : Shape).BroadcastsInDim ⟨2, ![E', 1]⟩ ![0])
    (hwide : (⟨2, ![E', 1]⟩ : Shape).BroadcastsInDim ⟨2, ![E', C]⟩ ![0, 1])
    (hrow : (⟨1, ![C]⟩ : Shape).BroadcastsInDim ⟨2, ![1, C]⟩ ![1])
    (hrows : (⟨2, ![1, C]⟩ : Shape).BroadcastsInDim ⟨2, ![100000, C]⟩ ![0, 1])
    (hb0 : (⟨0, ![]⟩ : Shape).BroadcastsInDim ⟨1, ![E']⟩ ![])
    (P : FVec Ideal ⟨2, ![100000, C]⟩ .f32) (D : FVec Ideal ⟨1, ![100000]⟩ .f32) (hD : ∀ v, IsNNReal (D v))
    (srcL dstL : IVec ⟨1, ![E']⟩ 32) (src dst : Col E)
    (hsr : ∀ e : Fin E, wrapW (srcL (ix1 ⟨e.val, by have := e.isLt; omega⟩)) = src (ix2 e 0))
    (hdr : ∀ e : Fin E, dstL (ix1 ⟨e.val, by have := e.isLt; omega⟩) = dst (ix2 e 0))
    (hsl : ∀ i : Fin 100000, srcL (ix1 ⟨E + i.val, by have := i.isLt; omega⟩) = BitVec.ofNat 32 i.val)
    (hdl : ∀ i : Fin 100000, dstL (ix1 ⟨E + i.val, by have := i.isLt; omega⟩) = BitVec.ofNat 32 i.val)
    (z : FVec Ideal ⟨0, ![]⟩ .f32) (hz : z ix0 = 0) (bias : FVec Ideal ⟨1, ![C]⟩ .f32) (n : Fin 100000) (c : Fin C) :
    addf
        (Host.scatterAdd (rowScatterDims 100000 E' C wfs) (broadcastInDim ⟨2, ![100000, C]⟩ ![] hfill z) (asCol hcol dstL)
          (mulf (Host.gather (rowGatherDims 100000 E' C wfg) P (asCol hcol (wrapList hb0 srcL)))
            (broadcastInDim ⟨2, ![E', C]⟩ ![0, 1] hwide (broadcastInDim ⟨2, ![E', 1]⟩ ![0] hcol
              (mulf (Host.gather (elemGatherDims 100000 E' wfe) D (asCol hcol (wrapList hb0 srcL)))
                (Host.gather (elemGatherDims 100000 E' wfe) D (asCol hcol (wrapList hb0 dstL))))))))
        (broadcastInDim ⟨2, ![100000, C]⟩ ![0, 1] hrows (broadcastInDim ⟨2, ![1, C]⟩ ![1] hrow bias)) (ix2 n c)
      = layerAt Cert.BotGcn.hN D P src dst bias n c := by
  rw [aggregate_apply Cert.BotGcn.hN wfs wfg hfill hcol hwide hrow hrows P (asCol hcol (wrapList hb0 srcL)) (asCol hcol dstL) _ z bias n c]
  have hw : (mulf (Host.gather (elemGatherDims 100000 E' wfe) D (asCol hcol (wrapList hb0 srcL)))
      (Host.gather (elemGatherDims 100000 E' wfe) D (asCol hcol (wrapList hb0 dstL))) : FVec Ideal ⟨1, ![E']⟩ .f32)
      = edgeWeight Cert.BotGcn.hN D (asCol hcol (wrapList hb0 srcL)) (asCol hcol (wrapList hb0 dstL)) := by
    funext e
    rw [mulf_apply, elemGather_apply Cert.BotGcn.hN wfe, elemGather_apply Cert.BotGcn.hN wfe]
    rfl
  rw [hw, hz]
  exact aggregate_selfLoops Cert.BotGcn.hN (by norm_num) hE D hD P (asCol hcol (wrapList hb0 srcL)) (asCol hcol (wrapList hb0 dstL))
    (asCol hcol dstL) src dst
    (fun e h0 _ => by rw [asCol_apply, asCol_apply, wrapList_apply]; rw [asCol_apply] at h0; exact wrapW_of_nonneg _ h0)
    (fun e => by rw [asCol_apply, wrapList_apply]; exact hsr e)
    (fun e => by rw [asCol_apply]; exact hdr e)
    (fun i => by rw [asCol_apply, wrapList_apply, hsl i]; exact wrapW_ofNat _ i.isLt)
    (fun i => by rw [asCol_apply]; exact hdl i)
    bias n c

/-! ## The five encodings joined, and the projection of the joined row -/

/-- The five encodings laid side by side, read at a column of each field. -/
theorem joined_apply {a : Nat} (y1 : Mat a 28) (y2 : Mat a 36) (y3 : Mat a 12) (y4 : Mat a 40) (y5 : Mat a 12)
    (h : Shape.Concatenates [(⟨2, ![a, 28]⟩ : Shape), ⟨2, ![a, 36]⟩, ⟨2, ![a, 12]⟩, ⟨2, ![a, 40]⟩, ⟨2, ![a, 12]⟩] ⟨2, ![a, 128]⟩ 1)
    (n : Fin a) :
    (∀ q : Fin 28, concatenate ⟨2, ![a, 128]⟩ 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
        (ix2 n (⟨0 + q.val, by have := q.isLt; omega⟩ : Fin 128)) = y1 (ix2 n q))
    ∧ (∀ q : Fin 36, concatenate ⟨2, ![a, 128]⟩ 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
        (ix2 n (⟨28 + q.val, by have := q.isLt; omega⟩ : Fin 128)) = y2 (ix2 n q))
    ∧ (∀ q : Fin 12, concatenate ⟨2, ![a, 128]⟩ 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
        (ix2 n (⟨64 + q.val, by have := q.isLt; omega⟩ : Fin 128)) = y3 (ix2 n q))
    ∧ (∀ q : Fin 40, concatenate ⟨2, ![a, 128]⟩ 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
        (ix2 n (⟨76 + q.val, by have := q.isLt; omega⟩ : Fin 128)) = y4 (ix2 n q))
    ∧ (∀ q : Fin 12, concatenate ⟨2, ![a, 128]⟩ 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
        (ix2 n (⟨116 + q.val, by have := q.isLt; omega⟩ : Fin 128)) = y5 (ix2 n q)) := by
  refine ⟨fun q => ?_, fun q => ?_, fun q => ?_, fun q => ?_, fun q => ?_⟩
  · exact concatenate_apply_piece (t := ⟨2, ![a, 128]⟩) 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
      (ix2 n (⟨0 + q.val, by have := q.isLt; omega⟩ : Fin 128)) 0 (by show 0 < 5; omega) ⟨2, ![a, 28]⟩ y1 rfl rfl 0 rfl (ix2 n q)
      (fun b hb => by match b with | ⟨0, _⟩ => rfl | ⟨1, _⟩ => exact absurd rfl hb) rfl
  · exact concatenate_apply_piece (t := ⟨2, ![a, 128]⟩) 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
      (ix2 n (⟨28 + q.val, by have := q.isLt; omega⟩ : Fin 128)) 1 (by show 1 < 5; omega) ⟨2, ![a, 36]⟩ y2 rfl rfl 28 rfl (ix2 n q)
      (fun b hb => by match b with | ⟨0, _⟩ => rfl | ⟨1, _⟩ => exact absurd rfl hb) rfl
  · exact concatenate_apply_piece (t := ⟨2, ![a, 128]⟩) 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
      (ix2 n (⟨64 + q.val, by have := q.isLt; omega⟩ : Fin 128)) 2 (by show 2 < 5; omega) ⟨2, ![a, 12]⟩ y3 rfl rfl 64 rfl (ix2 n q)
      (fun b hb => by match b with | ⟨0, _⟩ => rfl | ⟨1, _⟩ => exact absurd rfl hb) rfl
  · exact concatenate_apply_piece (t := ⟨2, ![a, 128]⟩) 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
      (ix2 n (⟨76 + q.val, by have := q.isLt; omega⟩ : Fin 128)) 3 (by show 3 < 5; omega) ⟨2, ![a, 40]⟩ y4 rfl rfl 76 rfl (ix2 n q)
      (fun b hb => by match b with | ⟨0, _⟩ => rfl | ⟨1, _⟩ => exact absurd rfl hb) rfl
  · exact concatenate_apply_piece (t := ⟨2, ![a, 128]⟩) 1 [⟨⟨2, ![a, 28]⟩, y1⟩, ⟨⟨2, ![a, 36]⟩, y2⟩, ⟨⟨2, ![a, 12]⟩, y3⟩, ⟨⟨2, ![a, 40]⟩, y4⟩, ⟨⟨2, ![a, 12]⟩, y5⟩] h
      (ix2 n (⟨116 + q.val, by have := q.isLt; omega⟩ : Fin 128)) 4 (by show 4 < 5; omega) ⟨2, ![a, 12]⟩ y5 rfl rfl 116 rfl (ix2 n q)
      (fun b hb => by match b with | ⟨0, _⟩ => rfl | ⟨1, _⟩ => exact absurd rfl hb) rfl

/-- The projection of a joined row is the sum of the five fields' partial products. -/
theorem joined_project {a : Nat} (J : Mat a 128) (f1 : Fin a → Fin 28 → EReal) (f2 : Fin a → Fin 36 → EReal)
    (f3 : Fin a → Fin 12 → EReal) (f4 : Fin a → Fin 40 → EReal) (f5 : Fin a → Fin 12 → EReal) (win : Mat 128 128)
    (n : Fin a) (j : Fin 128)
    (h1 : ∀ q : Fin 28, J (ix2 n (⟨0 + q.val, by have := q.isLt; omega⟩ : Fin 128)) = f1 n q)
    (h2 : ∀ q : Fin 36, J (ix2 n (⟨28 + q.val, by have := q.isLt; omega⟩ : Fin 128)) = f2 n q)
    (h3 : ∀ q : Fin 12, J (ix2 n (⟨64 + q.val, by have := q.isLt; omega⟩ : Fin 128)) = f3 n q)
    (h4 : ∀ q : Fin 40, J (ix2 n (⟨76 + q.val, by have := q.isLt; omega⟩ : Fin 128)) = f4 n q)
    (h5 : ∀ q : Fin 12, J (ix2 n (⟨116 + q.val, by have := q.isLt; omega⟩ : Fin 128)) = f5 n q) :
    ∑ k : Fin 128, J (ix2 n k) * win (ix2 k j)
      = ((((partAt 0 (by norm_num) f1 win n j + partAt 28 (by norm_num) f2 win n j) + partAt 64 (by norm_num) f3 win n j)
          + partAt 76 (by norm_num) f4 win n j) + partAt 116 (by norm_num) f5 win n j) := by
  rw [sum_split5 (fun k => J (ix2 n k) * win (ix2 k j))]
  unfold partAt
  simp only [h1, h2, h3, h4, h5]

end Cert.ReferenceIdeal.RefValue

end
-- ==== Proof.RefEncoder.lean ====
/-
  The reference's encoder, read stage by stage, is the specification's encoder.

  Each of the five fields is a dense layer, a bias row spread over the rows and a compare-and-select, which at entry
  (n, q) is the leaky rectifier of Σ_k x(n, k) · w(k, q) + b(q). The five encodings are joined along the columns and
  projected by a 128 × 128 matrix; at (n, j) the projection's sum over the joined columns is the sum of the five
  fields' partial products, which is how the specification writes it.
-/
import proofs.«102536_j32590211842598_2_alg».proof.Proof.RefRead
import proofs.«102536_j32590211842598_2_alg».proof.Proof.RefLayer

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.BotGcn Cert.LibAggregateProject

/-- One field's encoding: the dense layer, its bias, the rectifier. -/
theorem dense_v8 (x0 : (⟨S100000x768, .f32⟩ : BufTy).Contents (Elt Ideal)) (x7 : (⟨S768x28, .f32⟩ : BufTy).Contents (Elt Ideal)) (x8 : (⟨S28, .f32⟩ : BufTy).Contents (Elt Ideal)) (n : Fin 100000) (q : Fin 28) :
    val_main_v8 (F := Ideal) x0 x7 x8 (ix2 n q) = lrelu ((∑ k : Fin 768, x0 (ix2 n k) * x7 (ix2 k q)) + x8 (ix1 q)) := by
  have hl : ∀ k, lidx_main_v0 (ix2 n q) k = ix2 n k := fun k => funext fun a => Fin.ext (by match a with | ⟨0, _⟩ => rfl | ⟨1, _⟩ => rfl)
  have hr : ∀ k, ridx_main_v0 (ix2 n q) k = ix2 k q := fun k => funext fun a => Fin.ext (by match a with | ⟨0, _⟩ => rfl | ⟨1, _⟩ => rfl)
  have hb : idx_main_v1 (idx_main_v2 (ix2 n q)) = ix1 q := funext fun a => Fin.ext (by match a with | ⟨0, _⟩ => rfl)
  rw [val_main_v8_apply, val_main_v5_apply, val_main_v7_apply, val_main_v4_apply, val_main_cst_apply,
    val_main_v6_apply, val_main_cst_0_apply, val_main_v3_apply, val_main_v0_apply, val_main_v2_apply, val_main_v1_apply]
  simp only [hl, hr, hb]
  exact lrelu_select _

/-- One field's encoding: the dense layer, its bias, the rectifier. -/
theorem dense_v17 (x1 : (⟨S100000x768, .f32⟩ : BufTy).Contents (Elt Ideal)) (x9 : (⟨S768x36, .f32⟩ : BufTy).Contents (Elt Ideal)) (x10 : (⟨S36, .f32⟩ : BufTy).Contents (Elt Ideal)) (n : Fin 100000) (q : Fin 36) :
    val_main_v17 (F := Ideal) x1 x9 x10 (ix2 n q) = lrelu ((∑ k : Fin 768, x1 (ix2 n k) * x9 (ix2 k q)) + x10 (ix1 q)) := by
  have hl : ∀ k, lidx_main_v9 (ix2 n q) k = ix2 n k := fun k => funext fun a => Fin.ext (by match a with | ⟨0, _⟩ => rfl | ⟨1, _⟩ => rfl)
  have hr : ∀ k, ridx_main_v9 (ix2 n q) k = ix2 k q := fun k => funext fun a => Fin.ext (by match a with | ⟨0, _⟩ => rfl | ⟨1, _⟩ => rfl)
  have hb : idx_main_v10 (idx_main_v11 (ix2 n q)) = ix1 q := funext fun a => Fin.ext (by match a with | ⟨0, _⟩ => rfl)
  rw [val_main_v17_apply, val_main_v14_apply, val_main_v16_apply, val_main_v13_apply, val_main_cst_1_apply,
    val_main_v15_apply, val_main_cst_2_apply, val_main_v12_apply, val_main_v9_apply, val_main_v11_apply, val_main_v10_apply]
  simp only [hl, hr, hb]
  exact lrelu_select _

/-- One field's encoding: the dense layer, its bias, the rectifier. -/
theorem dense_v26 (x2 : (⟨S100000x7, .f32⟩ : BufTy).Contents (Elt Ideal)) (x11 : (⟨S7x12, .f32⟩ : BufTy).Contents (Elt Ideal)) (x12 : (⟨S12, .f32⟩ : BufTy).Contents (Elt Ideal)) (n : Fin 100000) (q : Fin 12) :
    val_main_v26 (F := Ideal) x2 x11 x12 (ix2 n q) = lrelu ((∑ k : Fin 7, x2 (ix2 n k) * x11 (ix2 k q)) + x12 (ix1 q)) := by
  have hl : ∀ k, lidx_main_v18 (ix2 n q) k = ix2 n k := fun k => funext fun a => Fin.ext (by match a with | ⟨0, _⟩ => rfl | ⟨1, _⟩ => rfl)
  have hr : ∀ k, ridx_main_v18 (ix2 n q) k = ix2 k q := fun k => funext fun a => Fin.ext (by match a with | ⟨0, _⟩ => rfl | ⟨1, _⟩ => rfl)
  have hb : idx_main_v19 (idx_main_v20 (ix2 n q)) = ix1 q := funext fun a => Fin.ext (by match a with | ⟨0, _⟩ => rfl)
  rw [val_main_v26_apply, val_main_v23_apply, val_main_v25_apply, val_main_v22_apply, val_main_cst_3_apply,
    val_main_v24_apply, val_main_cst_4_apply, val_main_v21_apply, val_main_v18_apply, val_main_v20_apply, val_main_v19_apply]
  simp only [hl, hr, hb]
  exact lrelu_select _

/-- One field's encoding: the dense layer, its bias, the rectifier. -/
theorem dense_v35 (x3 : (⟨S100000x11, .f32⟩ : BufTy).Contents (Elt Ideal)) (x13 : (⟨S11x40, .f32⟩ : BufTy).Contents (Elt Ideal)) (x14 : (⟨S40, .f32⟩ : BufTy).Contents (Elt Ideal)) (n : Fin 100000) (q : Fin 40) :
    val_main_v35 (F := Ideal) x3 x13 x14 (ix2 n q) = lrelu ((∑ k : Fin 11, x3 (ix2 n k) * x13 (ix2 k q)) + x14 (ix1 q)) := by
  have hl : ∀ k, lidx_main_v27 (ix2 n q) k = ix2 n k := fun k => funext fun a => Fin.ext (by match a with | ⟨0, _⟩ => rfl | ⟨1, _⟩ => rfl)
  have hr : ∀ k, ridx_main_v27 (ix2 n q) k = ix2 k q := fun k => funext fun a => Fin.ext (by match a with | ⟨0, _⟩ => rfl | ⟨1, _⟩ => rfl)
  have hb : idx_main_v28 (idx_main_v29 (ix2 n q)) = ix1 q := funext fun a => Fin.ext (by match a with | ⟨0, _⟩ => rfl)
  rw [val_main_v35_apply, val_main_v32_apply, val_main_v34_apply, val_main_v31_apply, val_main_cst_5_apply,
    val_main_v33_apply, val_main_cst_6_apply, val_main_v30_apply, val_main_v27_apply, val_main_v29_apply, val_main_v28_apply]
  simp only [hl, hr, hb]
  exact lrelu_select _

/-- One field's encoding: the dense layer, its bias, the rectifier. -/
theorem dense_v44 (x4 : (⟨S100000x1, .f32⟩ : BufTy).Contents (Elt Ideal)) (x15 : (⟨S1x12, .f32⟩ : BufTy).Contents (Elt Ideal)) (x16 : (⟨S12, .f32⟩ : BufTy).Contents (Elt Ideal)) (n : Fin 100000) (q : Fin 12) :
    val_main_v44 (F := Ideal) x4 x15 x16 (ix2 n q) = lrelu ((∑ k : Fin 1, x4 (ix2 n k) * x15 (ix2 k q)) + x16 (ix1 q)) := by
  have hl : ∀ k, lidx_main_v36 (ix2 n q) k = ix2 n k := fun k => funext fun a => Fin.ext (by match a with | ⟨0, _⟩ => rfl | ⟨1, _⟩ => rfl)
  have hr : ∀ k, ridx_main_v36 (ix2 n q) k = ix2 k q := fun k => funext fun a => Fin.ext (by match a with | ⟨0, _⟩ => rfl | ⟨1, _⟩ => rfl)
  have hb : idx_main_v37 (idx_main_v38 (ix2 n q)) = ix1 q := funext fun a => Fin.ext (by match a with | ⟨0, _⟩ => rfl)
  rw [val_main_v44_apply, val_main_v41_apply, val_main_v43_apply, val_main_v40_apply, val_main_cst_7_apply,
    val_main_v42_apply, val_main_cst_8_apply, val_main_v39_apply, val_main_v36_apply, val_main_v38_apply, val_main_v37_apply]
  simp only [hl, hr, hb]
  exact lrelu_select _

/-- The projection of the joined row, its bias, the rectifier. -/
theorem dense_v54 (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (n : Fin 100000) (q : Fin 128) :
    val_main_v54 (F := Ideal) x0 x1 x2 x3 x4 x7 x8 x9 x10 x11 x12 x13 x14 x15 x16 x17 x18 (ix2 n q) = lrelu ((∑ k : Fin 128, (val_main_v45 (F := Ideal) x0 x1 x2 x3 x4 x7 x8 x9 x10 x11 x12 x13 x14 x15 x16) (ix2 n k) * x17 (ix2 k q)) + x18 (ix1 q)) := by
  have hl : ∀ k, lidx_main_v46 (ix2 n q) k = ix2 n k := fun k => funext fun a => Fin.ext (by match a with | ⟨0, _⟩ => rfl | ⟨1, _⟩ => rfl)
  have hr : ∀ k, ridx_main_v46 (ix2 n q) k = ix2 k q := fun k => funext fun a => Fin.ext (by match a with | ⟨0, _⟩ => rfl | ⟨1, _⟩ => rfl)
  have hb : idx_main_v47 (idx_main_v48 (ix2 n q)) = ix1 q := funext fun a => Fin.ext (by match a with | ⟨0, _⟩ => rfl)
  rw [val_main_v54_apply, val_main_v51_apply, val_main_v53_apply, val_main_v50_apply, val_main_cst_9_apply,
    val_main_v52_apply, val_main_cst_10_apply, val_main_v49_apply, val_main_v46_apply, val_main_v48_apply, val_main_v47_apply]
  simp only [hl, hr, hb]
  exact lrelu_select _

/-- The encoder of the specification, entry by entry. -/
theorem encoder_eq (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (n : Fin 100000) (j : Fin 128) :
    val_main_v54 (F := Ideal) x0 x1 x2 x3 x4 x7 x8 x9 x10 x11 x12 x13 x14 x15 x16 x17 x18 (ix2 n j) = encoderAt x0 x1 x2 x3 x4 x7 x8 x9 x10 x11 x12 x13 x14 x15 x16 x17 x18 n j := by
  rw [dense_v54]
  unfold encoderAt
  refine congrArg lrelu (congrArg (fun t => t + x18 (ix1 j)) ?_)
  obtain ⟨j1, j2, j3, j4, j5⟩ := joined_apply (val_main_v8 (F := Ideal) x0 x7 x8) (val_main_v17 (F := Ideal) x1 x9 x10) (val_main_v26 (F := Ideal) x2 x11 x12) (val_main_v35 (F := Ideal) x3 x13 x14) (val_main_v44 (F := Ideal) x4 x15 x16)
    concatenates_S100000x28_S100000x36_S100000x12_S100000x40_S100000x12_S100000x128_d1 n
  exact joined_project (val_main_v45 (F := Ideal) x0 x1 x2 x3 x4 x7 x8 x9 x10 x11 x12 x13 x14 x15 x16) (encAt x0 x7 x8) (encAt x1 x9 x10) (encAt x2 x11 x12) (encAt x3 x13 x14) (encAt x4 x15 x16) x17 n j
    (fun q => (j1 q).trans (dense_v8 x0 x7 x8 n q)) (fun q => (j2 q).trans (dense_v17 x1 x9 x10 n q))
    (fun q => (j3 q).trans (dense_v26 x2 x11 x12 n q)) (fun q => (j4 q).trans (dense_v35 x3 x13 x14 n q))
    (fun q => (j5 q).trans (dense_v44 x4 x15 x16 n q))

/-- The encoder's table. -/
theorem encoder_tab (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) :
    val_main_v54 (F := Ideal) x0 x1 x2 x3 x4 x7 x8 x9 x10 x11 x12 x13 x14 x15 x16 x17 x18 = tab (encoderAt x0 x1 x2 x3 x4 x7 x8 x9 x10 x11 x12 x13 x14 x15 x16 x17 x18) := by
  funext i
  obtain ⟨n, j, rfl⟩ : ∃ (n : Fin 100000) (j : Fin 128), i = ix2 n j := ⟨i 0, i 1, eq_ix2 i⟩
  exact encoder_eq x0 x1 x2 x3 x4 x7 x8 x9 x10 x11 x12 x13 x14 x15 x16 x17 x18 n j

end Cert.ReferenceIdeal.RefValue

end
-- ==== Proof.RefNetwork.lean ====
/-
  The reference's result, entry by entry, is the network of the specification.

  The two lists of the edge array (row 0 the sources, row 1 the targets) are each followed by the node numbers 0 … 99999:
  the long lists. Over them the reference counts the degree, takes its guarded inverse square root, and runs two
  convolutions, each over the product of the table before it with a 128 × 128 matrix; every one of these stages is the
  corresponding stage of the specification as a whole table, so the stages compose. Last come a rectified dense layer and
  a plain dense layer of width 2.
-/
import proofs.«102536_j32590211842598_2_alg».proof.Proof.RefEncoder

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx Cert.BotGcn Cert.LibAggregateProject

/-- The source list of the program: row 0 of the edge array. -/
theorem srcList_real (x5 : (⟨S2x1600000, .i32⟩ : BufTy).Contents (Elt Ideal)) (e : Fin 1600000) : val_main_v56 (F := Ideal) x5 (ix1 e) = x5 (ix2 (0 : Fin 2) e) := by
  rw [val_main_v56_apply, val_main_v55_apply]
  refine congrArg x5 (funext fun a => Fin.ext ?_)
  match a with
  | ⟨0, _⟩ => rfl
  | ⟨1, _⟩ => exact Nat.mod_eq_of_lt e.isLt

/-- The target list of the program: row 1 of the edge array. -/
theorem dstList_real (x5 : (⟨S2x1600000, .i32⟩ : BufTy).Contents (Elt Ideal)) (e : Fin 1600000) : val_main_v58 (F := Ideal) x5 (ix1 e) = x5 (ix2 (1 : Fin 2) e) := by
  rw [val_main_v58_apply, val_main_v57_apply]
  refine congrArg x5 (funext fun a => Fin.ext ?_)
  match a with
  | ⟨0, _⟩ => rfl
  | ⟨1, _⟩ => exact Nat.mod_eq_of_lt e.isLt

theorem hsr1 (x5 : (⟨S2x1600000, .i32⟩ : BufTy).Contents (Elt Ideal)) (e : Fin 1600000) :
    wrapW (val_main_v61 (F := Ideal) x5 (ix1 ⟨e.val, by have := e.isLt; omega⟩)) = srcCol x5 (ix2 e 0) := by
  have h1 : val_main_v61 (F := Ideal) x5 (ix1 ⟨e.val, by have := e.isLt; omega⟩) = val_main_v56 (F := Ideal) x5 (ix1 e) :=
    longList_real (val_main_v56 (F := Ideal) x5) concatenates_S1600000_S100000_S1700000_d0 e _
  rw [h1, srcList_real]
  rfl

theorem hdr1 (x5 : (⟨S2x1600000, .i32⟩ : BufTy).Contents (Elt Ideal)) (e : Fin 1600000) :
    val_main_v62 (F := Ideal) x5 (ix1 ⟨e.val, by have := e.isLt; omega⟩) = dstCol x5 (ix2 e 0) := by
  have h1 : val_main_v62 (F := Ideal) x5 (ix1 ⟨e.val, by have := e.isLt; omega⟩) = val_main_v58 (F := Ideal) x5 (ix1 e) :=
    longList_real (val_main_v58 (F := Ideal) x5) concatenates_S1600000_S100000_S1700000_d0 e _
  rw [h1, dstList_real]
  rfl

theorem hsl1 (x5 : (⟨S2x1600000, .i32⟩ : BufTy).Contents (Elt Ideal)) (i : Fin 100000) :
    val_main_v61 (F := Ideal) x5 (ix1 ⟨1600000 + i.val, by have := i.isLt; omega⟩) = BitVec.ofNat 32 i.val :=
  longList_loop (val_main_v56 (F := Ideal) x5) concatenates_S1600000_S100000_S1700000_d0 i _

theorem hdl1 (x5 : (⟨S2x1600000, .i32⟩ : BufTy).Contents (Elt Ideal)) (i : Fin 100000) :
    val_main_v62 (F := Ideal) x5 (ix1 ⟨1600000 + i.val, by have := i.isLt; omega⟩) = BitVec.ofNat 32 i.val :=
  longList_loop (val_main_v58 (F := Ideal) x5) concatenates_S1600000_S100000_S1700000_d0 i _

/-- The degree the program counts over the long target list is the specification's degree. -/
theorem deg1 (x5 : (⟨S2x1600000, .i32⟩ : BufTy).Contents (Elt Ideal)) (n : Fin 100000) : val_main_v66 (F := Ideal) x5 (ix1 n) = degAt (dstCol x5) n :=
  degree_chain (E := 1600000) (E' := 1700000) rfl scatter_S100000_S1700000x1_S1700000_n_0_0_1_wf bcast_S_S100000 bcast_S_S1700000
    bcast_S1700000_S1700000x1_0 (val_main_v62 (F := Ideal) x5) (dstCol x5) (hdr1 x5) (hdl1 x5) n

/-- The node factors of the program are the specification's. -/
theorem dis1 (x5 : (⟨S2x1600000, .i32⟩ : BufTy).Contents (Elt Ideal)) : val_main_v70 (F := Ideal) x5 = disRow (dstCol x5) := by
  funext v
  obtain ⟨n, rfl⟩ : ∃ n : Fin 100000, v = ix1 n := ⟨v 0, eq_ix1 v⟩
  rw [val_main_v70_apply, val_main_v68_apply, val_main_v69_apply, val_main_v67_apply, val_main_cst_13_apply,
    val_main_call6_v1_apply, val_main_call6_v0_apply, val_main_cst_14_apply, deg1]
  exact dis_select _

theorem hsr2 (x5 : (⟨S2x1600000, .i32⟩ : BufTy).Contents (Elt Ideal)) (e : Fin 1600000) :
    wrapW (val_main_v104 (F := Ideal) x5 (ix1 ⟨e.val, by have := e.isLt; omega⟩)) = srcCol x5 (ix2 e 0) := by
  have h1 : val_main_v104 (F := Ideal) x5 (ix1 ⟨e.val, by have := e.isLt; omega⟩) = val_main_v56 (F := Ideal) x5 (ix1 e) :=
    longList_real (val_main_v56 (F := Ideal) x5) concatenates_S1600000_S100000_S1700000_d0 e _
  rw [h1, srcList_real]
  rfl

theorem hdr2 (x5 : (⟨S2x1600000, .i32⟩ : BufTy).Contents (Elt Ideal)) (e : Fin 1600000) :
    val_main_v105 (F := Ideal) x5 (ix1 ⟨e.val, by have := e.isLt; omega⟩) = dstCol x5 (ix2 e 0) := by
  have h1 : val_main_v105 (F := Ideal) x5 (ix1 ⟨e.val, by have := e.isLt; omega⟩) = val_main_v58 (F := Ideal) x5 (ix1 e) :=
    longList_real (val_main_v58 (F := Ideal) x5) concatenates_S1600000_S100000_S1700000_d0 e _
  rw [h1, dstList_real]
  rfl

theorem hsl2 (x5 : (⟨S2x1600000, .i32⟩ : BufTy).Contents (Elt Ideal)) (i : Fin 100000) :
    val_main_v104 (F := Ideal) x5 (ix1 ⟨1600000 + i.val, by have := i.isLt; omega⟩) = BitVec.ofNat 32 i.val :=
  longList_loop (val_main_v56 (F := Ideal) x5) concatenates_S1600000_S100000_S1700000_d0 i _

theorem hdl2 (x5 : (⟨S2x1600000, .i32⟩ : BufTy).Contents (Elt Ideal)) (i : Fin 100000) :
    val_main_v105 (F := Ideal) x5 (ix1 ⟨1600000 + i.val, by have := i.isLt; omega⟩) = BitVec.ofNat 32 i.val :=
  longList_loop (val_main_v58 (F := Ideal) x5) concatenates_S1600000_S100000_S1700000_d0 i _

/-- The degree the program counts over the long target list is the specification's degree. -/
theorem deg2 (x5 : (⟨S2x1600000, .i32⟩ : BufTy).Contents (Elt Ideal)) (n : Fin 100000) : val_main_v109 (F := Ideal) x5 (ix1 n) = degAt (dstCol x5) n :=
  degree_chain (E := 1600000) (E' := 1700000) rfl scatter_S100000_S1700000x1_S1700000_n_0_0_1_wf bcast_S_S100000 bcast_S_S1700000
    bcast_S1700000_S1700000x1_0 (val_main_v105 (F := Ideal) x5) (dstCol x5) (hdr2 x5) (hdl2 x5) n

/-- The node factors of the program are the specification's. -/
theorem dis2 (x5 : (⟨S2x1600000, .i32⟩ : BufTy).Contents (Elt Ideal)) : val_main_v113 (F := Ideal) x5 = disRow (dstCol x5) := by
  funext v
  obtain ⟨n, rfl⟩ : ∃ n : Fin 100000, v = ix1 n := ⟨v 0, eq_ix1 v⟩
  rw [val_main_v113_apply, val_main_v111_apply, val_main_v112_apply, val_main_v110_apply, val_main_cst_23_apply,
    val_main_call7_v1_apply, val_main_call7_v0_apply, val_main_cst_24_apply, deg2]
  exact dis_select _

/-- One convolution of the program, read at an entry, over its own product table and node factors. -/
theorem layer1_chain (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (n : Fin 100000) (c : Fin 128) :
    val_main_v101 (F := Ideal) x0 x1 x2 x3 x4 x5 x7 x8 x9 x10 x11 x12 x13 x14 x15 x16 x17 x18 x19 x20 (ix2 n c)
      = layerAt Cert.BotGcn.hN (val_main_v70 (F := Ideal) x5) (val_main_v59 (F := Ideal) x0 x1 x2 x3 x4 x7 x8 x9 x10 x11 x12 x13 x14 x15 x16 x17 x18 x19) (srcCol x5) (dstCol x5) x20 n c :=
  layer_chain (E := 1600000) (E' := 1700000) (C := 128) rfl
    scatter_S100000x128_S1700000x1_S1700000x128_1_0_0_1_wf gather_S100000x128_S1700000x1_S1700000x128_1_0_n_n_0_1_1128_wf
    gather_S100000_S1700000x1_S1700000_n_0_n_n_0_1_1_wf
    bcast_S_S100000x128 bcast_S1700000_S1700000x1_0 bcast_S1700000x1_S1700000x128_0_1 bcast_S128_S1x128_1 bcast_S1x128_S100000x128_0_1
    bcast_S_S1700000
    (val_main_v59 (F := Ideal) x0 x1 x2 x3 x4 x7 x8 x9 x10 x11 x12 x13 x14 x15 x16 x17 x18 x19) (val_main_v70 (F := Ideal) x5) (fun v => by rw [dis1]; exact disRow_nn _ v)
    (val_main_v61 (F := Ideal) x5) (val_main_v62 (F := Ideal) x5) (srcCol x5) (dstCol x5) (hsr1 x5) (hdr1 x5) (hsl1 x5) (hdl1 x5)
    (val_main_cst_20 (F := Ideal)) Ideal.ofBits_zero_f32 x20 n c

/-- One convolution of the program, read at an entry, over its own product table and node factors. -/
theorem layer2_chain (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (n : Fin 100000) (c : Fin 128) :
    val_main_v144 (F := Ideal) x0 x1 x2 x3 x4 x5 x7 x8 x9 x10 x11 x12 x13 x14 x15 x16 x17 x18 x19 x20 x21 x22 (ix2 n c)
      = layerAt Cert.BotGcn.hN (val_main_v113 (F := Ideal) x5) (val_main_v102 (F := Ideal) x0 x1 x2 x3 x4 x5 x7 x8 x9 x10 x11 x12 x13 x14 x15 x16 x17 x18 x19 x20 x21) (srcCol x5) (dstCol x5) x22 n c :=
  layer_chain (E := 1600000) (E' := 1700000) (C := 128) rfl
    scatter_S100000x128_S1700000x1_S1700000x128_1_0_0_1_wf gather_S100000x128_S1700000x1_S1700000x128_1_0_n_n_0_1_1128_wf
    gather_S100000_S1700000x1_S1700000_n_0_n_n_0_1_1_wf
    bcast_S_S100000x128 bcast_S1700000_S1700000x1_0 bcast_S1700000x1_S1700000x128_0_1 bcast_S128_S1x128_1 bcast_S1x128_S100000x128_0_1
    bcast_S_S1700000
    (val_main_v102 (F := Ideal) x0 x1 x2 x3 x4 x5 x7 x8 x9 x10 x11 x12 x13 x14 x15 x16 x17 x18 x19 x20 x21) (val_main_v113 (F := Ideal) x5) (fun v => by rw [dis2]; exact disRow_nn _ v)
    (val_main_v104 (F := Ideal) x5) (val_main_v105 (F := Ideal) x5) (srcCol x5) (dstCol x5) (hsr2 x5) (hdr2 x5) (hsl2 x5) (hdl2 x5)
    (val_main_cst_31 (F := Ideal)) Ideal.ofBits_zero_f32 x22 n c

/-- The product table of a convolution, over the table the stage before it leaves. -/
theorem prod1 (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) :
    val_main_v59 (F := Ideal) x0 x1 x2 x3 x4 x7 x8 x9 x10 x11 x12 x13 x14 x15 x16 x17 x18 x19 = tab (prodAt (tab (encoderAt x0 x1 x2 x3 x4 x7 x8 x9 x10 x11 x12 x13 x14 x15 x16 x17 x18)) x19) := by
  funext i
  obtain ⟨n, c, rfl⟩ : ∃ (n : Fin 100000) (c : Fin 128), i = ix2 n c := ⟨i 0, i 1, eq_ix2 i⟩
  have hl : ∀ k, lidx_main_v59 (ix2 n c) k = ix2 n k := fun k => funext fun a => Fin.ext (by match a with | ⟨0, _⟩ => rfl | ⟨1, _⟩ => rfl)
  have hr : ∀ k, ridx_main_v59 (ix2 n c) k = ix2 k c := fun k => funext fun a => Fin.ext (by match a with | ⟨0, _⟩ => rfl | ⟨1, _⟩ => rfl)
  rw [val_main_v59_apply]
  simp only [hl, hr]
  rw [encoder_tab]
  rfl

/-- The convolution's table is the specification's. -/
theorem layer1_eq (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) :
    val_main_v101 (F := Ideal) x0 x1 x2 x3 x4 x5 x7 x8 x9 x10 x11 x12 x13 x14 x15 x16 x17 x18 x19 x20 = tab (layerAt Cert.BotGcn.hN (disRow (dstCol x5)) (tab (prodAt (tab (encoderAt x0 x1 x2 x3 x4 x7 x8 x9 x10 x11 x12 x13 x14 x15 x16 x17 x18)) x19)) (srcCol x5) (dstCol x5) x20) := by
  funext i
  obtain ⟨n, c, rfl⟩ : ∃ (n : Fin 100000) (c : Fin 128), i = ix2 n c := ⟨i 0, i 1, eq_ix2 i⟩
  rw [layer1_chain, dis1, prod1]
  rfl

/-- The product table of a convolution, over the table the stage before it leaves. -/
theorem prod2 (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) :
    val_main_v102 (F := Ideal) x0 x1 x2 x3 x4 x5 x7 x8 x9 x10 x11 x12 x13 x14 x15 x16 x17 x18 x19 x20 x21 = tab (prodAt (tab (layerAt Cert.BotGcn.hN (disRow (dstCol x5)) (tab (prodAt (tab (encoderAt x0 x1 x2 x3 x4 x7 x8 x9 x10 x11 x12 x13 x14 x15 x16 x17 x18)) x19)) (srcCol x5) (dstCol x5) x20)) x21) := by
  funext i
  obtain ⟨n, c, rfl⟩ : ∃ (n : Fin 100000) (c : Fin 128), i = ix2 n c := ⟨i 0, i 1, eq_ix2 i⟩
  have hl : ∀ k, lidx_main_v102 (ix2 n c) k = ix2 n k := fun k => funext fun a => Fin.ext (by match a with | ⟨0, _⟩ => rfl | ⟨1, _⟩ => rfl)
  have hr : ∀ k, ridx_main_v102 (ix2 n c) k = ix2 k c := fun k => funext fun a => Fin.ext (by match a with | ⟨0, _⟩ => rfl | ⟨1, _⟩ => rfl)
  rw [val_main_v102_apply]
  simp only [hl, hr]
  rw [layer1_eq]
  rfl

/-- The convolution's table is the specification's. -/
theorem layer2_eq (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) :
    val_main_v144 (F := Ideal) x0 x1 x2 x3 x4 x5 x7 x8 x9 x10 x11 x12 x13 x14 x15 x16 x17 x18 x19 x20 x21 x22 = tab (layerAt Cert.BotGcn.hN (disRow (dstCol x5)) (tab (prodAt (tab (layerAt Cert.BotGcn.hN (disRow (dstCol x5)) (tab (prodAt (tab (encoderAt x0 x1 x2 x3 x4 x7 x8 x9 x10 x11 x12 x13 x14 x15 x16 x17 x18)) x19)) (srcCol x5) (dstCol x5) x20)) x21)) (srcCol x5) (dstCol x5) x22) := by
  funext i
  obtain ⟨n, c, rfl⟩ : ∃ (n : Fin 100000) (c : Fin 128), i = ix2 n c := ⟨i 0, i 1, eq_ix2 i⟩
  rw [layer2_chain, dis2, prod2]
  rfl

/-- The rectified dense layer after the convolutions. -/
theorem dense_v153 (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (n : Fin 100000) (q : Fin 128) :
    val_main_v153 (F := Ideal) x0 x1 x2 x3 x4 x5 x7 x8 x9 x10 x11 x12 x13 x14 x15 x16 x17 x18 x19 x20 x21 x22 x23 x24 (ix2 n q) = lrelu ((∑ k : Fin 128, (val_main_v144 (F := Ideal) x0 x1 x2 x3 x4 x5 x7 x8 x9 x10 x11 x12 x13 x14 x15 x16 x17 x18 x19 x20 x21 x22) (ix2 n k) * x23 (ix2 k q)) + x24 (ix1 q)) := by
  have hl : ∀ k, lidx_main_v145 (ix2 n q) k = ix2 n k := fun k => funext fun a => Fin.ext (by match a with | ⟨0, _⟩ => rfl | ⟨1, _⟩ => rfl)
  have hr : ∀ k, ridx_main_v145 (ix2 n q) k = ix2 k q := fun k => funext fun a => Fin.ext (by match a with | ⟨0, _⟩ => rfl | ⟨1, _⟩ => rfl)
  have hb : idx_main_v146 (idx_main_v147 (ix2 n q)) = ix1 q := funext fun a => Fin.ext (by match a with | ⟨0, _⟩ => rfl)
  rw [val_main_v153_apply, val_main_v150_apply, val_main_v152_apply, val_main_v149_apply, val_main_cst_32_apply,
    val_main_v151_apply, val_main_cst_33_apply, val_main_v148_apply, val_main_v145_apply, val_main_v147_apply, val_main_v146_apply]
  simp only [hl, hr, hb]
  exact lrelu_select _

/-- THE REFERENCE IS THE NETWORK: the reference's result, entry by entry, is the specification's. -/
theorem result_eq (x0 x1 : (⟨S100000x768, .f32⟩ : BufTy).Contents (Elt Ideal)) (x2 : (⟨S100000x7, .f32⟩ : BufTy).Contents (Elt Ideal)) (x3 : (⟨S100000x11, .f32⟩ : BufTy).Contents (Elt Ideal)) (x4 : (⟨S100000x1, .f32⟩ : BufTy).Contents (Elt Ideal)) (x5 : (⟨S2x1600000, .i32⟩ : BufTy).Contents (Elt Ideal)) (x7 : (⟨S768x28, .f32⟩ : BufTy).Contents (Elt Ideal)) (x8 : (⟨S28, .f32⟩ : BufTy).Contents (Elt Ideal)) (x9 : (⟨S768x36, .f32⟩ : BufTy).Contents (Elt Ideal)) (x10 : (⟨S36, .f32⟩ : BufTy).Contents (Elt Ideal)) (x11 : (⟨S7x12, .f32⟩ : BufTy).Contents (Elt Ideal)) (x12 : (⟨S12, .f32⟩ : BufTy).Contents (Elt Ideal)) (x13 : (⟨S11x40, .f32⟩ : BufTy).Contents (Elt Ideal)) (x14 : (⟨S40, .f32⟩ : BufTy).Contents (Elt Ideal)) (x15 : (⟨S1x12, .f32⟩ : BufTy).Contents (Elt Ideal)) (x16 : (⟨S12, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x2, .f32⟩ : BufTy).Contents (Elt Ideal)) (x26 : (⟨S2, .f32⟩ : BufTy).Contents (Elt Ideal)) (n : Fin 100000) (r : Fin 2) :
    val_main_v157 (F := Ideal) x0 x1 x2 x3 x4 x5 x7 x8 x9 x10 x11 x12 x13 x14 x15 x16 x17 x18 x19 x20 x21 x22 x23 x24 x25 x26 (ix2 n r) = outAt x0 x1 x2 x3 x4 x5 x7 x8 x9 x10 x11 x12 x13 x14 x15 x16 x17 x18 x19 x20 x21 x22 x23 x24 x25 x26 n r := by
  have hl : ∀ k, lidx_main_v154 (ix2 n r) k = ix2 n k := fun k => funext fun a => Fin.ext (by match a with | ⟨0, _⟩ => rfl | ⟨1, _⟩ => rfl)
  have hr : ∀ k, ridx_main_v154 (ix2 n r) k = ix2 k r := fun k => funext fun a => Fin.ext (by match a with | ⟨0, _⟩ => rfl | ⟨1, _⟩ => rfl)
  have hb : idx_main_v155 (idx_main_v156 (ix2 n r)) = ix1 r := funext fun a => Fin.ext (by match a with | ⟨0, _⟩ => rfl)
  rw [val_main_v157_apply, val_main_v154_apply, val_main_v156_apply, val_main_v155_apply]
  simp only [hl, hr, hb, dense_v153]
  rw [layer2_eq]
  rfl

end Cert.ReferenceIdeal.RefValue

end
-- ==== Proof.KernelRun.lean ====
/-
  The idealized kernel's run with its result named.

  The program is four kernel regions among stretches of host operations. Its run from any memory ends, on every
  core, with every unscoped buffer at the contents the last segment boundary gives it: the fold through the
  program of each host stretch's operations and each region's write-backs. Read at the result buffer this names the
  result; read at an argument it is the argument as launched. The statement is the frame's with one more conjunct.
-/
import proofs.«102536_j32590211842598_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and every argument as launched. -/
theorem run_result : θ_run defs (onTc (τ := τ) (main (F := F))) ⟨m, fun _ => 0, ρ⟩ (fun r => ∀ c : Dev nD,
      r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c)⟩)

end Cert.KernelIdeal.RunValue

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.KernelBodies.lean ====
/-
  The three small kernel bodies read at an entry, on the extended reals.

  Each body works on a block of 5000 rows. With x the block of the incoming table, w a square matrix and d the
  column of the rows' factors:

  * the first body stores (x · w)(p, c) · d(p);
  * the second stores ((d(p) · (g(p, ·) + y(p, ·)) + b) · w)(c) · d(p): the convolution's closing step on the block
    (g the summed neighbour rows, y the rows' own scaled values, b the bias), fed straight into the next product;
  * the third stores lrelu((d(p) · (g + y)(p, ·) + b) · w₁ + b₁) · w₂ + b₂ at (p, r).

  A change of float format is the identity here, and a product into a zero accumulator is the plain sum over the
  contracted axis.
-/
import proofs.«102536_j32590211842598_2_alg».proof.Proof.Gen.KernelIdeal.Frame
import proofs.«102536_j32590211842598_2_alg».proof.Proof.LibAffine
import proofs.«102536_j32590211842598_2_alg».proof.Proof.LibPlainDot
import proofs.«102536_j32590211842598_2_alg».proof.Proof.LibColumnRow
import proofs.«102536_j32590211842598_2_alg».proof.Proof.LibSymNorm
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Bodies

open Cert.KernelIdeal Cert.KernelIdeal.Gen Idealize.ShloMosaic Idealize.ShloMosaic.ValueIdx Idealize.ShloMosaic.TcCoe
open Idealize.ShloMosaic.Pipeline (Dat Cfg Window)

/-- A product of a 5000 × 128 block with a 128 × 128 matrix into a zero accumulator, at (p, c). -/
theorem prod128_apply {φ₁ φ₂ : FTy} (L : FVec Ideal S5000x128 φ₁) (R : FVec Ideal S128x128 φ₂) (p : Fin 5000) (c : Fin 128) :
    FloatOps.matmul dot_S5000x128_S128x128_S5000x128_1_0_0_1_n_n none L R (constant S5000x128 .f32 0x00000000#32) (ix2 p c)
      = ∑ q : Fin 128, L (ix2 p q) * R (ix2 q c) :=
  Cert.LibAffine.coreDot_ix2 dot_S5000x128_S128x128_S5000x128_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none L R p c

/-- The first body at (p, c). -/
theorem pay1_apply (v0 : Vec Ideal S5000x128 .f32) (v3 : Vec Ideal S128x128 .f32) (v6 : Vec Ideal S5000x1 .f32)
    (p : Fin 5000) (c : Fin 128) :
    k1_pay1 (F := Ideal) v0 v3 v6 (ix2 p c) = (∑ q : Fin 128, v0 (ix2 p q) * v3 (ix2 q c)) * v6 (ix2 p (0 : Fin 1)) := by
  unfold k1_pay1
  rw [mulf_apply, matmul, prod128_apply, Cert.LibColumnRow.broadcastTo_a1_ab_apply _ _ p c]
  simp only [shapeCast_self, truncf_apply]

/-- A vector seen as a one-row table and spread over the rows: entry (p, c) is the vector's entry c. -/
theorem biasRow_apply {a n : ℕ} (v : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) := by
  have hc := c.isLt
  rw [broadcastTo_apply _ h2 (ix2 p c) (ix2 (0 : Fin 1) c) (fun d => by
    match d with
    | ⟨0, _⟩ => show (0 : ℕ) = if (1 : ℕ) = 1 then 0 else p.val; rw [if_pos rfl]
    | ⟨1, _⟩ => show c.val = if n = 1 then 0 else c.val; split <;> omega)]
  rw [shapeCast_addUnit_apply]
  exact congrArg v (funext fun d => by match d with | ⟨0, _⟩ => rfl)

/-- The leaky rectifier as the bodies spell it: a compare against the zero word, a select, the slope word times x. -/
def rect (x : EReal) : EReal := if Ideal.ofBits .f32 0x00000000#32 < x then x else Ideal.ofBits .f32 0x3C23D70A#32 * x

/-- The closing step of a convolution on a block, at (p, q): the row's factor times (neighbours' sum + own value), plus the bias. -/
def closeAt {a : ℕ} (g y : (⟨2, ![a, 128]⟩ : Shape).Idx → EReal) (d : (⟨2, ![a, 1]⟩ : Shape).Idx → EReal)
    (b : (⟨1, ![128]⟩ : Shape).Idx → EReal) (p : Fin a) (q : Fin 128) : EReal :=
  d (ix2 p (0 : Fin 1)) * (g (ix2 p q) + y (ix2 p q)) + b (ix1 q)

/-- The second body at (p, c). -/
theorem pay2_apply (v0 v2 : Vec Ideal S5000x128 .f32) (v4 : Vec Ideal S5000x1 .f32) (v10 : Vec Ideal S128 .f32) (v15 : Vec Ideal S128x128 .f32)
    (p : Fin 5000) (c : Fin 128) :
    k2_pay1 (F := Ideal) v0 v2 v4 v10 v15 (ix2 p c)
      = (∑ q : Fin 128, closeAt v0 v2 v4 v10 p q * v15 (ix2 q c)) * v4 (ix2 p (0 : Fin 1)) := by
  unfold k2_pay1
  rw [mulf_apply, matmul, prod128_apply, Cert.LibColumnRow.broadcastTo_a1_ab_apply _ _ p c]
  simp only [shapeCast_self, truncf_apply, addf_apply, mulf_apply, closeAt,
    Cert.LibColumnRow.broadcastTo_a1_ab_apply, biasRow_apply]

/-- A product of a 5000 × 128 block with a 128 × 2 matrix into a zero accumulator, at (p, r). -/
theorem prod2_apply {φ₁ φ₂ : FTy} (L : FVec Ideal S5000x128 φ₁) (R : FVec Ideal S128x2 φ₂) (p : Fin 5000) (r : Fin 2) :
    FloatOps.matmul dot_S5000x128_S128x2_S5000x2_1_0_0_1_n_n none L R (constant S5000x2 .f32 0x00000000#32) (ix2 p r)
      = ∑ q : Fin 128, L (ix2 p q) * R (ix2 q r) :=
  Cert.LibAffine.coreDot_ix2 dot_S5000x128_S128x2_S5000x2_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none L R p r

/-- The third body at (p, r). -/
theorem pay3_apply (v0 v2 : Vec Ideal S5000x128 .f32) (v4 : Vec Ideal S5000x1 .f32) (v10 : Vec Ideal S128 .f32) (v15 : Vec Ideal S128x128 .f32)
    (v18 : Vec Ideal S128 .f32) (v28 : Vec Ideal S128x2 .f32) (v31 : Vec Ideal S2 .f32) (p : Fin 5000) (r : Fin 2) :
    k3_pay1 (F := Ideal) v0 v2 v4 v10 v15 v18 v28 v31 (ix2 p r)
      = (∑ k : Fin 128, rect ((∑ q : Fin 128, closeAt v0 v2 v4 v10 p q * v15 (ix2 q k)) + v18 (ix1 k)) * v28 (ix2 k r)) + v31 (ix1 r) := by
  unfold k3_pay1
  rw [addf_apply, matmul, prod2_apply, biasRow_apply]
  refine congrArg (· + v31 (ix1 r)) (Finset.sum_congr rfl fun k _ => ?_)
  rw [truncf_apply, truncf_apply, select_apply, cmpf_apply, mulf_apply, addf_apply, matmul, prod128_apply, biasRow_apply,
    Ideal.cmpf_def, Cert.LibSymNorm.select_cmp_ogt]
  simp only [shapeCast_self, truncf_apply, addf_apply, mulf_apply, closeAt, broadcast_apply,
    Cert.LibColumnRow.broadcastTo_a1_ab_apply, biasRow_apply, rect]
  rfl

/-! ## From blocks to the array: the first small region

  Grid point t works on rows 5000·t … 5000·t + 4999 of the incoming table and of the factor column, with the whole
  square matrix, and writes the same rows of the outgoing table. -/

theorem hz2 : (![0, 0] : Fin 2 → Nat) = fun _ => 0 := funext fun a => by fin_cases a <;> rfl
theorem hz1 : (![0] : Fin 1 → Nat) = fun _ => 0 := funext fun a => by fin_cases a <;> rfl

/-- Row and column of an index of a two-axis array. -/
abbrev rowOf {a b : ℕ} (i : (⟨2, ![a, b]⟩ : Shape).Idx) : Fin a := ⟨(i 0).val, (i 0).isLt⟩
abbrev colOf {a b : ℕ} (i : (⟨2, ![a, b]⟩ : Shape).Idx) : Fin b := ⟨(i 1).val, (i 1).isLt⟩

/-- (X · W)(n, c) · d(n) over the whole table. -/
def scaledProd (X : S100000x128.Idx → EReal) (W : S128x128.Idx → EReal) (Dc : S100000x1.Idx → EReal) : S100000x128.Idx → EReal :=
  fun i => (∑ q : Fin 128, X (ix2 (rowOf i) q) * W (ix2 q (colOf i))) * Dc (ix2 (rowOf i) (0 : Fin 1))

/-- The printed index maps of the first small region, decided over its 20 grid points. -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 19 :=
  (by decide +kernel : ∀ t : Fin grid1.N, _)

/-- Every block of rows is some point's. -/
theorem idx_onto1 : ∀ q0 : Fin 20, ∃ t : Fin cfg1.N, win1_3.index t = ![q0.val, 0] :=
  (by decide +kernel : ∀ q0 : Fin 20, ∃ t : Fin grid1.N, win1_3.index t = ![q0.val, 0])

/-- One point of the first small region, over variables: a block of rows b·5000 … of the whole arrays. -/
theorem point1 (x0 : Vec Ideal S5000x128 .f32) (x1 : Vec Ideal S128x128 .f32) (x2 : Vec Ideal S5000x1 .f32)
    (X : S100000x128.Idx → EReal) (W : S128x128.Idx → EReal) (Dc : S100000x1.Idx → EReal) (b : ℕ) (hb : b ≤ 19)
    (h0 : ∀ (p : Fin 5000) (q : Fin 128), x0 (ix2 p q) = X (ix2 (⟨b * 5000 + p.val, by have := p.isLt; omega⟩ : Fin 100000) q))
    (h1 : ∀ (q c : Fin 128), x1 (ix2 q c) = W (ix2 q c))
    (h2 : ∀ p : Fin 5000, x2 (ix2 p (0 : Fin 1)) = Dc (ix2 (⟨b * 5000 + p.val, by have := p.isLt; omega⟩ : Fin 100000) (0 : Fin 1)))
    (p : Fin 5000) (c : Fin 128) (i : S100000x128.Idx) (hi0 : (i 0).val = b * 5000 + p.val) (hi1 : (i 1).val = c.val) :
    k1_pay1 (F := Ideal) x0 x1 x2 (ix2 p c) = scaledProd X W Dc i := by
  rw [pay1_apply]
  have hr : rowOf i = (⟨b * 5000 + p.val, by have := p.isLt; omega⟩ : Fin 100000) := Fin.ext hi0
  have hc : colOf i = c := Fin.ext hi1
  unfold scaledProd
  rw [hr, hc, h2]
  refine congrArg (· * _) (Finset.sum_congr rfl fun q _ => ?_)
  rw [h0, h1]

section Region1
variable (V : (c : Dev nD) → (b : Ref sig .tc) → Buf (Elt Ideal) ((c : Thread nD τ).loc b))

/-- What point t writes back is block t of the scaled product of the arrays as the region finds them. -/
theorem flushed1_eq (c : Dev nD) (t : Fin cfg1.N) :
    (dat1 V c).flushed 3 t = ((cfg1.win 3).blk t).view.read (Elt Ideal) (scaledProd (V c main_v0) (V c main_arg19) (V c main_v15)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S5000x1) hz2]
  obtain ⟨e0, e1, e2, e3, e4, e5, e6, e7⟩ := idx_facts1 t
  funext j
  obtain ⟨p, q, rfl⟩ : ∃ (p : Fin 5000) (q : Fin 128), j = ix2 p q := ⟨j 0, j 1, eq_ix2 j⟩
  refine point1 _ _ _ _ _ _ (win1_3.index t (0 : Fin 2)) e7 (fun p' q' => ?_) (fun q' c' => ?_) (fun p' => ?_) p q _ ?_ ?_
  · show V c main_v0 (((cfg1.win 0).blk t).view.emb (ix2 p' q')) = _
    refine congrArg (V c main_v0) (funext fun a => Fin.ext ?_)
    match a with
    | ⟨0, _⟩ => show win1_0.index t (0 : Fin 2) * 5000 + 1 * p'.val = win1_3.index t (0 : Fin 2) * 5000 + p'.val; omega
    | ⟨1, _⟩ => show win1_0.index t (1 : Fin 2) * 128 + 1 * q'.val = q'.val; omega
  · show V c main_arg19 (((cfg1.win 1).blk t).view.emb (ix2 q' c')) = _
    refine congrArg (V c main_arg19) (funext fun a => Fin.ext ?_)
    match a with
    | ⟨0, _⟩ => show win1_1.index t (0 : Fin 2) * 128 + 1 * q'.val = q'.val; omega
    | ⟨1, _⟩ => show win1_1.index t (1 : Fin 2) * 128 + 1 * c'.val = c'.val; omega
  · show V c main_v15 (((cfg1.win 2).blk t).view.emb (ix2 p' (0 : Fin 1))) = _
    refine congrArg (V c main_v15) (funext fun a => Fin.ext ?_)
    match a with
    | ⟨0, _⟩ => show win1_2.index t (0 : Fin 2) * 5000 + 1 * p'.val = win1_3.index t (0 : Fin 2) * 5000 + p'.val; omega
    | ⟨1, _⟩ => show win1_2.index t (1 : Fin 2) * 1 + 1 * 0 = 0; omega
  · show win1_3.index t (0 : Fin 2) * 5000 + 1 * p.val = win1_3.index t (0 : Fin 2) * 5000 + p.val; omega
  · show win1_3.index t (1 : Fin 2) * 128 + 1 * q.val = q.val; omega

/-- An index of the outgoing table is in point t's block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v16).slice (win1_3.rect t)).set ↔ _
  rw [View.set_slice_whole, Rect.mem_set_unit]
  exact Iff.rfl

/-- Every row lies in the block of the point numbered row / 5000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the first small region leaves: the scaled product of the arrays it was entered with. -/
theorem final1 (c : Dev nD) :
    (dat1 V c).arrAt 3 cfg1.N = scaledProd (V c main_v0) (V c main_arg19) (V c main_v15) :=
  (dat1 V c).arrAt_eq_of_cover 3 _ (fun t _ => flushed1_eq V c t) (cover1)

end Region1

/-! ## The second small region: the first convolution closed, then the next product -/

/-- ((d · (G + Y) + B) · W)(n, c) · d(n) over the whole tables. -/
def closedProd (G Y : S100000x128.Idx → EReal) (Dc : S100000x1.Idx → EReal) (B : S128.Idx → EReal) (W : S128x128.Idx → EReal) :
    S100000x128.Idx → EReal :=
  fun i => (∑ q : Fin 128, closeAt G Y Dc B (rowOf i) q * W (ix2 q (colOf i))) * Dc (ix2 (rowOf i) (0 : Fin 1))

theorem idx_facts2 : ∀ t : Fin cfg2.N, win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 1) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

theorem idx_onto2 : ∀ q0 : Fin 20, ∃ t : Fin cfg2.N, win2_5.index t = ![q0.val, 0] :=
  (by decide +kernel : ∀ q0 : Fin 20, ∃ t : Fin grid2.N, win2_5.index t = ![q0.val, 0])

theorem point2 (x0 x1 : Vec Ideal S5000x128 .f32) (x2 : Vec Ideal S5000x1 .f32) (x3 : Vec Ideal S128 .f32) (x4 : Vec Ideal S128x128 .f32)
    (G Y : S100000x128.Idx → EReal) (Dc : S100000x1.Idx → EReal) (B : S128.Idx → EReal) (W : S128x128.Idx → EReal) (b : ℕ) (hb : b ≤ 19)
    (h0 : ∀ (p : Fin 5000) (q : Fin 128), x0 (ix2 p q) = G (ix2 (⟨b * 5000 + p.val, by have := p.isLt; omega⟩ : Fin 100000) q))
    (h1 : ∀ (p : Fin 5000) (q : Fin 128), x1 (ix2 p q) = Y (ix2 (⟨b * 5000 + p.val, by have := p.isLt; omega⟩ : Fin 100000) q))
    (h2 : ∀ p : Fin 5000, x2 (ix2 p (0 : Fin 1)) = Dc (ix2 (⟨b * 5000 + p.val, by have := p.isLt; omega⟩ : Fin 100000) (0 : Fin 1)))
    (h3 : ∀ q : Fin 128, x3 (ix1 q) = B (ix1 q))
    (h4 : ∀ (q c : Fin 128), x4 (ix2 q c) = W (ix2 q c))
    (p : Fin 5000) (c : Fin 128) (i : S100000x128.Idx) (hi0 : (i 0).val = b * 5000 + p.val) (hi1 : (i 1).val = c.val) :
    k2_pay1 (F := Ideal) x0 x1 x2 x3 x4 (ix2 p c) = closedProd G Y Dc B W i := by
  rw [pay2_apply]
  have hr : rowOf i = (⟨b * 5000 + p.val, by have := p.isLt; omega⟩ : Fin 100000) := Fin.ext hi0
  have hc : colOf i = c := Fin.ext hi1
  unfold closedProd
  rw [hr, hc, h2]
  refine congrArg (· * _) (Finset.sum_congr rfl fun q _ => ?_)
  unfold closeAt
  rw [h0, h1, h2, h3, h4]

section Region2
variable (V : (c : Dev nD) → (b : Ref sig .tc) → Buf (Elt Ideal) ((c : Thread nD τ).loc b))

theorem flushed2_eq (c : Dev nD) (t : Fin cfg2.N) :
    (dat2 V c).flushed 5 t = ((cfg2.win 5).blk t).view.read (Elt Ideal)
      (closedProd (V c main_v26) (V c main_v16) (V c main_v15) (V c main_arg20) (V c main_arg21)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S5000x1) hz2,
    View.ld_unit_zero (S := S128) hz1]
  obtain ⟨e0, e1, e2, e3, e4, e5, e6, e7, e8, e9, e10⟩ := idx_facts2 t
  funext j
  obtain ⟨p, q, rfl⟩ : ∃ (p : Fin 5000) (q : Fin 128), j = ix2 p q := ⟨j 0, j 1, eq_ix2 j⟩
  refine point2 _ _ _ _ _ _ _ _ _ _ (win2_5.index t (0 : Fin 2)) e10 (fun p' q' => ?_) (fun p' q' => ?_) (fun p' => ?_) (fun q' => ?_)
    (fun q' c' => ?_) p q _ ?_ ?_
  · show V c main_v26 (((cfg2.win 0).blk t).view.emb (ix2 p' q')) = _
    refine congrArg (V c main_v26) (funext fun a => Fin.ext ?_)
    match a with
    | ⟨0, _⟩ => show win2_0.index t (0 : Fin 2) * 5000 + 1 * p'.val = win2_5.index t (0 : Fin 2) * 5000 + p'.val; omega
    | ⟨1, _⟩ => show win2_0.index t (1 : Fin 2) * 128 + 1 * q'.val = q'.val; omega
  · show V c main_v16 (((cfg2.win 1).blk t).view.emb (ix2 p' q')) = _
    refine congrArg (V c main_v16) (funext fun a => Fin.ext ?_)
    match a with
    | ⟨0, _⟩ => show win2_1.index t (0 : Fin 2) * 5000 + 1 * p'.val = win2_5.index t (0 : Fin 2) * 5000 + p'.val; omega
    | ⟨1, _⟩ => show win2_1.index t (1 : Fin 2) * 128 + 1 * q'.val = q'.val; omega
  · show V c main_v15 (((cfg2.win 2).blk t).view.emb (ix2 p' (0 : Fin 1))) = _
    refine congrArg (V c main_v15) (funext fun a => Fin.ext ?_)
    match a with
    | ⟨0, _⟩ => show win2_2.index t (0 : Fin 2) * 5000 + 1 * p'.val = win2_5.index t (0 : Fin 2) * 5000 + p'.val; omega
    | ⟨1, _⟩ => show win2_2.index t (1 : Fin 2) * 1 + 1 * 0 = 0; omega
  · show V c main_arg20 (((cfg2.win 3).blk t).view.emb (ix1 q')) = _
    refine congrArg (V c main_arg20) (funext fun a => Fin.ext ?_)
    match a with
    | ⟨0, _⟩ => show win2_3.index t (0 : Fin 1) * 128 + 1 * q'.val = q'.val; omega
  · show V c main_arg21 (((cfg2.win 4).blk t).view.emb (ix2 q' c')) = _
    refine congrArg (V c main_arg21) (funext fun a => Fin.ext ?_)
    match a with
    | ⟨0, _⟩ => show win2_4.index t (0 : Fin 2) * 128 + 1 * q'.val = q'.val; omega
    | ⟨1, _⟩ => show win2_4.index t (1 : Fin 2) * 128 + 1 * c'.val = c'.val; omega
  · show win2_5.index t (0 : Fin 2) * 5000 + 1 * p.val = win2_5.index t (0 : Fin 2) * 5000 + p.val; omega
  · show win2_5.index t (1 : Fin 2) * 128 + 1 * q.val = q.val; omega

theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v27).slice (win2_5.rect t)).set ↔ _
  rw [View.set_slice_whole, Rect.mem_set_unit]
  exact Iff.rfl

theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY the second small region leaves. -/
theorem final2 (c : Dev nD) :
    (dat2 V c).arrAt 5 cfg2.N = closedProd (V c main_v26) (V c main_v16) (V c main_v15) (V c main_arg20) (V c main_arg21) :=
  (dat2 V c).arrAt_eq_of_cover 5 _ (fun t _ => flushed2_eq V c t) (cover2)

end Region2

/-! ## The third small region: the second convolution closed, then the two dense layers -/

/-- lrelu((d · (G + Y) + B) · W₁ + B₁) · W₂ + B₂ at (n, r) over the whole tables. -/
def closedHead (G Y : S100000x128.Idx → EReal) (Dc : S100000x1.Idx → EReal) (B : S128.Idx → EReal) (W1 : S128x128.Idx → EReal)
    (B1 : S128.Idx → EReal) (W2 : S128x2.Idx → EReal) (B2 : S2.Idx → EReal) : S100000x2.Idx → EReal :=
  fun i => (∑ k : Fin 128, rect ((∑ q : Fin 128, closeAt G Y Dc B (rowOf i) q * W1 (ix2 q k)) + B1 (ix1 k)) * W2 (ix2 k (colOf i)))
    + B2 (ix1 (colOf i))

theorem idx_facts3 : ∀ t : Fin cfg3.N, win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = win3_8.index t (0 : Fin 2) ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0
    ∧ win3_7.index t (0 : Fin 1) = 0
    ∧ win3_8.index t (1 : Fin 2) = 0 ∧ win3_8.index t (0 : Fin 2) ≤ 19 :=
  (by decide +kernel : ∀ t : Fin grid3.N, _)

theorem idx_onto3 : ∀ q0 : Fin 20, ∃ t : Fin cfg3.N, win3_8.index t = ![q0.val, 0] :=
  (by decide +kernel : ∀ q0 : Fin 20, ∃ t : Fin grid3.N, win3_8.index t = ![q0.val, 0])

theorem point3 (x0 x1 : Vec Ideal S5000x128 .f32) (x2 : Vec Ideal S5000x1 .f32) (x3 : Vec Ideal S128 .f32) (x4 : Vec Ideal S128x128 .f32)
    (x5 : Vec Ideal S128 .f32) (x6 : Vec Ideal S128x2 .f32) (x7 : Vec Ideal S2 .f32)
    (G Y : S100000x128.Idx → EReal) (Dc : S100000x1.Idx → EReal) (B : S128.Idx → EReal) (W1 : S128x128.Idx → EReal)
    (B1 : S128.Idx → EReal) (W2 : S128x2.Idx → EReal) (B2 : S2.Idx → EReal) (b : ℕ) (hb : b ≤ 19)
    (h0 : ∀ (p : Fin 5000) (q : Fin 128), x0 (ix2 p q) = G (ix2 (⟨b * 5000 + p.val, by have := p.isLt; omega⟩ : Fin 100000) q))
    (h1 : ∀ (p : Fin 5000) (q : Fin 128), x1 (ix2 p q) = Y (ix2 (⟨b * 5000 + p.val, by have := p.isLt; omega⟩ : Fin 100000) q))
    (h2 : ∀ p : Fin 5000, x2 (ix2 p (0 : Fin 1)) = Dc (ix2 (⟨b * 5000 + p.val, by have := p.isLt; omega⟩ : Fin 100000) (0 : Fin 1)))
    (h3 : ∀ q : Fin 128, x3 (ix1 q) = B (ix1 q))
    (h4 : ∀ (q c : Fin 128), x4 (ix2 q c) = W1 (ix2 q c))
    (h5 : ∀ q : Fin 128, x5 (ix1 q) = B1 (ix1 q))
    (h6 : ∀ (q : Fin 128) (r : Fin 2), x6 (ix2 q r) = W2 (ix2 q r))
    (h7 : ∀ r : Fin 2, x7 (ix1 r) = B2 (ix1 r))
    (p : Fin 5000) (r : Fin 2) (i : S100000x2.Idx) (hi0 : (i 0).val = b * 5000 + p.val) (hi1 : (i 1).val = r.val) :
    k3_pay1 (F := Ideal) x0 x1 x2 x3 x4 x5 x6 x7 (ix2 p r) = closedHead G Y Dc B W1 B1 W2 B2 i := by
  rw [pay3_apply]
  have hr : rowOf i = (⟨b * 5000 + p.val, by have := p.isLt; omega⟩ : Fin 100000) := Fin.ext hi0
  have hc : colOf i = r := Fin.ext hi1
  unfold closedHead
  rw [hr, hc, h7]
  refine congrArg (· + _) (Finset.sum_congr rfl fun k _ => ?_)
  rw [h5, h6]
  refine congrArg (fun s => rect (s + _) * _) (Finset.sum_congr rfl fun q _ => ?_)
  unfold closeAt
  rw [h0, h1, h2, h3, h4]

section Region3
variable (V : (c : Dev nD) → (b : Ref sig .tc) → Buf (Elt Ideal) ((c : Thread nD τ).loc b))

theorem flushed3_eq (c : Dev nD) (t : Fin cfg3.N) :
    (dat3 V c).flushed 8 t = ((cfg3.win 8).blk t).view.read (Elt Ideal)
      (closedHead (V c main_v37) (V c main_v27) (V c main_v15) (V c main_arg22) (V c main_arg23) (V c main_arg24) (V c main_arg25) (V c main_arg26)) := by
  show (cfg3.win 8).cut (grid3.coords t) ((dat3 V c).after 8 t) = _
  rw [after3_8]
  unfold out3_8
  rw [View.canon_unit_zero hz2]
  simp only [View.ld_unit_zero (S := S5000x128) hz2, View.ld_unit_zero (S := S128x128) hz2, View.ld_unit_zero (S := S5000x1) hz2,
    View.ld_unit_zero (S := S128) hz1, View.ld_unit_zero (S := S128x2) hz2, View.ld_unit_zero (S := S2) hz1]
  obtain ⟨e0, e1, e2, e3, e4, e5, e6, e7, e8, e9, e10, e11, e12, e13, e14⟩ := idx_facts3 t
  funext j
  obtain ⟨p, q, rfl⟩ : ∃ (p : Fin 5000) (q : Fin 2), j = ix2 p q := ⟨j 0, j 1, eq_ix2 j⟩
  refine point3 _ _ _ _ _ _ _ _ _ _ _ _ _ _ _ _ (win3_8.index t (0 : Fin 2)) e14 (fun p' q' => ?_) (fun p' q' => ?_) (fun p' => ?_) (fun q' => ?_)
    (fun q' c' => ?_) (fun q' => ?_) (fun q' r' => ?_) (fun r' => ?_) p q _ ?_ ?_
  · show V c main_v37 (((cfg3.win 0).blk t).view.emb (ix2 p' q')) = _
    refine congrArg (V c main_v37) (funext fun a => Fin.ext ?_)
    match a with
    | ⟨0, _⟩ => show win3_0.index t (0 : Fin 2) * 5000 + 1 * p'.val = win3_8.index t (0 : Fin 2) * 5000 + p'.val; omega
    | ⟨1, _⟩ => show win3_0.index t (1 : Fin 2) * 128 + 1 * q'.val = q'.val; omega
  · show V c main_v27 (((cfg3.win 1).blk t).view.emb (ix2 p' q')) = _
    refine congrArg (V c main_v27) (funext fun a => Fin.ext ?_)
    match a with
    | ⟨0, _⟩ => show win3_1.index t (0 : Fin 2) * 5000 + 1 * p'.val = win3_8.index t (0 : Fin 2) * 5000 + p'.val; omega
    | ⟨1, _⟩ => show win3_1.index t (1 : Fin 2) * 128 + 1 * q'.val = q'.val; omega
  · show V c main_v15 (((cfg3.win 2).blk t).view.emb (ix2 p' (0 : Fin 1))) = _
    refine congrArg (V c main_v15) (funext fun a => Fin.ext ?_)
    match a with
    | ⟨0, _⟩ => show win3_2.index t (0 : Fin 2) * 5000 + 1 * p'.val = win3_8.index t (0 : Fin 2) * 5000 + p'.val; omega
    | ⟨1, _⟩ => show win3_2.index t (1 : Fin 2) * 1 + 1 * 0 = 0; omega
  · show V c main_arg22 (((cfg3.win 3).blk t).view.emb (ix1 q')) = _
    refine congrArg (V c main_arg22) (funext fun a => Fin.ext ?_)
    match a with
    | ⟨0, _⟩ => show win3_3.index t (0 : Fin 1) * 128 + 1 * q'.val = q'.val; omega
  · show V c main_arg23 (((cfg3.win 4).blk t).view.emb (ix2 q' c')) = _
    refine congrArg (V c main_arg23) (funext fun a => Fin.ext ?_)
    match a with
    | ⟨0, _⟩ => show win3_4.index t (0 : Fin 2) * 128 + 1 * q'.val = q'.val; omega
    | ⟨1, _⟩ => show win3_4.index t (1 : Fin 2) * 128 + 1 * c'.val = c'.val; omega
  · show V c main_arg24 (((cfg3.win 5).blk t).view.emb (ix1 q')) = _
    refine congrArg (V c main_arg24) (funext fun a => Fin.ext ?_)
    match a with
    | ⟨0, _⟩ => show win3_5.index t (0 : Fin 1) * 128 + 1 * q'.val = q'.val; omega
  · show V c main_arg25 (((cfg3.win 6).blk t).view.emb (ix2 q' r')) = _
    refine congrArg (V c main_arg25) (funext fun a => Fin.ext ?_)
    match a with
    | ⟨0, _⟩ => show win3_6.index t (0 : Fin 2) * 128 + 1 * q'.val = q'.val; omega
    | ⟨1, _⟩ => show win3_6.index t (1 : Fin 2) * 2 + 1 * r'.val = r'.val; omega
  · show V c main_arg26 (((cfg3.win 7).blk t).view.emb (ix1 r')) = _
    refine congrArg (V c main_arg26) (funext fun a => Fin.ext ?_)
    match a with
    | ⟨0, _⟩ => show win3_7.index t (0 : Fin 1) * 2 + 1 * r'.val = r'.val; omega
  · show win3_8.index t (0 : Fin 2) * 5000 + 1 * p.val = win3_8.index t (0 : Fin 2) * 5000 + p.val; omega
  · show win3_8.index t (1 : Fin 2) * 2 + 1 * q.val = q.val; omega

theorem mem_blk3 (t : Fin cfg3.N) (i : S100000x2.Idx) :
    i ∈ ((cfg3.win 8).blk t).view.set ↔ ∀ a : Fin 2, win3_8.index t a * S5000x2.size a ≤ (i a).val ∧ (i a).val < win3_8.index t a * S5000x2.size a + S5000x2.size a := by
  show i ∈ ((View.whole main_v38).slice (win3_8.rect t)).set ↔ _
  rw [View.set_slice_whole, Rect.mem_set_unit]
  exact Iff.rfl

theorem cover3 (i : S100000x2.Idx) : ∃ t : Fin cfg3.N, (cfg3.win 8).flush t = true ∧ i ∈ ((cfg3.win 8).blk t).view.set := by
  have hi0 : (i 0).val < 100000 := (i 0).isLt
  have hi1 : (i 1).val < 2 := (i 1).isLt
  obtain ⟨t, ht⟩ := idx_onto3 ⟨(i 0).val / 5000, by omega⟩
  have q0 : win3_8.index t (0 : Fin 2) = (i 0).val / 5000 := congrFun ht 0
  have q1 : win3_8.index t (1 : Fin 2) = 0 := congrFun ht 1
  refine ⟨t, flush3_8 t, ?_⟩
  rw [mem_blk3]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 2 ≤ (i 1).val ∧ (i 1).val < win3_8.index t (1 : Fin 2) * 2 + 2; omega

/-- THE ARRAY the third small region leaves: the program's result. -/
theorem final3 (c : Dev nD) :
    (dat3 V c).arrAt 8 cfg3.N = closedHead (V c main_v37) (V c main_v27) (V c main_v15) (V c main_arg22) (V c main_arg23) (V c main_arg24)
      (V c main_arg25) (V c main_arg26) :=
  (dat3 V c).arrAt_eq_of_cover 8 _ (fun t _ => flushed3_eq V c t) (cover3)

end Region3

end Cert.KernelIdeal.Bodies

end
-- ==== Proof.KernelEncoder.lean ====
/-
  The encoder's kernel body read at an entry, and the table it leaves.

  A block is 1000 rows of the five fields. Each field is encoded by lrelu (x · w + b); the projection of the joined
  encodings is computed as five partial products, each field's encoding against its own rows of the 128 × 128 matrix
  (rows 0–27, 28–63, 64–75, 76–115, 116–127), summed in that order; then the bias and the rectifier again.
-/
import proofs.«102536_j32590211842598_2_alg».proof.Proof.Gen.KernelIdeal.Frame
import proofs.«102536_j32590211842598_2_alg».proof.Proof.LibAffine
import proofs.«102536_j32590211842598_2_alg».proof.Proof.LibPlainDot
import proofs.«102536_j32590211842598_2_alg».proof.Proof.LibSymNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Encoder

open Cert.KernelIdeal Cert.KernelIdeal.Gen Idealize.ShloMosaic Idealize.ShloMosaic.ValueIdx Idealize.ShloMosaic.TcCoe
open Idealize.ShloMosaic.Pipeline (Dat Cfg Window)

/-- A plain product [a, k] × [k, n] into a zero accumulator, at (p, j): the sum over the contracted axis. -/
theorem plainDot {a k n : ℕ} {φ₁ φ₂ : FTy} (D : DotDims ⟨2, ![a, k]⟩ ⟨2, ![k, n]⟩ ⟨2, ![a, n]⟩)
    (hlb : D.lhsBatch = []) (hlc : D.lhsContracting = [1]) (hln : D.lhsNonContracting = [0])
    (hrb : D.rhsBatch = []) (hrc : D.rhsContracting = [0]) (hrn : D.rhsNonContracting = [1])
    (L : FVec Ideal ⟨2, ![a, k]⟩ φ₁) (R : FVec Ideal ⟨2, ![k, n]⟩ φ₂) (p : Fin a) (j : Fin n) :
    FloatOps.matmul D none L R (constant ⟨2, ![a, n]⟩ .f32 0x00000000#32) (ix2 p j) = ∑ q : Fin k, L (ix2 p q) * R (ix2 q j) :=
  Cert.LibAffine.coreDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) none L R p j

/-- A vector seen as a one-row table and spread over the rows: entry (p, c) is the vector's entry c. -/
theorem biasRow_apply {a n : ℕ} (v : (⟨1, ![n]⟩ : Shape).Idx → EReal) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) := by
  have hc := c.isLt
  rw [broadcastTo_apply _ h2 (ix2 p c) (ix2 (0 : Fin 1) c) (fun d => by
    match d with
    | ⟨0, _⟩ => show (0 : ℕ) = if (1 : ℕ) = 1 then 0 else p.val; rw [if_pos rfl]
    | ⟨1, _⟩ => show c.val = if n = 1 then 0 else c.val; split <;> omega)]
  rw [shapeCast_addUnit_apply]
  exact congrArg v (funext fun d => by match d with | ⟨0, _⟩ => rfl)

/-- Rows off … off + k − 1 of the projection matrix, at (q, j). -/
theorem rowsSlice_apply {k : ℕ} (off : ℕ) (hk : off + k ≤ 128) (w : (⟨2, ![128, 128]⟩ : Shape).Idx → EReal)
    (h : (⟨2, ![128, 128]⟩ : Shape).Slices ![off, 0] ⟨2, ![k, 128]⟩) (q : Fin k) (j : Fin 128) :
    extractStridedSlice ⟨2, ![k, 128]⟩ ![off, 0] w h (ix2 q j) = w (ix2 (⟨off + q.val, by have := q.isLt; omega⟩ : Fin 128) j) :=
  extractStridedSlice_apply ![off, 0] w h (ix2 q j) _ (fun a => by
    match a with
    | ⟨0, _⟩ => rfl
    | ⟨1, _⟩ => show j.val = 0 + j.val; omega)

/-- The leaky rectifier as the body spells it. -/
def rect (x : EReal) : EReal := if Ideal.ofBits .f32 0x00000000#32 < x then x else Ideal.ofBits .f32 0x3C23D70A#32 * x

/-- Entry (p, j) of a field's encoding lrelu (x · w + b). -/
def encB {a k m : ℕ} (x : (⟨2, ![a, k]⟩ : Shape).Idx → EReal) (w : (⟨2, ![k, m]⟩ : Shape).Idx → EReal)
    (b : (⟨1, ![m]⟩ : Shape).Idx → EReal) (p : Fin a) (j : Fin m) : EReal :=
  rect ((∑ q : Fin k, x (ix2 p q) * w (ix2 q j)) + b (ix1 j))

theorem k0_pay2_apply (x : Vec Ideal S1000x768 .f32) (w : Vec Ideal S768x28 .f32) (b : Vec Ideal S28 .f32) (p : Fin 1000) (j : Fin 28) :
    k0_pay2 (F := Ideal) x w b (ix2 p j) = encB x w b p j := by
  unfold k0_pay2
  rw [select_apply, cmpf_apply, mulf_apply, addf_apply, matmul,
    plainDot dot_S1000x768_S768x28_S1000x28_1_0_0_1_n_n rfl rfl rfl rfl rfl rfl, biasRow_apply,
    Ideal.cmpf_def, Cert.LibSymNorm.select_cmp_ogt]
  simp only [truncf_apply, broadcast_apply, encB, rect]
  rfl

theorem k0_pay3_apply (x : Vec Ideal S1000x768 .f32) (w : Vec Ideal S768x36 .f32) (b : Vec Ideal S36 .f32) (p : Fin 1000) (j : Fin 36) :
    k0_pay3 (F := Ideal) x w b (ix2 p j) = encB x w b p j := by
  unfold k0_pay3
  rw [select_apply, cmpf_apply, mulf_apply, addf_apply, matmul,
    plainDot dot_S1000x768_S768x36_S1000x36_1_0_0_1_n_n rfl rfl rfl rfl rfl rfl, biasRow_apply,
    Ideal.cmpf_def, Cert.LibSymNorm.select_cmp_ogt]
  simp only [truncf_apply, broadcast_apply, encB, rect]
  rfl

theorem k0_pay6_apply (x : Vec Ideal S1000x11 .f32) (w : Vec Ideal S11x40 .f32) (b : Vec Ideal S40 .f32) (p : Fin 1000) (j : Fin 40) :
    k0_pay6 (F := Ideal) x w b (ix2 p j) = encB x w b p j := by
  unfold k0_pay6
  rw [select_apply, cmpf_apply, mulf_apply, addf_apply, matmul,
    plainDot dot_S1000x11_S11x40_S1000x40_1_0_0_1_n_n rfl rfl rfl rfl rfl rfl, biasRow_apply,
    Ideal.cmpf_def, Cert.LibSymNorm.select_cmp_ogt]
  simp only [truncf_apply, broadcast_apply, encB, rect]
  rfl

theorem k0_pay7_apply (x : Vec Ideal S1000x1 .f32) (w : Vec Ideal S1x12 .f32) (b : Vec Ideal S12 .f32) (p : Fin 1000) (j : Fin 12) :
    k0_pay7 (F := Ideal) x w b (ix2 p j) = encB x w b p j := by
  unfold k0_pay7
  rw [select_apply, cmpf_apply, mulf_apply, addf_apply, matmul,
    plainDot dot_S1000x1_S1x12_S1000x12_1_0_0_1_n_n rfl rfl rfl rfl rfl rfl, biasRow_apply,
    Ideal.cmpf_def, Cert.LibSymNorm.select_cmp_ogt]
  simp only [truncf_apply, broadcast_apply, encB, rect]
  rfl

/-- The third field's encoding is computed in two steps: the dense layer, then the rectifier. -/
theorem k0_pay45_apply (x : Vec Ideal S1000x7 .f32) (w : Vec Ideal S7x12 .f32) (b : Vec Ideal S12 .f32) (p : Fin 1000) (j : Fin 12) :
    k0_pay5 (F := Ideal) (k0_pay4 x w b) (ix2 p j) = encB x w b p j := by
  unfold k0_pay5 k0_pay4
  rw [select_apply, cmpf_apply, mulf_apply, addf_apply, matmul,
    plainDot dot_S1000x7_S7x12_S1000x12_1_0_0_1_n_n rfl rfl rfl rfl rfl rfl, biasRow_apply,
    Ideal.cmpf_def, Cert.LibSymNorm.select_cmp_ogt]
  simp only [truncf_apply, broadcast_apply, encB, rect]
  rfl

/-- A field's encoding against rows off … off + k − 1 of the projection, at (p, j). -/
def partB {a k : ℕ} (off : ℕ) (h : off + k ≤ 128) (f : Fin a → Fin k → EReal) (win : (⟨2, ![128, 128]⟩ : Shape).Idx → EReal)
    (p : Fin a) (j : Fin 128) : EReal :=
  ∑ q : Fin k, f p q * win (ix2 (⟨off + q.val, by have := q.isLt; omega⟩ : Fin 128) j)

/-- The last payload at (p, j): the five partial products in order, the bias, the rectifier. -/
theorem k0_pay1_apply (e1 : FVec Ideal S1000x36 .f32) (e2 : FVec Ideal S1000x12 .f32) (e3 : FVec Ideal S1000x40 .f32) (e4 : FVec Ideal S1000x12 .f32)
    (win : Vec Ideal S128x128 .f32) (bin : Vec Ideal S128 .f32) (e0 : FVec Ideal S1000x28 .f32) (p : Fin 1000) (j : Fin 128) :
    k0_pay1 (F := Ideal) e1 e2 e3 e4 win bin (k0_pay8 e0) (k0_pay9 win) (constant S1000x128 .f32 0x00000000#32) (ix2 p j)
      = rect (((((partB 0 (by norm_num) (fun p q => e0 (ix2 p q)) win p j + partB 28 (by norm_num) (fun p q => e1 (ix2 p q)) win p j)
          + partB 64 (by norm_num) (fun p q => e2 (ix2 p q)) win p j) + partB 76 (by norm_num) (fun p q => e3 (ix2 p q)) win p j)
          + partB 116 (by norm_num) (fun p q => e4 (ix2 p q)) win p j) + bin (ix1 j)) := by
  unfold k0_pay1 k0_pay8 k0_pay9
  rw [select_apply, cmpf_apply, mulf_apply, addf_apply, addf_apply, addf_apply, addf_apply, addf_apply, biasRow_apply,
    Ideal.cmpf_def, Cert.LibSymNorm.select_cmp_ogt]
  simp only [matmul,
    plainDot dot_S1000x28_S28x128_S1000x128_1_0_0_1_n_n rfl rfl rfl rfl rfl rfl,
    plainDot dot_S1000x36_S36x128_S1000x128_1_0_0_1_n_n rfl rfl rfl rfl rfl rfl,
    plainDot dot_S1000x12_S12x128_S1000x128_1_0_0_1_n_n rfl rfl rfl rfl rfl rfl,
    plainDot dot_S1000x40_S40x128_S1000x128_1_0_0_1_n_n rfl rfl rfl rfl rfl rfl,
    truncf_apply, broadcast_apply, partB, rect,
    rowsSlice_apply (k := 28) 0 (by norm_num), rowsSlice_apply (k := 36) 28 (by norm_num), rowsSlice_apply (k := 12) 64 (by norm_num),
    rowsSlice_apply (k := 40) 76 (by norm_num), rowsSlice_apply (k := 12) 116 (by norm_num)]
  rfl

/-! ## From blocks to the table -/

theorem hz2 : (![0, 0] : Fin 2 → Nat) = fun _ => 0 := funext fun a => by fin_cases a <;> rfl
theorem hz1 : (![0] : Fin 1 → Nat) = fun _ => 0 := funext fun a => by fin_cases a <;> rfl

abbrev rowOf {a b : ℕ} (i : (⟨2, ![a, b]⟩ : Shape).Idx) : Fin a := ⟨(i 0).val, (i 0).isLt⟩
abbrev colOf {a b : ℕ} (i : (⟨2, ![a, b]⟩ : Shape).Idx) : Fin b := ⟨(i 1).val, (i 1).isLt⟩

/-- An encoding's entry depends on one row of the field, one column of the weights and one entry of the bias. -/
theorem encB_congr {a a' k m : ℕ} (x : (⟨2, ![a, k]⟩ : Shape).Idx → EReal) (X : (⟨2, ![a', k]⟩ : Shape).Idx → EReal)
    (w W : (⟨2, ![k, m]⟩ : Shape).Idx → EReal) (b B : (⟨1, ![m]⟩ : Shape).Idx → EReal) (p : Fin a) (p' : Fin a') (j : Fin m)
    (hx : ∀ q : Fin k, x (ix2 p q) = X (ix2 p' q)) (hw : ∀ q : Fin k, w (ix2 q j) = W (ix2 q j)) (hb : b (ix1 j) = B (ix1 j)) :
    encB x w b p j = encB X W B p' j := by
  unfold encB
  rw [hb]
  refine congrArg (fun s => rect (s + B (ix1 j))) (Finset.sum_congr rfl fun q _ => ?_)
  rw [hx, hw]

/-- The encoder's table over all the nodes. -/
def encoderK (Des : S100000x768.Idx → EReal) (Twe : S100000x768.Idx → EReal) (Num : S100000x7.Idx → EReal) (Cat : S100000x11.Idx → EReal) (Nf : S100000x1.Idx → EReal) (Wd : S768x28.Idx → EReal) (Bd : S28.Idx → EReal) (Wt : S768x36.Idx → EReal) (Bt : S36.Idx → EReal) (Wn : S7x12.Idx → EReal) (Bn : S12.Idx → EReal) (Wc : S11x40.Idx → EReal) (Bc : S40.Idx → EReal) (Wf : S1x12.Idx → EReal) (Bf : S12.Idx → EReal) (Win : S128x128.Idx → EReal) (Bin : S128.Idx → EReal) : S100000x128.Idx → EReal :=
  fun i => rect (((((partB 0 (by norm_num) (encB Des Wd Bd) Win (rowOf i) (colOf i) + partB 28 (by norm_num) (encB Twe Wt Bt) Win (rowOf i) (colOf i))
      + partB 64 (by norm_num) (encB Num Wn Bn) Win (rowOf i) (colOf i)) + partB 76 (by norm_num) (encB Cat Wc Bc) Win (rowOf i) (colOf i))
      + partB 116 (by norm_num) (encB Nf Wf Bf) Win (rowOf i) (colOf i)) + Bin (ix1 (colOf i)))

/-- The printed index maps of the encoder's region, decided over its 100 grid points. -/
theorem idx_facts0 : ∀ t : Fin cfg0.N, win0_0.index t (0 : Fin 2) = win0_17.index t (0 : Fin 2)
    ∧ win0_0.index t (1 : Fin 2) = 0
    ∧ win0_1.index t (0 : Fin 2) = win0_17.index t (0 : Fin 2)
    ∧ win0_1.index t (1 : Fin 2) = 0
    ∧ win0_2.index t (0 : Fin 2) = win0_17.index t (0 : Fin 2)
    ∧ win0_2.index t (1 : Fin 2) = 0
    ∧ win0_3.index t (0 : Fin 2) = win0_17.index t (0 : Fin 2)
    ∧ win0_3.index t (1 : Fin 2) = 0
    ∧ win0_4.index t (0 : Fin 2) = win0_17.index t (0 : Fin 2)
    ∧ win0_4.index t (1 : Fin 2) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0
    ∧ win0_17.index t (1 : Fin 2) = 0
    ∧ win0_17.index t (0 : Fin 2) ≤ 99 :=
  (by decide +kernel : ∀ t : Fin grid0.N, _)

theorem idx_onto0 : ∀ q0 : Fin 100, ∃ t : Fin cfg0.N, win0_17.index t = ![q0.val, 0] :=
  (by decide +kernel : ∀ q0 : Fin 100, ∃ t : Fin grid0.N, win0_17.index t = ![q0.val, 0])

/-- One point of the encoder's region, over variables: block b of the five fields, the whole weights. -/
theorem point0 (x0 : Vec Ideal S1000x768 .f32) (x1 : Vec Ideal S1000x768 .f32) (x2 : Vec Ideal S1000x7 .f32) (x3 : Vec Ideal S1000x11 .f32) (x4 : Vec Ideal S1000x1 .f32) (x5 : Vec Ideal S768x28 .f32) (x6 : Vec Ideal S28 .f32) (x7 : Vec Ideal S768x36 .f32) (x8 : Vec Ideal S36 .f32) (x9 : Vec Ideal S7x12 .f32) (x10 : Vec Ideal S12 .f32) (x11 : Vec Ideal S11x40 .f32) (x12 : Vec Ideal S40 .f32) (x13 : Vec Ideal S1x12 .f32) (x14 : Vec Ideal S12 .f32) (x15 : Vec Ideal S128x128 .f32) (x16 : Vec Ideal S128 .f32)
    (Des : S100000x768.Idx → EReal) (Twe : S100000x768.Idx → EReal) (Num : S100000x7.Idx → EReal) (Cat : S100000x11.Idx → EReal) (Nf : S100000x1.Idx → EReal) (Wd : S768x28.Idx → EReal) (Bd : S28.Idx → EReal) (Wt : S768x36.Idx → EReal) (Bt : S36.Idx → EReal) (Wn : S7x12.Idx → EReal) (Bn : S12.Idx → EReal) (Wc : S11x40.Idx → EReal) (Bc : S40.Idx → EReal) (Wf : S1x12.Idx → EReal) (Bf : S12.Idx → EReal) (Win : S128x128.Idx → EReal) (Bin : S128.Idx → EReal) (b : ℕ) (hb : b ≤ 99)
    (h0 : ∀ (p : Fin 1000) (q : Fin 768), x0 (ix2 p q) = Des (ix2 (⟨b * 1000 + p.val, by have := p.isLt; omega⟩ : Fin 100000) q))
    (h1 : ∀ (p : Fin 1000) (q : Fin 768), x1 (ix2 p q) = Twe (ix2 (⟨b * 1000 + p.val, by have := p.isLt; omega⟩ : Fin 100000) q))
    (h2 : ∀ (p : Fin 1000) (q : Fin 7), x2 (ix2 p q) = Num (ix2 (⟨b * 1000 + p.val, by have := p.isLt; omega⟩ : Fin 100000) q))
    (h3 : ∀ (p : Fin 1000) (q : Fin 11), x3 (ix2 p q) = Cat (ix2 (⟨b * 1000 + p.val, by have := p.isLt; omega⟩ : Fin 100000) q))
    (h4 : ∀ (p : Fin 1000) (q : Fin 1), x4 (ix2 p q) = Nf (ix2 (⟨b * 1000 + p.val, by have := p.isLt; omega⟩ : Fin 100000) q))
    (h5 : ∀ (q : Fin 768) (c : Fin 28), x5 (ix2 q c) = Wd (ix2 q c))
    (h6 : ∀ q : Fin 28, x6 (ix1 q) = Bd (ix1 q))
    (h7 : ∀ (q : Fin 768) (c : Fin 36), x7 (ix2 q c) = Wt (ix2 q c))
    (h8 : ∀ q : Fin 36, x8 (ix1 q) = Bt (ix1 q))
    (h9 : ∀ (q : Fin 7) (c : Fin 12), x9 (ix2 q c) = Wn (ix2 q c))
    (h10 : ∀ q : Fin 12, x10 (ix1 q) = Bn (ix1 q))
    (h11 : ∀ (q : Fin 11) (c : Fin 40), x11 (ix2 q c) = Wc (ix2 q c))
    (h12 : ∀ q : Fin 40, x12 (ix1 q) = Bc (ix1 q))
    (h13 : ∀ (q : Fin 1) (c : Fin 12), x13 (ix2 q c) = Wf (ix2 q c))
    (h14 : ∀ q : Fin 12, x14 (ix1 q) = Bf (ix1 q))
    (h15 : ∀ (q : Fin 128) (c : Fin 128), x15 (ix2 q c) = Win (ix2 q c))
    (h16 : ∀ q : Fin 128, x16 (ix1 q) = Bin (ix1 q))
    (p : Fin 1000) (j : Fin 128) (i : S100000x128.Idx) (hi0 : (i 0).val = b * 1000 + p.val) (hi1 : (i 1).val = j.val) :
    k0_pay1 (F := Ideal) (k0_pay3 x1 x7 x8) (k0_pay5 (k0_pay4 x2 x9 x10)) (k0_pay6 x3 x11 x12) (k0_pay7 x4 x13 x14) x15 x16
        (k0_pay8 (k0_pay2 x0 x5 x6)) (k0_pay9 x15) (constant S1000x128 .f32 0x00000000#32) (ix2 p j)
      = encoderK Des Twe Num Cat Nf Wd Bd Wt Bt Wn Bn Wc Bc Wf Bf Win Bin i := by
  rw [k0_pay1_apply]
  have hr : rowOf i = (⟨b * 1000 + p.val, by have := p.isLt; omega⟩ : Fin 100000) := Fin.ext hi0
  have hc : colOf i = j := Fin.ext hi1
  unfold encoderK
  rw [hr, hc]
  have e0 : ∀ q : Fin 28, k0_pay2 (F := Ideal) x0 x5 x6 (ix2 p q) = encB Des Wd Bd (⟨b * 1000 + p.val, by have := p.isLt; omega⟩ : Fin 100000) q :=
    fun q => (k0_pay2_apply x0 x5 x6 p q).trans (encB_congr _ _ _ _ _ _ _ _ _ (fun r => h0 p r) (fun r => h5 r q) (h6 q))
  have e1 : ∀ q : Fin 36, k0_pay3 (F := Ideal) x1 x7 x8 (ix2 p q) = encB Twe Wt Bt (⟨b * 1000 + p.val, by have := p.isLt; omega⟩ : Fin 100000) q :=
    fun q => (k0_pay3_apply x1 x7 x8 p q).trans (encB_congr _ _ _ _ _ _ _ _ _ (fun r => h1 p r) (fun r => h7 r q) (h8 q))
  have e2 : ∀ q : Fin 12, k0_pay5 (F := Ideal) (k0_pay4 x2 x9 x10) (ix2 p q) = encB Num Wn Bn (⟨b * 1000 + p.val, by have := p.isLt; omega⟩ : Fin 100000) q :=
    fun q => (k0_pay45_apply x2 x9 x10 p q).trans (encB_congr _ _ _ _ _ _ _ _ _ (fun r => h2 p r) (fun r => h9 r q) (h10 q))
  have e3 : ∀ q : Fin 40, k0_pay6 (F := Ideal) x3 x11 x12 (ix2 p q) = encB Cat Wc Bc (⟨b * 1000 + p.val, by have := p.isLt; omega⟩ : Fin 100000) q :=
    fun q => (k0_pay6_apply x3 x11 x12 p q).trans (encB_congr _ _ _ _ _ _ _ _ _ (fun r => h3 p r) (fun r => h11 r q) (h12 q))
  have e4 : ∀ q : Fin 12, k0_pay7 (F := Ideal) x4 x13 x14 (ix2 p q) = encB Nf Wf Bf (⟨b * 1000 + p.val, by have := p.isLt; omega⟩ : Fin 100000) q :=
    fun q => (k0_pay7_apply x4 x13 x14 p q).trans (encB_congr _ _ _ _ _ _ _ _ _ (fun r => h4 p r) (fun r => h13 r q) (h14 q))
  simp only [partB, e0, e1, e2, e3, e4, h15, h16]

section Region0
variable (V : (c : Dev nD) → (b : Ref sig .tc) → Buf (Elt Ideal) ((c : Thread nD τ).loc b))

set_option maxHeartbeats 4000000 in
/-- What point t writes back is block t of the encoder's table of the arrays as the region finds them. -/
theorem flushed0_eq (c : Dev nD) (t : Fin cfg0.N) :
    (dat0 V c).flushed 17 t = ((cfg0.win 17).blk t).view.read (Elt Ideal)
      (encoderK (V c main_arg0) (V c main_arg1) (V c main_arg2) (V c main_arg3) (V c main_arg4) (V c main_arg7) (V c main_arg8) (V c main_arg9) (V c main_arg10) (V c main_arg11) (V c main_arg12) (V c main_arg13) (V c main_arg14) (V c main_arg15) (V c main_arg16) (V c main_arg17) (V c main_arg18)) := by
  show (cfg0.win 17).cut (grid0.coords t) ((dat0 V c).after 17 t) = _
  rw [after0_17]
  unfold out0_17
  rw [View.canon_unit_zero hz2]
  simp only [View.ld_unit_zero (S := S1000x768) hz2, View.ld_unit_zero (S := S1000x7) hz2, View.ld_unit_zero (S := S1000x11) hz2, View.ld_unit_zero (S := S1000x1) hz2, View.ld_unit_zero (S := S768x28) hz2, View.ld_unit_zero (S := S28) hz1, View.ld_unit_zero (S := S768x36) hz2, View.ld_unit_zero (S := S36) hz1, View.ld_unit_zero (S := S7x12) hz2, View.ld_unit_zero (S := S12) hz1, View.ld_unit_zero (S := S11x40) hz2, View.ld_unit_zero (S := S40) hz1, View.ld_unit_zero (S := S1x12) hz2, View.ld_unit_zero (S := S128x128) hz2, View.ld_unit_zero (S := S128) hz1]
  obtain ⟨f0, f1, f2, f3, f4, f5, f6, f7, f8, f9, f10, f11, f12, f13, f14, f15, f16, f17, f18, f19, f20, f21, f22, f23, f24, f25, f26, f27, f28, f29⟩ := idx_facts0 t
  funext j
  obtain ⟨p, q, rfl⟩ : ∃ (p : Fin 1000) (q : Fin 128), j = ix2 p q := ⟨j 0, j 1, eq_ix2 j⟩
  refine point0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)
    (V c main_arg0) (V c main_arg1) (V c main_arg2) (V c main_arg3) (V c main_arg4) (V c main_arg7) (V c main_arg8) (V c main_arg9) (V c main_arg10) (V c main_arg11) (V c main_arg12) (V c main_arg13) (V c main_arg14) (V c main_arg15) (V c main_arg16) (V c main_arg17) (V c main_arg18)
    (win0_17.index t (0 : Fin 2)) f29
    (fun p' q' => ?_) (fun p' q' => ?_) (fun p' q' => ?_) (fun p' q' => ?_) (fun p' q' => ?_) (fun q' c' => ?_) (fun q' => ?_) (fun q' c' => ?_) (fun q' => ?_) (fun q' c' => ?_) (fun q' => ?_) (fun q' c' => ?_) (fun q' => ?_) (fun q' c' => ?_) (fun q' => ?_) (fun q' c' => ?_) (fun q' => ?_) p q _ ?_ ?_
  · show V c main_arg0 (((cfg0.win 0).blk t).view.emb (ix2 p' q')) = _
    refine congrArg (V c main_arg0) (funext fun a => Fin.ext ?_)
    match a with
    | ⟨0, _⟩ => show win0_0.index t (0 : Fin 2) * 1000 + 1 * p'.val = win0_17.index t (0 : Fin 2) * 1000 + p'.val; omega
    | ⟨1, _⟩ => show win0_0.index t (1 : Fin 2) * 768 + 1 * q'.val = q'.val; omega
  · show V c main_arg1 (((cfg0.win 1).blk t).view.emb (ix2 p' q')) = _
    refine congrArg (V c main_arg1) (funext fun a => Fin.ext ?_)
    match a with
    | ⟨0, _⟩ => show win0_1.index t (0 : Fin 2) * 1000 + 1 * p'.val = win0_17.index t (0 : Fin 2) * 1000 + p'.val; omega
    | ⟨1, _⟩ => show win0_1.index t (1 : Fin 2) * 768 + 1 * q'.val = q'.val; omega
  · show V c main_arg2 (((cfg0.win 2).blk t).view.emb (ix2 p' q')) = _
    refine congrArg (V c main_arg2) (funext fun a => Fin.ext ?_)
    match a with
    | ⟨0, _⟩ => show win0_2.index t (0 : Fin 2) * 1000 + 1 * p'.val = win0_17.index t (0 : Fin 2) * 1000 + p'.val; omega
    | ⟨1, _⟩ => show win0_2.index t (1 : Fin 2) * 7 + 1 * q'.val = q'.val; omega
  · show V c main_arg3 (((cfg0.win 3).blk t).view.emb (ix2 p' q')) = _
    refine congrArg (V c main_arg3) (funext fun a => Fin.ext ?_)
    match a with
    | ⟨0, _⟩ => show win0_3.index t (0 : Fin 2) * 1000 + 1 * p'.val = win0_17.index t (0 : Fin 2) * 1000 + p'.val; omega
    | ⟨1, _⟩ => show win0_3.index t (1 : Fin 2) * 11 + 1 * q'.val = q'.val; omega
  · show V c main_arg4 (((cfg0.win 4).blk t).view.emb (ix2 p' q')) = _
    refine congrArg (V c main_arg4) (funext fun a => Fin.ext ?_)
    match a with
    | ⟨0, _⟩ => show win0_4.index t (0 : Fin 2) * 1000 + 1 * p'.val = win0_17.index t (0 : Fin 2) * 1000 + p'.val; omega
    | ⟨1, _⟩ => show win0_4.index t (1 : Fin 2) * 1 + 1 * q'.val = q'.val; omega
  · show V c main_arg7 (((cfg0.win 5).blk t).view.emb (ix2 q' c')) = _
    refine congrArg (V c main_arg7) (funext fun a => Fin.ext ?_)
    match a with
    | ⟨0, _⟩ => show win0_5.index t (0 : Fin 2) * 768 + 1 * q'.val = q'.val; omega
    | ⟨1, _⟩ => show win0_5.index t (1 : Fin 2) * 28 + 1 * c'.val = c'.val; omega
  · show V c main_arg8 (((cfg0.win 6).blk t).view.emb (ix1 q')) = _
    refine congrArg (V c main_arg8) (funext fun a => Fin.ext ?_)
    match a with
    | ⟨0, _⟩ => show win0_6.index t (0 : Fin 1) * 28 + 1 * q'.val = q'.val; omega
  · show V c main_arg9 (((cfg0.win 7).blk t).view.emb (ix2 q' c')) = _
    refine congrArg (V c main_arg9) (funext fun a => Fin.ext ?_)
    match a with
    | ⟨0, _⟩ => show win0_7.index t (0 : Fin 2) * 768 + 1 * q'.val = q'.val; omega
    | ⟨1, _⟩ => show win0_7.index t (1 : Fin 2) * 36 + 1 * c'.val = c'.val; omega
  · show V c main_arg10 (((cfg0.win 8).blk t).view.emb (ix1 q')) = _
    refine congrArg (V c main_arg10) (funext fun a => Fin.ext ?_)
    match a with
    | ⟨0, _⟩ => show win0_8.index t (0 : Fin 1) * 36 + 1 * q'.val = q'.val; omega
  · show V c main_arg11 (((cfg0.win 9).blk t).view.emb (ix2 q' c')) = _
    refine congrArg (V c main_arg11) (funext fun a => Fin.ext ?_)
    match a with
    | ⟨0, _⟩ => show win0_9.index t (0 : Fin 2) * 7 + 1 * q'.val = q'.val; omega
    | ⟨1, _⟩ => show win0_9.index t (1 : Fin 2) * 12 + 1 * c'.val = c'.val; omega
  · show V c main_arg12 (((cfg0.win 10).blk t).view.emb (ix1 q')) = _
    refine congrArg (V c main_arg12) (funext fun a => Fin.ext ?_)
    match a with
    | ⟨0, _⟩ => show win0_10.index t (0 : Fin 1) * 12 + 1 * q'.val = q'.val; omega
  · show V c main_arg13 (((cfg0.win 11).blk t).view.emb (ix2 q' c')) = _
    refine congrArg (V c main_arg13) (funext fun a => Fin.ext ?_)
    match a with
    | ⟨0, _⟩ => show win0_11.index t (0 : Fin 2) * 11 + 1 * q'.val = q'.val; omega
    | ⟨1, _⟩ => show win0_11.index t (1 : Fin 2) * 40 + 1 * c'.val = c'.val; omega
  · show V c main_arg14 (((cfg0.win 12).blk t).view.emb (ix1 q')) = _
    refine congrArg (V c main_arg14) (funext fun a => Fin.ext ?_)
    match a with
    | ⟨0, _⟩ => show win0_12.index t (0 : Fin 1) * 40 + 1 * q'.val = q'.val; omega
  · show V c main_arg15 (((cfg0.win 13).blk t).view.emb (ix2 q' c')) = _
    refine congrArg (V c main_arg15) (funext fun a => Fin.ext ?_)
    match a with
    | ⟨0, _⟩ => show win0_13.index t (0 : Fin 2) * 1 + 1 * q'.val = q'.val; omega
    | ⟨1, _⟩ => show win0_13.index t (1 : Fin 2) * 12 + 1 * c'.val = c'.val; omega
  · show V c main_arg16 (((cfg0.win 14).blk t).view.emb (ix1 q')) = _
    refine congrArg (V c main_arg16) (funext fun a => Fin.ext ?_)
    match a with
    | ⟨0, _⟩ => show win0_14.index t (0 : Fin 1) * 12 + 1 * q'.val = q'.val; omega
  · show V c main_arg17 (((cfg0.win 15).blk t).view.emb (ix2 q' c')) = _
    refine congrArg (V c main_arg17) (funext fun a => Fin.ext ?_)
    match a with
    | ⟨0, _⟩ => show win0_15.index t (0 : Fin 2) * 128 + 1 * q'.val = q'.val; omega
    | ⟨1, _⟩ => show win0_15.index t (1 : Fin 2) * 128 + 1 * c'.val = c'.val; omega
  · show V c main_arg18 (((cfg0.win 16).blk t).view.emb (ix1 q')) = _
    refine congrArg (V c main_arg18) (funext fun a => Fin.ext ?_)
    match a with
    | ⟨0, _⟩ => show win0_16.index t (0 : Fin 1) * 128 + 1 * q'.val = q'.val; omega
  · show win0_17.index t (0 : Fin 2) * 1000 + 1 * p.val = win0_17.index t (0 : Fin 2) * 1000 + p.val; omega
  · show win0_17.index t (1 : Fin 2) * 128 + 1 * q.val = q.val; omega

theorem mem_blk0 (t : Fin cfg0.N) (i : S100000x128.Idx) :
    i ∈ ((cfg0.win 17).blk t).view.set ↔ ∀ a : Fin 2, win0_17.index t a * S1000x128.size a ≤ (i a).val ∧ (i a).val < win0_17.index t a * S1000x128.size a + S1000x128.size a := by
  show i ∈ ((View.whole main_v0).slice (win0_17.rect t)).set ↔ _
  rw [View.set_slice_whole, Rect.mem_set_unit]
  exact Iff.rfl

theorem cover0 (i : S100000x128.Idx) : ∃ t : Fin cfg0.N, (cfg0.win 17).flush t = true ∧ i ∈ ((cfg0.win 17).blk t).view.set := by
  have hi0 : (i 0).val < 100000 := (i 0).isLt
  have hi1 : (i 1).val < 128 := (i 1).isLt
  obtain ⟨t, ht⟩ := idx_onto0 ⟨(i 0).val / 1000, by omega⟩
  have q0 : win0_17.index t (0 : Fin 2) = (i 0).val / 1000 := congrFun ht 0
  have q1 : win0_17.index t (1 : Fin 2) = 0 := congrFun ht 1
  refine ⟨t, flush0_17 t, ?_⟩
  rw [mem_blk0]
  intro a
  match a with
  | ⟨0, _⟩ => show win0_17.index t (0 : Fin 2) * 1000 ≤ (i 0).val ∧ (i 0).val < win0_17.index t (0 : Fin 2) * 1000 + 1000; omega
  | ⟨1, _⟩ => show win0_17.index t (1 : Fin 2) * 128 ≤ (i 1).val ∧ (i 1).val < win0_17.index t (1 : Fin 2) * 128 + 128; omega

/-- THE TABLE the encoder's region leaves. -/
theorem final0 (c : Dev nD) :
    (dat0 V c).arrAt 17 cfg0.N = encoderK (V c main_arg0) (V c main_arg1) (V c main_arg2) (V c main_arg3) (V c main_arg4) (V c main_arg7) (V c main_arg8) (V c main_arg9) (V c main_arg10) (V c main_arg11) (V c main_arg12) (V c main_arg13) (V c main_arg14) (V c main_arg15) (V c main_arg16) (V c main_arg17) (V c main_arg18) :=
  (dat0 V c).arrAt_eq_of_cover 17 _ (fun t _ => flushed0_eq V c t) (cover0)

end Region0

end Cert.KernelIdeal.Encoder

end
-- ==== Proof.KernelHost.lean ====
/-
  The host stretches of the idealized kernel's program, read as operations on whole arrays.

  Between the regions the program works on the host: it takes the two rows of the edge list, counts every node's
  incoming edges by scattering ones onto zeros and adds one for the loop, takes the guarded inverse square root, and
  lays it along a column; and, twice, it moves negative source indices up by the number of nodes, gathers the rows of
  a table at the sources and sums them into a table of zeros at the targets. Each buffer the later regions read is
  named here as those operations applied to what the earlier segments left, and the buffers nothing writes are
  followed back through the stretches unchanged.
-/
import proofs.«102536_j32590211842598_2_alg».proof.Proof.Gen.KernelIdeal.Frame
import Idealize.ShloMosaic.Lib.StableHlo.Run
import Idealize.ShloMosaic.PureOps.Ideal
import Idealize.ShloMosaic.Lib.ValueIdx

set_option maxRecDepth 16384
set_option maxHeartbeats 1600000

noncomputable section

namespace Cert.KernelIdeal.HostSide

open Cert.KernelIdeal Cert.KernelIdeal.Gen Idealize.ShloMosaic Idealize.ShloMosaic.TcCoe Idealize.ShloMosaic.StableHlo Idealize.SL.Sem

/-- Row r of the edge list as a vector of 1600000 words. -/
def srcRawK (edge : IVec S2x1600000 32) : IVec S1600000 32 :=
  shapeCast S1600000 (extractStridedSlice S1x1600000 ![0, 0] edge slices_S2x1600000_S1x1600000_0_0) shapeCasts_S1x1600000_S1600000
def dstRawK (edge : IVec S2x1600000 32) : IVec S1600000 32 :=
  shapeCast S1600000 (extractStridedSlice S1x1600000 ![1, 0] edge slices_S2x1600000_S1x1600000_1_0) shapeCasts_S1x1600000_S1600000

/-- The target column as the scatters read it, and the source column as the gathers read it (negative words moved up). -/
def dstColK (dstRaw : IVec S1600000 32) : IVec S1600000x1 32 := broadcastInDim S1600000x1 ![0] bcast_S1600000_S1600000x1_0 dstRaw
def srcColK (srcRaw : IVec S1600000 32) : IVec S1600000x1 32 :=
  broadcastInDim S1600000x1 ![0] bcast_S1600000_S1600000x1_0
    (select (cmpi .slt srcRaw (broadcastInDim S1600000 ![] bcast_S_S1600000 (constantI S_ 32 0#32)))
      (addi srcRaw (broadcastInDim S1600000 ![] bcast_S_S1600000 (constantI S_ 32 100000#32))) srcRaw)

/-- Every node's degree: ones scattered onto zeros at the targets, plus one. -/
def degK (dstRaw : IVec S1600000 32) : FVec Ideal S100000 .f32 :=
  addf (Host.scatterAdd scatter_S100000_S1600000x1_S1600000_n_0_0_1
      (broadcastInDim S100000 ![] bcast_S_S100000 (constant S_ .f32 0x00000000#32)) (dstColK dstRaw)
      (broadcastInDim S1600000 ![] bcast_S_S1600000 (constant S_ .f32 0x3F800000#32)))
    (broadcastInDim S100000 ![] bcast_S_S100000 (constant S_ .f32 0x3F800000#32))

/-- Every node's factor, laid along a column. -/
def disColK (dstRaw : IVec S1600000 32) : FVec Ideal S100000x1 .f32 :=
  broadcastInDim S100000x1 ![0] bcast_S100000_S100000x1_0
    (select (cmpf .ogt (degK dstRaw) (broadcastInDim S100000 ![] bcast_S_S100000 (constant S_ .f32 0x00000000#32)))
      (Host.rsqrt (degK dstRaw)) (broadcastInDim S100000 ![] bcast_S_S100000 (constant S_ .f32 0x00000000#32)))

/-- The rows of Y gathered at the sources and summed into zeros at the targets. -/
def aggK (Y : FVec Ideal S100000x128 .f32) (srcRaw dstRaw : IVec S1600000 32) : FVec Ideal S100000x128 .f32 :=
  Host.scatterAdd scatter_S100000x128_S1600000x1_S1600000x128_1_0_0_1
    (broadcastInDim S100000x128 ![] bcast_S_S100000x128 (constant S_ .f32 0x00000000#32)) (dstColK dstRaw)
    (Host.gather gather_S100000x128_S1600000x1_S1600000x128_1_0_n_n_0_1_1128 Y (srcColK srcRaw))

variable (m : (ℓ : Loc nD τ sig) → Buf (Elt Ideal) ℓ) (ρ : Dev nD → PrngReg)

/-! ## After the first region: the index vectors and the factor column -/

theorem W2_v2 (c : Dev nD) : W2 m ρ c (Proc.devRef .tc main_v2) = srcRawK (W1 m ρ c (Proc.devRef .tc main_arg5)) := by
  show StableHlo.after hostOps1 (W1 m ρ c) (Proc.devRef .tc main_v2) = _
  after_results
  rfl
theorem W2_v4 (c : Dev nD) : W2 m ρ c (Proc.devRef .tc main_v4) = dstRawK (W1 m ρ c (Proc.devRef .tc main_arg5)) := by
  show StableHlo.after hostOps1 (W1 m ρ c) (Proc.devRef .tc main_v4) = _
  after_results
  rfl
/-- The two short stretches that end the first host part, from any contents: the outlined select and the column. -/
theorem tail_v15 (W : Valuation τ sig (Elt Ideal)) :
    StableHlo.after hostOps1_2 (StableHlo.after hostOps1_1 W) (Proc.devRef .tc main_v15)
      = broadcastInDim S100000x1 ![0] bcast_S100000_S100000x1_0
          (select (W (Proc.devRef .tc main_v12) : IVec S100000 1) (W (Proc.devRef .tc main_v13) : FVec Ideal S100000 .f32)
            (broadcastInDim S100000 ![] bcast_S_S100000 (W (Proc.devRef .tc main_cst_3) : FVec Ideal S_ .f32))) := by
  after_results
  rfl

theorem W2_v12 (c : Dev nD) : W2 m ρ c (Proc.devRef .tc main_v12)
    = cmpf .ogt (degK (dstRawK (W1 m ρ c (Proc.devRef .tc main_arg5)))) (broadcastInDim S100000 ![] bcast_S_S100000 (constant S_ .f32 0x00000000#32)) := by
  show StableHlo.after hostOps1 (W1 m ρ c) (Proc.devRef .tc main_v12) = _
  after_results
  rfl
theorem W2_v13 (c : Dev nD) : W2 m ρ c (Proc.devRef .tc main_v13) = Host.rsqrt (degK (dstRawK (W1 m ρ c (Proc.devRef .tc main_arg5)))) := by
  show StableHlo.after hostOps1 (W1 m ρ c) (Proc.devRef .tc main_v13) = _
  after_results
  rfl
theorem W2_cst3 (c : Dev nD) : (W2 m ρ c (Proc.devRef .tc main_cst_3) : FVec Ideal S_ .f32) = constant (F := Ideal) S_ .f32 0x00000000#32 := by
  show StableHlo.after hostOps1 (W1 m ρ c) (Proc.devRef .tc main_cst_3) = _
  after_results
theorem W4_v15 (c : Dev nD) : W4 m ρ c (Proc.devRef .tc main_v15) = disColK (dstRawK (W1 m ρ c (Proc.devRef .tc main_arg5))) := by
  show StableHlo.after hostOps1_2 (StableHlo.after hostOps1_1 (W2 m ρ c)) (Proc.devRef .tc main_v15) = _
  rw [tail_v15, W2_v12, W2_v13, W2_cst3]
  unfold disColK
  rfl

/-- The edge list reaches the first stretch as launched. -/
theorem W1_arg5 (c : Dev nD) : W1 m ρ c (Proc.devRef .tc main_arg5) = m ((c : Thread nD τ).loc main_arg5) :=
  W1_of_ne m ρ c main_arg5 (by decide)

/-! ## Buffers the stretches leave alone -/

theorem W4_main_v0 (c : Dev nD) : W4 m ρ c (Proc.devRef .tc main_v0) = W1 m ρ c (Proc.devRef .tc main_v0) :=
  calc W4 m ρ c (Proc.devRef .tc main_v0)
    _ = W3 m ρ c (Proc.devRef .tc main_v0) := (StableHlo.after_of_forall_not_mem (b := Proc.devRef .tc main_v0) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_v0) := (StableHlo.after_of_forall_not_mem (b := Proc.devRef .tc main_v0) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_v0) := (StableHlo.after_of_forall_not_mem (b := Proc.devRef .tc main_v0) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W4_main_arg20 (c : Dev nD) : W4 m ρ c (Proc.devRef .tc main_arg20) = W1 m ρ c (Proc.devRef .tc main_arg20) :=
  calc W4 m ρ c (Proc.devRef .tc main_arg20)
    _ = W3 m ρ c (Proc.devRef .tc main_arg20) := (StableHlo.after_of_forall_not_mem (b := Proc.devRef .tc main_arg20) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_arg20) := (StableHlo.after_of_forall_not_mem (b := Proc.devRef .tc main_arg20) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg20) := (StableHlo.after_of_forall_not_mem (b := Proc.devRef .tc main_arg20) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W4_main_arg21 (c : Dev nD) : W4 m ρ c (Proc.devRef .tc main_arg21) = W1 m ρ c (Proc.devRef .tc main_arg21) :=
  calc W4 m ρ c (Proc.devRef .tc main_arg21)
    _ = W3 m ρ c (Proc.devRef .tc main_arg21) := (StableHlo.after_of_forall_not_mem (b := Proc.devRef .tc main_arg21) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_arg21) := (StableHlo.after_of_forall_not_mem (b := Proc.devRef .tc main_arg21) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg21) := (StableHlo.after_of_forall_not_mem (b := Proc.devRef .tc main_arg21) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W4_main_arg19 (c : Dev nD) : W4 m ρ c (Proc.devRef .tc main_arg19) = W1 m ρ c (Proc.devRef .tc main_arg19) :=
  calc W4 m ρ c (Proc.devRef .tc main_arg19)
    _ = W3 m ρ c (Proc.devRef .tc main_arg19) := (StableHlo.after_of_forall_not_mem (b := Proc.devRef .tc main_arg19) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_arg19) := (StableHlo.after_of_forall_not_mem (b := Proc.devRef .tc main_arg19) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W1 m ρ c (Proc.devRef .tc main_arg19) := (StableHlo.after_of_forall_not_mem (b := Proc.devRef .tc main_arg19) _ _ (List.forall_iff_forall_mem.mp (by
        simp only [hostOps1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W4_main_v2 (c : Dev nD) : W4 m ρ c (Proc.devRef .tc main_v2) = W2 m ρ c (Proc.devRef .tc main_v2) :=
  calc W4 m ρ c (Proc.devRef .tc main_v2)
    _ = W3 m ρ c (Proc.devRef .tc main_v2) := (StableHlo.after_of_forall_not_mem (b := Proc.devRef .tc main_v2) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_v2) := (StableHlo.after_of_forall_not_mem (b := Proc.devRef .tc main_v2) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W4_main_v4 (c : Dev nD) : W4 m ρ c (Proc.devRef .tc main_v4) = W2 m ρ c (Proc.devRef .tc main_v4) :=
  calc W4 m ρ c (Proc.devRef .tc main_v4)
    _ = W3 m ρ c (Proc.devRef .tc main_v4) := (StableHlo.after_of_forall_not_mem (b := Proc.devRef .tc main_v4) _ _ (List.forall_iff_forall_mem.mp (by
        simp only [hostOps1_2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
    _ = W2 m ρ c (Proc.devRef .tc main_v4) := (StableHlo.after_of_forall_not_mem (b := Proc.devRef .tc main_v4) _ _ (List.forall_iff_forall_mem.mp (by
        simp only [hostOps1_1, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_v16 (c : Dev nD) : W6 m ρ c (Proc.devRef .tc main_v16) = W5 m ρ c (Proc.devRef .tc main_v16) :=
  (StableHlo.after_of_forall_not_mem (b := Proc.devRef .tc main_v16) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_v15 (c : Dev nD) : W6 m ρ c (Proc.devRef .tc main_v15) = W5 m ρ c (Proc.devRef .tc main_v15) :=
  (StableHlo.after_of_forall_not_mem (b := Proc.devRef .tc main_v15) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_arg20 (c : Dev nD) : W6 m ρ c (Proc.devRef .tc main_arg20) = W5 m ρ c (Proc.devRef .tc main_arg20) :=
  (StableHlo.after_of_forall_not_mem (b := Proc.devRef .tc main_arg20) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_arg21 (c : Dev nD) : W6 m ρ c (Proc.devRef .tc main_arg21) = W5 m ρ c (Proc.devRef .tc main_arg21) :=
  (StableHlo.after_of_forall_not_mem (b := Proc.devRef .tc main_arg21) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_v2 (c : Dev nD) : W6 m ρ c (Proc.devRef .tc main_v2) = W5 m ρ c (Proc.devRef .tc main_v2) :=
  (StableHlo.after_of_forall_not_mem (b := Proc.devRef .tc main_v2) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W6_main_v4 (c : Dev nD) : W6 m ρ c (Proc.devRef .tc main_v4) = W5 m ρ c (Proc.devRef .tc main_v4) :=
  (StableHlo.after_of_forall_not_mem (b := Proc.devRef .tc main_v4) _ _ (List.forall_iff_forall_mem.mp (by
        simp only [hostOps2, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_v27 (c : Dev nD) : W8 m ρ c (Proc.devRef .tc main_v27) = W7 m ρ c (Proc.devRef .tc main_v27) :=
  (StableHlo.after_of_forall_not_mem (b := Proc.devRef .tc main_v27) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_v15 (c : Dev nD) : W8 m ρ c (Proc.devRef .tc main_v15) = W7 m ρ c (Proc.devRef .tc main_v15) :=
  (StableHlo.after_of_forall_not_mem (b := Proc.devRef .tc main_v15) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_arg22 (c : Dev nD) : W8 m ρ c (Proc.devRef .tc main_arg22) = W7 m ρ c (Proc.devRef .tc main_arg22) :=
  (StableHlo.after_of_forall_not_mem (b := Proc.devRef .tc main_arg22) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_arg23 (c : Dev nD) : W8 m ρ c (Proc.devRef .tc main_arg23) = W7 m ρ c (Proc.devRef .tc main_arg23) :=
  (StableHlo.after_of_forall_not_mem (b := Proc.devRef .tc main_arg23) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_arg24 (c : Dev nD) : W8 m ρ c (Proc.devRef .tc main_arg24) = W7 m ρ c (Proc.devRef .tc main_arg24) :=
  (StableHlo.after_of_forall_not_mem (b := Proc.devRef .tc main_arg24) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_arg25 (c : Dev nD) : W8 m ρ c (Proc.devRef .tc main_arg25) = W7 m ρ c (Proc.devRef .tc main_arg25) :=
  (StableHlo.after_of_forall_not_mem (b := Proc.devRef .tc main_arg25) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))
theorem W8_main_arg26 (c : Dev nD) : W8 m ρ c (Proc.devRef .tc main_arg26) = W7 m ρ c (Proc.devRef .tc main_arg26) :=
  (StableHlo.after_of_forall_not_mem (b := Proc.devRef .tc main_arg26) _ _ (List.forall_iff_forall_mem.mp (by
        simp only [hostOps3, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

/-! ## The two aggregations -/

theorem W6_v26 (c : Dev nD) : W6 m ρ c (Proc.devRef .tc main_v26)
    = aggK (W5 m ρ c (Proc.devRef .tc main_v16)) (W5 m ρ c (Proc.devRef .tc main_v2)) (W5 m ρ c (Proc.devRef .tc main_v4)) := by
  show StableHlo.after hostOps2 (W5 m ρ c) (Proc.devRef .tc main_v26) = _
  after_results
  rfl
theorem W8_v37 (c : Dev nD) : W8 m ρ c (Proc.devRef .tc main_v37)
    = aggK (W7 m ρ c (Proc.devRef .tc main_v27)) (W7 m ρ c (Proc.devRef .tc main_v2)) (W7 m ρ c (Proc.devRef .tc main_v4)) := by
  show StableHlo.after hostOps3 (W7 m ρ c) (Proc.devRef .tc main_v37) = _
  after_results
  rfl

end Cert.KernelIdeal.HostSide

end
-- ==== Proof.LibHostIdeal.lean ====
/-
  The host's float operations on the extended reals, entry by entry, over arbitrary shapes: the accumulating scatter is
  the sum over the updates that land on the entry, the power is the power of the entries.
-/
import Idealize.ShloMosaic.PureOps.Ideal
import Idealize.ShloMosaic.PureOps.Contract
import Idealize.ShloMosaic.Lib.ValueIdx

noncomputable section

namespace Idealize.ShloMosaic.HostIdeal

open Idealize.ShloMosaic

variable {s si u : Shape} {w : Nat}

/-- The host's accumulating scatter on the extended reals. -/
theorem scatterAdd_eq (d : ScatterDims s si u) (x : FVec Ideal s .f32) (idx : IVec si w) (upd : FVec Ideal u .f32) :
    Host.scatterAdd d x idx upd = Ideal.hostScatterAdd d x idx upd := rfl

/-- The host's power at an entry. -/
theorem powf_apply (a b : FVec Ideal s .f32) (i : s.Idx) : Host.powf a b i = Ideal.pow (a i) (b i) := rfl

end Idealize.ShloMosaic.HostIdeal

end
-- ==== Proof.KernelHostRead.lean ====
/-
  The host operations of the idealized kernel's program read at an entry, in the specification's terms.

  Row r of the edge list read at an edge; the target column as it stands and the source column with negative words moved
  up, which are the specification's two columns; every node's degree, the edges landing on it counted from zero plus one
  for its loop; the factor column, the guarded inverse square root of the degree; and the aggregation of a table whose
  rows are another table's rows scaled by the factors, which is the specification's sum over the edges of the scaled
  source rows. Every step that compares a value by unfolding is stated over an arbitrary array, so that no comparison
  ever has to evaluate a sum over the edges.
-/
import proofs.«102536_j32590211842598_2_alg».proof.Proof.KernelHost
import proofs.«102536_j32590211842598_2_alg».proof.Proof.BotGcnSpec
import proofs.«102536_j32590211842598_2_alg».proof.Proof.LibNodeScale
import proofs.«102536_j32590211842598_2_alg».proof.Proof.LibElemScatter
import proofs.«102536_j32590211842598_2_alg».proof.Proof.LibHostIdeal
import proofs.«102536_j32590211842598_2_alg».proof.Proof.LibColumnRow
import proofs.«102536_j32590211842598_2_alg».proof.Proof.LibSymNorm
import Idealize.ShloMosaic.PureOps.Ideal.Laws
import Idealize.ShloMosaic.Lib.Pipeline.Value

set_option maxRecDepth 16384

noncomputable section

open scoped BigOperators

namespace Cert.KernelIdeal.HostSide

open Cert.KernelIdeal Cert.KernelIdeal.Gen Idealize.ShloMosaic Idealize.ShloMosaic.TcCoe
open Idealize.ShloMosaic.ValueIdx Idealize.ShloMosaic.SegmentSum Idealize.ShloMosaic.NodeScale Idealize.ShloMosaic.ElemScatter

theorem srcRawK_apply (edge : IVec S2x1600000 32) (e : Fin 1600000) : srcRawK edge (ix1 e) = edge (ix2 (0 : Fin 2) e) := by
  unfold srcRawK
  rw [shapeCast_apply _ _ (ix1 e) (ix2 (0 : Fin 1) e) (by rw [Shape.rowMajor_val_two, Shape.rowMajor_val_one]; show 0 * 1600000 + e.val = e.val; omega)]
  exact extractStridedSlice_apply ![0, 0] edge _ (ix2 (0 : Fin 1) e) (ix2 (0 : Fin 2) e) (fun a => by
    match a with
    | ⟨0, _⟩ => rfl
    | ⟨1, _⟩ => show e.val = 0 + e.val; omega)

theorem dstRawK_apply (edge : IVec S2x1600000 32) (e : Fin 1600000) : dstRawK edge (ix1 e) = edge (ix2 (1 : Fin 2) e) := by
  unfold dstRawK
  rw [shapeCast_apply _ _ (ix1 e) (ix2 (0 : Fin 1) e) (by rw [Shape.rowMajor_val_two, Shape.rowMajor_val_one]; show 0 * 1600000 + e.val = e.val; omega)]
  exact extractStridedSlice_apply ![1, 0] edge _ (ix2 (0 : Fin 1) e) (ix2 (1 : Fin 2) e) (fun a => by
    match a with
    | ⟨0, _⟩ => rfl
    | ⟨1, _⟩ => show e.val = 0 + e.val; omega)

theorem dstColK_apply (dstRaw : IVec S1600000 32) (e : Fin 1600000) : dstColK dstRaw (ix2 e (0 : Fin 1)) = dstRaw (ix1 e) :=
  Cert.LibColumnRow.broadcastInDim_a_a1_apply _ dstRaw e 0

/-- A scalar spread over an array reads the scalar everywhere. -/
theorem fill_apply {α : Type} {t : Shape} (h : (⟨0, ![]⟩ : Shape).BroadcastsInDim t ![]) (z : (⟨0, ![]⟩ : Shape).Idx → α) (i : t.Idx) :
    broadcastInDim t ![] h z i = z ix0 :=
  broadcastInDim_apply ![] h z i ix0 (fun a => a.elim0)

theorem srcColK_apply (srcRaw : IVec S1600000 32) (e : Fin 1600000) : srcColK srcRaw (ix2 e (0 : Fin 1)) = Cert.BotGcn.wrapW (srcRaw (ix1 e)) := by
  unfold srcColK
  rw [Cert.LibColumnRow.broadcastInDim_a_a1_apply _ _ e 0, select_apply]
  show Scalar.select (IntOp.cmpi .slt (srcRaw (ix1 e)) (broadcastInDim S1600000 ![] bcast_S_S1600000 (constantI S_ 32 0#32) (ix1 e)))
      (IntOp.addi (srcRaw (ix1 e)) (broadcastInDim S1600000 ![] bcast_S_S1600000 (constantI S_ 32 100000#32) (ix1 e))) (srcRaw (ix1 e)) = _
  rw [fill_apply, fill_apply]
  rfl

/-- Two columns of indices that agree on every edge are one column. -/
theorem col_ext {α : Type} {E : ℕ} (f g : (⟨2, ![E, 1]⟩ : Shape).Idx → α) (h : ∀ e : Fin E, f (ix2 e (0 : Fin 1)) = g (ix2 e (0 : Fin 1))) : f = g := by
  funext j
  have h1 : (j 1).val < 1 := (j 1).isLt
  have hj : j = ix2 (⟨(j 0).val, (j 0).isLt⟩ : Fin E) (0 : Fin 1) := by
    funext a
    match a with
    | ⟨0, _⟩ => rfl
    | ⟨1, _⟩ => exact Fin.ext (by show (j 1).val = 0; omega)
  rw [hj]
  exact h _

theorem srcCol_eq (edge : IVec S2x1600000 32) : srcColK (srcRawK edge) = Cert.BotGcn.srcCol edge :=
  col_ext _ _ fun e => by rw [srcColK_apply, srcRawK_apply]; rfl

theorem dstCol_eq (edge : IVec S2x1600000 32) : dstColK (dstRawK edge) = Cert.BotGcn.dstCol edge :=
  col_ext _ _ fun e => by rw [dstColK_apply, dstRawK_apply]; rfl

/-- The degree at node n is the specification's. -/
theorem degK_apply (edge : IVec S2x1600000 32) (n : Fin 100000) :
    degK (dstRawK edge) (ix1 n) = Cert.BotGcn.degAt (N := 100000) (Cert.BotGcn.dstCol edge) n := by
  unfold degK Cert.BotGcn.degAt
  rw [addf_apply, Idealize.ShloMosaic.HostIdeal.scatterAdd_eq]
  show Ideal.hostScatterAdd (elemScatterDims 100000 1600000 scatter_S100000_S1600000x1_S1600000_n_0_0_1_wf) _ _ _ (ix1 n) + _ = _
  rw [elemScatterAdd_apply, fill_apply, fill_apply, dstCol_eq]
  refine congrArg₂ (· + ·) (congrArg₂ (· + ·) rfl (Finset.sum_congr rfl fun e _ => ?_)) rfl
  rw [fill_apply]
  rfl

/-- The host's inverse square root and a constant array at an entry, for ANY array. -/
theorem hostRsqrt_apply {s : Shape} (x : FVec Ideal s .f32) (i : s.Idx) : Host.rsqrt x i = Ideal.rsqrt (x i) := rfl

/-- The guarded inverse square root as the program spells it, for ANY degree. -/
theorem guard_eq (v : EReal) :
    (if Ideal.ofBits .f32 0x00000000#32 < v then Ideal.rsqrt v else Ideal.ofBits .f32 0x00000000#32) = Cert.BotGcn.disOf v := rfl

/-- The factor column is the specification's factor of every node. -/
theorem disCol_apply (edge : IVec S2x1600000 32) (n : Fin 100000) :
    disColK (dstRawK edge) (ix2 n (0 : Fin 1)) = Cert.BotGcn.disRow (N := 100000) (Cert.BotGcn.dstCol edge) (ix1 n) := by
  unfold disColK
  rw [Cert.LibColumnRow.broadcastInDim_a_a1_apply _ _ n 0, select_apply, cmpf_apply, Ideal.cmpf_def, Cert.LibSymNorm.select_cmp_ogt,
    fill_apply, hostRsqrt_apply, constant_apply, degK_apply, Cert.BotGcn.disRow_apply]
  exact guard_eq _

/-- A table whose rows are P's rows scaled by the factors, gathered at the sources and summed at the targets. -/
theorem agg_scaled (edge : IVec S2x1600000 32) (P Y : S100000x128.Idx → EReal)
    (hY : ∀ (r : Fin 100000) (k : Fin 128), Y (ix2 r k) = P (ix2 r k) * Cert.BotGcn.disRow (N := 100000) (Cert.BotGcn.dstCol edge) (ix1 r))
    (n : Fin 100000) (c : Fin 128) :
    aggK Y (srcRawK edge) (dstRawK edge) (ix2 n c)
      = 0 + sourceSum Cert.BotGcn.hN (Cert.BotGcn.disRow (N := 100000) (Cert.BotGcn.dstCol edge)) P (Cert.BotGcn.srcCol edge) (Cert.BotGcn.dstCol edge) n c := by
  unfold aggK
  rw [srcCol_eq, dstCol_eq]
  exact scatterGather_scaled (N := 100000) (E := 1600000) (C := 128) Cert.BotGcn.hN scatter_S100000x128_S1600000x1_S1600000x128_1_0_0_1_wf
    gather_S100000x128_S1600000x1_S1600000x128_1_0_n_n_0_1_1128_wf bcast_S_S100000x128 _ P Y hY (Cert.BotGcn.srcCol edge) (Cert.BotGcn.dstCol edge)
    (constant S_ .f32 0x00000000#32) Ideal.ofBits_zero_f32 n c

end Cert.KernelIdeal.HostSide

end
-- ==== Proof.KernelNet.lean ====
/-
  The idealized kernel's network, as nested functions of whole arrays, is the specification.

  The kernel's program leaves, in turn: the encoder's table; that table times the first convolution's matrix with every
  row scaled by its node's factor; the first convolution closed (the factor times the neighbours' sum plus the row's own
  value, plus the bias) and fed through the second matrix, rows scaled again; and the second convolution closed and fed
  through the two dense layers. A table whose rows are P's rows scaled by the factors aggregates to the specification's
  sum over the edges of the scaled source rows, so each closing step is the specification's convolution entry.
-/
import proofs.«102536_j32590211842598_2_alg».proof.Proof.KernelBodies
import proofs.«102536_j32590211842598_2_alg».proof.Proof.KernelEncoder
import proofs.«102536_j32590211842598_2_alg».proof.Proof.KernelHostRead
import proofs.«102536_j32590211842598_2_alg».proof.Proof.BotGcnSpec

set_option maxRecDepth 16384

noncomputable section

open scoped BigOperators

namespace Cert.KernelIdeal.Net

open Cert.KernelIdeal Cert.KernelIdeal.Gen Idealize.ShloMosaic Idealize.ShloMosaic.TcCoe
open Cert.KernelIdeal.Bodies Cert.KernelIdeal.Encoder Cert.KernelIdeal.HostSide
open Idealize.ShloMosaic.ValueIdx Idealize.ShloMosaic.SegmentSum Idealize.ShloMosaic.NodeScale

/-- The encoder's table is the specification's, entry by entry. -/
theorem encoderK_eq (a0 : S100000x768.Idx → EReal) (a1 : S100000x768.Idx → EReal) (a2 : S100000x7.Idx → EReal) (a3 : S100000x11.Idx → EReal) (a4 : S100000x1.Idx → EReal) (a7 : S768x28.Idx → EReal) (a8 : S28.Idx → EReal) (a9 : S768x36.Idx → EReal) (a10 : S36.Idx → EReal) (a11 : S7x12.Idx → EReal) (a12 : S12.Idx → EReal) (a13 : S11x40.Idx → EReal) (a14 : S40.Idx → EReal) (a15 : S1x12.Idx → EReal) (a16 : S12.Idx → EReal) (a17 : S128x128.Idx → EReal) (a18 : S128.Idx → EReal) :
    encoderK a0 a1 a2 a3 a4 a7 a8 a9 a10 a11 a12 a13 a14 a15 a16 a17 a18 = Cert.BotGcn.tab (Cert.BotGcn.encoderAt a0 a1 a2 a3 a4 a7 a8 a9 a10 a11 a12 a13 a14 a15 a16 a17 a18) := rfl

/-- The rectifier of the small bodies is the specification's, for ANY value. -/
theorem rect_eq (x : EReal) : Cert.KernelIdeal.Bodies.rect x = Cert.BotGcn.lrelu x := rfl

section Net
variable (edge : IVec S2x1600000 32)

/-- The closing step on a table of scaled rows is the specification's convolution entry. -/
theorem close_layer (P Y : S100000x128.Idx → EReal)
    (hY : ∀ (r : Fin 100000) (k : Fin 128), Y (ix2 r k) = P (ix2 r k) * Cert.BotGcn.disRow (N := 100000) (Cert.BotGcn.dstCol edge) (ix1 r))
    (b : S128.Idx → EReal) (n : Fin 100000) (q : Fin 128) :
    closeAt (aggK Y (srcRawK edge) (dstRawK edge)) Y (disColK (dstRawK edge)) b n q
      = Cert.BotGcn.layerAt Cert.BotGcn.hN (Cert.BotGcn.disRow (N := 100000) (Cert.BotGcn.dstCol edge)) P (Cert.BotGcn.srcCol edge) (Cert.BotGcn.dstCol edge) b n q := by
  unfold closeAt Cert.BotGcn.layerAt
  rw [agg_scaled edge P Y hY, hY, disCol_apply]

/-- The first small region's table. -/
def y1K (X0 : S100000x128.Idx → EReal) (w : S128x128.Idx → EReal) : S100000x128.Idx → EReal :=
  scaledProd X0 w (disColK (dstRawK edge))
/-- The second small region's table. -/
def y2K (Y1 : S100000x128.Idx → EReal) (b : S128.Idx → EReal) (w : S128x128.Idx → EReal) : S100000x128.Idx → EReal :=
  closedProd (aggK Y1 (srcRawK edge) (dstRawK edge)) Y1 (disColK (dstRawK edge)) b w
/-- The third small region's table: the result. -/
def outK (Y2 : S100000x128.Idx → EReal) (b : S128.Idx → EReal) (w1 : S128x128.Idx → EReal) (b1 : S128.Idx → EReal)
    (w2 : S128x2.Idx → EReal) (b2 : S2.Idx → EReal) : S100000x2.Idx → EReal :=
  closedHead (aggK Y2 (srcRawK edge) (dstRawK edge)) Y2 (disColK (dstRawK edge)) b w1 b1 w2 b2

theorem y1K_apply (X0 : S100000x128.Idx → EReal) (w : S128x128.Idx → EReal) (n : Fin 100000) (c : Fin 128) :
    y1K edge X0 w (ix2 n c)
      = Cert.BotGcn.tab (Cert.BotGcn.prodAt X0 w) (ix2 n c) * Cert.BotGcn.disRow (N := 100000) (Cert.BotGcn.dstCol edge) (ix1 n) := by
  show (∑ q : Fin 128, X0 (ix2 n q) * w (ix2 q c)) * disColK (dstRawK edge) (ix2 n (0 : Fin 1)) = _
  rw [disCol_apply]
  rfl

theorem y2K_apply (P1 Y1 : S100000x128.Idx → EReal)
    (hY1 : ∀ (r : Fin 100000) (k : Fin 128), Y1 (ix2 r k) = P1 (ix2 r k) * Cert.BotGcn.disRow (N := 100000) (Cert.BotGcn.dstCol edge) (ix1 r))
    (b : S128.Idx → EReal) (w : S128x128.Idx → EReal) (n : Fin 100000) (c : Fin 128) :
    y2K edge Y1 b w (ix2 n c)
      = Cert.BotGcn.tab (Cert.BotGcn.prodAt (Cert.BotGcn.tab (Cert.BotGcn.layerAt Cert.BotGcn.hN
            (Cert.BotGcn.disRow (N := 100000) (Cert.BotGcn.dstCol edge)) P1 (Cert.BotGcn.srcCol edge) (Cert.BotGcn.dstCol edge) b)) w) (ix2 n c)
          * Cert.BotGcn.disRow (N := 100000) (Cert.BotGcn.dstCol edge) (ix1 n) := by
  show (∑ q : Fin 128, closeAt (aggK Y1 (srcRawK edge) (dstRawK edge)) Y1 (disColK (dstRawK edge)) b n q * w (ix2 q c))
      * disColK (dstRawK edge) (ix2 n (0 : Fin 1)) = _
  rw [disCol_apply]
  simp only [close_layer edge P1 Y1 hY1]
  rfl

theorem outK_apply (P2 Y2 : S100000x128.Idx → EReal)
    (hY2 : ∀ (r : Fin 100000) (k : Fin 128), Y2 (ix2 r k) = P2 (ix2 r k) * Cert.BotGcn.disRow (N := 100000) (Cert.BotGcn.dstCol edge) (ix1 r))
    (b : S128.Idx → EReal) (w1 : S128x128.Idx → EReal) (b1 : S128.Idx → EReal) (w2 : S128x2.Idx → EReal) (b2 : S2.Idx → EReal)
    (n : Fin 100000) (r : Fin 2) :
    outK edge Y2 b w1 b1 w2 b2 (ix2 n r)
      = Cert.BotGcn.prodAt (Cert.BotGcn.tab (fun p q => Cert.BotGcn.lrelu (Cert.BotGcn.prodAt (Cert.BotGcn.tab (Cert.BotGcn.layerAt Cert.BotGcn.hN
            (Cert.BotGcn.disRow (N := 100000) (Cert.BotGcn.dstCol edge)) P2 (Cert.BotGcn.srcCol edge) (Cert.BotGcn.dstCol edge) b)) w1 p q + b1 (ix1 q)))) w2 n r
          + b2 (ix1 r) := by
  show (∑ k : Fin 128, Cert.KernelIdeal.Bodies.rect ((∑ q : Fin 128, closeAt (aggK Y2 (srcRawK edge) (dstRawK edge)) Y2 (disColK (dstRawK edge)) b n q * w1 (ix2 q k)) + b1 (ix1 k))
      * w2 (ix2 k r)) + b2 (ix1 r) = _
  simp only [close_layer edge P2 Y2 hY2, rect_eq]
  rfl

end Net

/-- THE KERNEL'S NETWORK: the four regions' tables nested through the host stretches. -/
def netK (a0 : S100000x768.Idx → EReal) (a1 : S100000x768.Idx → EReal) (a2 : S100000x7.Idx → EReal) (a3 : S100000x11.Idx → EReal) (a4 : S100000x1.Idx → EReal) (a5 : IVec S2x1600000 32) (a7 : S768x28.Idx → EReal) (a8 : S28.Idx → EReal) (a9 : S768x36.Idx → EReal) (a10 : S36.Idx → EReal) (a11 : S7x12.Idx → EReal) (a12 : S12.Idx → EReal) (a13 : S11x40.Idx → EReal) (a14 : S40.Idx → EReal) (a15 : S1x12.Idx → EReal) (a16 : S12.Idx → EReal) (a17 : S128x128.Idx → EReal) (a18 : S128.Idx → EReal) (a19 : S128x128.Idx → EReal) (a20 : S128.Idx → EReal) (a21 : S128x128.Idx → EReal) (a22 : S128.Idx → EReal) (a23 : S128x128.Idx → EReal) (a24 : S128.Idx → EReal) (a25 : S128x2.Idx → EReal) (a26 : S2.Idx → EReal) : S100000x2.Idx → EReal :=
  outK a5 (y2K a5 (y1K a5 (encoderK a0 a1 a2 a3 a4 a7 a8 a9 a10 a11 a12 a13 a14 a15 a16 a17 a18) a19) a20 a21) a22 a23 a24 a25 a26

/-- It is the specification, entry by entry. -/
theorem netK_apply (a0 : S100000x768.Idx → EReal) (a1 : S100000x768.Idx → EReal) (a2 : S100000x7.Idx → EReal) (a3 : S100000x11.Idx → EReal) (a4 : S100000x1.Idx → EReal) (a5 : IVec S2x1600000 32) (a7 : S768x28.Idx → EReal) (a8 : S28.Idx → EReal) (a9 : S768x36.Idx → EReal) (a10 : S36.Idx → EReal) (a11 : S7x12.Idx → EReal) (a12 : S12.Idx → EReal) (a13 : S11x40.Idx → EReal) (a14 : S40.Idx → EReal) (a15 : S1x12.Idx → EReal) (a16 : S12.Idx → EReal) (a17 : S128x128.Idx → EReal) (a18 : S128.Idx → EReal) (a19 : S128x128.Idx → EReal) (a20 : S128.Idx → EReal) (a21 : S128x128.Idx → EReal) (a22 : S128.Idx → EReal) (a23 : S128x128.Idx → EReal) (a24 : S128.Idx → EReal) (a25 : S128x2.Idx → EReal) (a26 : S2.Idx → EReal) (n : Fin 100000) (r : Fin 2) :
    netK a0 a1 a2 a3 a4 a5 a7 a8 a9 a10 a11 a12 a13 a14 a15 a16 a17 a18 a19 a20 a21 a22 a23 a24 a25 a26 (ix2 n r) = Cert.BotGcn.outAt a0 a1 a2 a3 a4 a5 a7 a8 a9 a10 a11 a12 a13 a14 a15 a16 a17 a18 a19 a20 a21 a22 a23 a24 a25 a26 n r := by
  unfold netK
  rw [encoderK_eq]
  rw [outK_apply a5 (Cert.BotGcn.tab (Cert.BotGcn.prodAt (Cert.BotGcn.tab (Cert.BotGcn.layerAt Cert.BotGcn.hN (Cert.BotGcn.disRow (N := 100000) (Cert.BotGcn.dstCol a5)) (Cert.BotGcn.tab (Cert.BotGcn.prodAt (Cert.BotGcn.tab (Cert.BotGcn.encoderAt a0 a1 a2 a3 a4 a7 a8 a9 a10 a11 a12 a13 a14 a15 a16 a17 a18)) a19)) (Cert.BotGcn.srcCol a5) (Cert.BotGcn.dstCol a5) a20)) a21)) _
    (fun r k => y2K_apply a5 (Cert.BotGcn.tab (Cert.BotGcn.prodAt (Cert.BotGcn.tab (Cert.BotGcn.encoderAt a0 a1 a2 a3 a4 a7 a8 a9 a10 a11 a12 a13 a14 a15 a16 a17 a18)) a19)) _ (fun r k => y1K_apply a5 _ a19 r k) a20 a21 r k) a22 a23 a24 a25 a26 n r]
  rfl

end Cert.KernelIdeal.Net

end
-- ==== Proof.KernelFold.lean ====
/-
  The idealized kernel's result buffer, followed through the program.

  The last segment boundary's contents at the result buffer are the third small region's table of the arrays it was
  entered with; those are the second aggregation, the second small region's table and the factor column; and so on back
  to the launch arrays. Each region's exit array is its table of its entry arrays, an input window's array leaves a
  region as it entered, and a buffer no operation writes keeps its contents through a host stretch.
-/
import proofs.«102536_j32590211842598_2_alg».proof.Proof.KernelNet
import proofs.«102536_j32590211842598_2_alg».proof.Proof.KernelHost

set_option maxRecDepth 16384
set_option maxHeartbeats 1600000

noncomputable section

namespace Cert.KernelIdeal.Fold

open Cert.KernelIdeal Cert.KernelIdeal.Gen Idealize.ShloMosaic Idealize.ShloMosaic.TcCoe Idealize.SL.Sem
open Cert.KernelIdeal.Bodies Cert.KernelIdeal.Encoder Cert.KernelIdeal.HostSide Cert.KernelIdeal

variable (m : (ℓ : Loc nD τ sig) → Buf (Elt Ideal) ℓ) (ρ : Dev nD → PrngReg)

/-! ## The encoder's region and the first host part -/

theorem w1_v0 (c : Dev nD) : W1 m ρ c (Proc.devRef .tc main_v0) = encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W1_arr m ρ c 17).trans (final0 (V0 m ρ) c)

theorem v4_v0 (c : Dev nD) : V4 m ρ c main_v0 = encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W4_main_v0 m ρ c).trans (w1_v0 m ρ c)
theorem v4_a19 (c : Dev nD) : V4 m ρ c main_arg19 = (m ((c : Thread nD τ).loc main_arg19)) :=
  (W4_main_arg19 m ρ c).trans (W1_of_ne m ρ c main_arg19 (by decide))
theorem v4_v15 (c : Dev nD) : V4 m ρ c main_v15 = disColK (dstRawK (m ((c : Thread nD τ).loc main_arg5))) :=
  (W4_v15 m ρ c).trans (by rw [W1_arg5])
theorem w4_v2 (c : Dev nD) : W4 m ρ c (Proc.devRef .tc main_v2) = srcRawK (m ((c : Thread nD τ).loc main_arg5)) :=
  (W4_main_v2 m ρ c).trans ((W2_v2 m ρ c).trans (by rw [W1_arg5]))
theorem w4_v4 (c : Dev nD) : W4 m ρ c (Proc.devRef .tc main_v4) = dstRawK (m ((c : Thread nD τ).loc main_arg5)) :=
  (W4_main_v4 m ρ c).trans ((W2_v4 m ρ c).trans (by rw [W1_arg5]))

/-! ## The first small region and the first aggregation -/

theorem w5_v16 (c : Dev nD) : W5 m ρ c (Proc.devRef .tc main_v16) = Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19)) := by
  rw [show W5 m ρ c (Proc.devRef .tc main_v16) = _ from (W5_arr m ρ c 3).trans (final1 (V4 m ρ) c), v4_v0, v4_a19, v4_v15]
  rfl
theorem w5_v15 (c : Dev nD) : W5 m ρ c (Proc.devRef .tc main_v15) = disColK (dstRawK (m ((c : Thread nD τ).loc main_arg5))) :=
  ((W5_arr m ρ c 2).trans (((dat1 (V4 m ρ) c).arrAt_in 2 rfl _).trans (A_eq1 (V4 m ρ) c 2))).trans (v4_v15 m ρ c)
theorem w5_v2 (c : Dev nD) : W5 m ρ c (Proc.devRef .tc main_v2) = srcRawK (m ((c : Thread nD τ).loc main_arg5)) :=
  (W5_of_ne m ρ c main_v2 (by decide)).trans (w4_v2 m ρ c)
theorem w5_v4 (c : Dev nD) : W5 m ρ c (Proc.devRef .tc main_v4) = dstRawK (m ((c : Thread nD τ).loc main_arg5)) :=
  (W5_of_ne m ρ c main_v4 (by decide)).trans (w4_v4 m ρ c)

theorem v6_v26 (c : Dev nD) : V6 m ρ c main_v26 = aggK (Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19))) (srcRawK (m ((c : Thread nD τ).loc main_arg5))) (dstRawK (m ((c : Thread nD τ).loc main_arg5))) := by
  show W6 m ρ c (Proc.devRef .tc main_v26) = _
  rw [W6_v26, w5_v16, w5_v2, w5_v4]
theorem v6_v16 (c : Dev nD) : V6 m ρ c main_v16 = (Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19))) :=
  (W6_main_v16 m ρ c).trans (w5_v16 m ρ c)
theorem v6_v15 (c : Dev nD) : V6 m ρ c main_v15 = disColK (dstRawK (m ((c : Thread nD τ).loc main_arg5))) :=
  (W6_main_v15 m ρ c).trans (w5_v15 m ρ c)
theorem v6_a20 (c : Dev nD) : V6 m ρ c main_arg20 = (m ((c : Thread nD τ).loc main_arg20)) :=
  (W6_main_arg20 m ρ c).trans ((W5_of_ne m ρ c main_arg20 (by decide)).trans ((W4_main_arg20 m ρ c).trans (W1_of_ne m ρ c main_arg20 (by decide))))
theorem v6_a21 (c : Dev nD) : V6 m ρ c main_arg21 = (m ((c : Thread nD τ).loc main_arg21)) :=
  (W6_main_arg21 m ρ c).trans ((W5_of_ne m ρ c main_arg21 (by decide)).trans ((W4_main_arg21 m ρ c).trans (W1_of_ne m ρ c main_arg21 (by decide))))
theorem w6_v2 (c : Dev nD) : W6 m ρ c (Proc.devRef .tc main_v2) = srcRawK (m ((c : Thread nD τ).loc main_arg5)) :=
  (W6_main_v2 m ρ c).trans (w5_v2 m ρ c)
theorem w6_v4 (c : Dev nD) : W6 m ρ c (Proc.devRef .tc main_v4) = dstRawK (m ((c : Thread nD τ).loc main_arg5)) :=
  (W6_main_v4 m ρ c).trans (w5_v4 m ρ c)

/-! ## The second small region and the second aggregation -/

theorem w7_v27 (c : Dev nD) : W7 m ρ c (Proc.devRef .tc main_v27) = (Net.y2K (m ((c : Thread nD τ).loc main_arg5)) (Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19))) (m ((c : Thread nD τ).loc main_arg20)) (m ((c : Thread nD τ).loc main_arg21))) := by
  rw [show W7 m ρ c (Proc.devRef .tc main_v27) = _ from (W7_arr m ρ c 5).trans (final2 (V6 m ρ) c), v6_v26, v6_v16, v6_v15, v6_a20, v6_a21]
  rfl
theorem w7_v15 (c : Dev nD) : W7 m ρ c (Proc.devRef .tc main_v15) = disColK (dstRawK (m ((c : Thread nD τ).loc main_arg5))) :=
  ((W7_arr m ρ c 2).trans (((dat2 (V6 m ρ) c).arrAt_in 2 rfl _).trans (A_eq2 (V6 m ρ) c 2))).trans (v6_v15 m ρ c)
theorem w7_v2 (c : Dev nD) : W7 m ρ c (Proc.devRef .tc main_v2) = srcRawK (m ((c : Thread nD τ).loc main_arg5)) :=
  (W7_of_ne m ρ c main_v2 (by decide)).trans (w6_v2 m ρ c)
theorem w7_v4 (c : Dev nD) : W7 m ρ c (Proc.devRef .tc main_v4) = dstRawK (m ((c : Thread nD τ).loc main_arg5)) :=
  (W7_of_ne m ρ c main_v4 (by decide)).trans (w6_v4 m ρ c)

theorem v8_v37 (c : Dev nD) : V8 m ρ c main_v37 = aggK (Net.y2K (m ((c : Thread nD τ).loc main_arg5)) (Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19))) (m ((c : Thread nD τ).loc main_arg20)) (m ((c : Thread nD τ).loc main_arg21))) (srcRawK (m ((c : Thread nD τ).loc main_arg5))) (dstRawK (m ((c : Thread nD τ).loc main_arg5))) := by
  show W8 m ρ c (Proc.devRef .tc main_v37) = _
  rw [W8_v37, w7_v27, w7_v2, w7_v4]
theorem v8_v27 (c : Dev nD) : V8 m ρ c main_v27 = (Net.y2K (m ((c : Thread nD τ).loc main_arg5)) (Net.y1K (m ((c : Thread nD τ).loc main_arg5)) (encoderK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg19))) (m ((c : Thread nD τ).loc main_arg20)) (m ((c : Thread nD τ).loc main_arg21))) :=
  (W8_main_v27 m ρ c).trans (w7_v27 m ρ c)
theorem v8_v15 (c : Dev nD) : V8 m ρ c main_v15 = disColK (dstRawK (m ((c : Thread nD τ).loc main_arg5))) :=
  (W8_main_v15 m ρ c).trans (w7_v15 m ρ c)
theorem v8_a22 (c : Dev nD) : V8 m ρ c main_arg22 = (m ((c : Thread nD τ).loc main_arg22)) :=
  (((W9_arr m ρ c 3).trans (((dat3 (V8 m ρ) c).arrAt_in 3 rfl _).trans (A_eq3 (V8 m ρ) c 3)))).symm.trans (W9_main_arg22 m ρ c)
theorem v8_a23 (c : Dev nD) : V8 m ρ c main_arg23 = (m ((c : Thread nD τ).loc main_arg23)) :=
  (((W9_arr m ρ c 4).trans (((dat3 (V8 m ρ) c).arrAt_in 4 rfl _).trans (A_eq3 (V8 m ρ) c 4)))).symm.trans (W9_main_arg23 m ρ c)
theorem v8_a24 (c : Dev nD) : V8 m ρ c main_arg24 = (m ((c : Thread nD τ).loc main_arg24)) :=
  (((W9_arr m ρ c 5).trans (((dat3 (V8 m ρ) c).arrAt_in 5 rfl _).trans (A_eq3 (V8 m ρ) c 5)))).symm.trans (W9_main_arg24 m ρ c)
theorem v8_a25 (c : Dev nD) : V8 m ρ c main_arg25 = (m ((c : Thread nD τ).loc main_arg25)) :=
  (((W9_arr m ρ c 6).trans (((dat3 (V8 m ρ) c).arrAt_in 6 rfl _).trans (A_eq3 (V8 m ρ) c 6)))).symm.trans (W9_main_arg25 m ρ c)
theorem v8_a26 (c : Dev nD) : V8 m ρ c main_arg26 = (m ((c : Thread nD τ).loc main_arg26)) :=
  (((W9_arr m ρ c 7).trans (((dat3 (V8 m ρ) c).arrAt_in 7 rfl _).trans (A_eq3 (V8 m ρ) c 7)))).symm.trans (W9_main_arg26 m ρ c)

/-! ## The third small region: the result -/

/-- THE RESULT BUFFER at the last boundary is the kernel's network of the launch arrays. -/
theorem kernel_value (c : Dev nD) : W9 m ρ c (Proc.devRef .tc main_v38) = Net.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  rw [show W9 m ρ c (Proc.devRef .tc main_v38) = _ from (W9_arr m ρ c 8).trans (final3 (V8 m ρ) c), v8_v37, v8_v27, v8_v15, v8_a22, v8_a23, v8_a24, v8_a25, v8_a26]
  rfl

end Cert.KernelIdeal.Fold

end
-- ==== Proof.lean ====
/-
  The certificate of this graph network: a kernel of four fused regions against a plain reference.

  Both programs compute, for 100000 nodes and 1600000 edges: five fields encoded by dense layers with a leaky rectifier,
  joined and projected; two graph convolutions with self loops and symmetric normalisation; a rectified dense layer and
  a last dense layer of width 2. They differ in three places. The reference joins the five encodings and multiplies the
  joined row by the projection matrix, the kernel adds five partial products, one per field against its own rows of the
  matrix: a sum over 128 columns split into five consecutive blocks. The reference appends one self loop per node to the
  edge list and counts degrees and sums messages over the long list, the kernel counts and sums over the real edges and
  adds the loop's term by hand: the long list's sum is the real edges' sum plus the node's own term. And the reference
  weights every message by D(source) · D(target), the kernel scales every row once by its own factor D, sums, and scales
  the finished sum by the target's factor: D(n) is a nonnegative real (the guarded inverse square root of a degree that
  is at least one), and a nonnegative real factor passes out of any finite sum of extended reals, so no entry needs to
  be finite. A change of float format is the identity on the extended reals, and a product into a zero accumulator is
  the plain sum over the contracted axis.

  Both sides are proved equal, entry by entry, to one function of the argument arrays (the specification's `outAt`):
  the reference through its run read one operation at a time, the kernel through its run's last segment boundary, whose
  contents at the result buffer are followed back through the four regions and the host stretches to the launch arrays.
  The three frames: the two kernels' are the generated frame certificates, the reference's is its run with the result
  dropped. The idealization rewrote no operation, so there is nothing to preserve.
-/
import proofs.«102536_j32590211842598_2_alg».proof.Defs
import proofs.«102536_j32590211842598_2_alg».proof.Proof.Gen.Kernel
import proofs.«102536_j32590211842598_2_alg».proof.Proof.Gen.Kernel.Frame
import proofs.«102536_j32590211842598_2_alg».proof.Proof.Gen.KernelIdeal
import proofs.«102536_j32590211842598_2_alg».proof.Proof.Gen.KernelIdeal.Frame
import proofs.«102536_j32590211842598_2_alg».proof.Proof.Gen.ReferenceIdeal
import proofs.«102536_j32590211842598_2_alg».proof.Proof.Gen.Pre_finite_inputs
import proofs.«102536_j32590211842598_2_alg».proof.Proof.RefRun
import proofs.«102536_j32590211842598_2_alg».proof.Proof.RefRead
import proofs.«102536_j32590211842598_2_alg».proof.Proof.RefNetwork
import proofs.«102536_j32590211842598_2_alg».proof.Proof.KernelRun
import proofs.«102536_j32590211842598_2_alg».proof.Proof.KernelNet
import proofs.«102536_j32590211842598_2_alg».proof.Proof.KernelFold
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel as printed runs, and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

set_option maxHeartbeats 4000000 in
/-- From memories that agree on the arguments both idealized programs end with the same result: at every entry
    (n, r) the specification's network of the argument arrays. -/
theorem algebraic : Cert.algebraic_KernelIdeal_ReferenceIdeal := by
  intro m ρ m' ρ' _ hagree
  refine ⟨fun c => Cert.KernelIdeal.Gen.W9 m ρ c (Proc.devRef .tc Cert.KernelIdeal.main_v38),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W9 m ρ c (Proc.devRef .tc Cert.KernelIdeal.main_v38)
  obtain ⟨h0, h1, h2, h3, h4, h5, h6, h7, h8, h9, h10, h11, h12, h13, h14, h15, h16, h17, h18, h19, h20, h21, h22, h23, h24, h25, h26⟩ := hagree c
  rw [Cert.ReferenceIdeal.ReadP.val_main_v157_eq, Cert.KernelIdeal.Fold.kernel_value,
    h0, h1, h2, h3, h4, h5, h7, h8, h9, h10, h11, h12, h13, h14, h15, h16, h17, h18, h19, h20, h21, h22, h23, h24, h25, h26]
  funext i
  obtain ⟨n, r, rfl⟩ : ∃ (n : Fin 100000) (r : Fin 2), i = ix2 n r := ⟨i 0, i 1, eq_ix2 i⟩
  rw [Cert.ReferenceIdeal.RefValue.result_eq, Cert.KernelIdeal.Net.netK_apply]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
